-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v77)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v77) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v87) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x640000 : Shape := ⟨2, ![2, 640000]⟩
abbrev S128x128 : Shape := ⟨2, ![128, 128]⟩
abbrev S128 : Shape := ⟨1, ![128]⟩
abbrev S384x1 : Shape := ⟨2, ![384, 1]⟩
abbrev S1 : Shape := ⟨1, ![1]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S384x1 : S_.BroadcastsInDim S384x1 (![] : Fin 0 → Fin S384x1.rank)
  reducesTo_S384x1_S_d0_1 : S384x1.ReducesTo [0, 1] S_
  bcast_S_S1 : S_.BroadcastsInDim S1 (![] : Fin 0 → Fin S1.rank)
  reducesTo_S1_S_d0 : S1.ReducesTo [0] S_

variable [Facts]

def fn_part3 {F : FTy → Type} [FloatOps F] (main_arg12 : FVec F S1 .f32) (main_v48 : IVec S_ 1) (main_v49 : FVec F S384x1 .f32) (main_v50 : FVec F S384x1 .f32) : IVec S_ 1 :=
  let main_v51 : IVec S384x1 1 := cmpf .olt main_v49 main_v50
  let main_c_19 : IVec S_ 1 := constantI S_ 1 1#1
  let main_v52 : IVec S_ 1 := (fun x v => Host.reduce IntOp.andi x v reducesTo_S384x1_S_d0_1 h_S_) main_v51 main_c_19
  let main_v53 : IVec S_ 1 := andi main_v48 main_v52
  let main_v54 : FVec F S1 .f32 := Host.absf main_arg12
  let main_cst_20 : FVec F S_ .f32 := constant S_ .f32 0x7F800000#32
  let main_v55 : FVec F S1 .f32 := broadcastInDim S1 ![] bcast_S_S1 main_cst_20
  let main_v56 : IVec S1 1 := cmpf .olt main_v54 main_v55
  let main_c_21 : IVec S_ 1 := constantI S_ 1 1#1
  let main_v57 : IVec S_ 1 := (fun x v => Host.reduce IntOp.andi x v reducesTo_S1_S_d0 h_S_) main_v56 main_c_21
  let main_v58 : IVec S_ 1 := andi main_v53 main_v57
  main_v58

def fn_part2 {F : FTy → Type} [FloatOps F] (main_arg8 : FVec F S128x128 .f32) (main_arg9 : FVec F S128x128 .f32) (main_arg10 : FVec F S128 .f32) (main_arg11 : FVec F S384x1 .f32) (main_arg12 : FVec F S1 .f32) (main_v33 : IVec S_ 1) : IVec S_ 1 :=
  let main_v34 : FVec F S128x128 .f32 := Host.absf main_arg8
  let main_cst_12 : FVec F S_ .f32 := constant S_ .f32 0x7F800000#32
  let main_v35 : FVec F S128x128 .f32 := broadcastInDim S128x128 ![] bcast_S_S128x128 main_cst_12
  let main_v36 : IVec S128x128 1 := cmpf .olt main_v34 main_v35
  let main_c_13 : IVec S_ 1 := constantI S_ 1 1#1
  let main_v37 : IVec S_ 1 := (fun x v => Host.reduce IntOp.andi x v reducesTo_S128x128_S_d0_1 h_S_) main_v36 main_c_13
  let main_v38 : IVec S_ 1 := andi main_v33 main_v37
  let main_v39 : FVec F S128x128 .f32 := Host.absf main_arg9
  let main_cst_14 : FVec F S_ .f32 := constant S_ .f32 0x7F800000#32
  let main_v40 : FVec F S128x128 .f32 := broadcastInDim S128x128 ![] bcast_S_S128x128 main_cst_14
  let main_v41 : IVec S128x128 1 := cmpf .olt main_v39 main_v40
  let main_c_15 : IVec S_ 1 := constantI S_ 1 1#1
  let main_v42 : IVec S_ 1 := (fun x v => Host.reduce IntOp.andi x v reducesTo_S128x128_S_d0_1 h_S_) main_v41 main_c_15
  let main_v43 : IVec S_ 1 := andi main_v38 main_v42
  let main_v44 : FVec F S128 .f32 := Host.absf main_arg10
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  let main_v49 : FVec F S384x1 .f32 := Host.absf main_arg11
  let main_cst_18 : FVec F S_ .f32 := constant S_ .f32 0x7F800000#32
  let main_v50 : FVec F S384x1 .f32 := broadcastInDim S384x1 ![] bcast_S_S384x1 main_cst_18
  fn_part3 (F := F) main_arg12 main_v48 main_v49 main_v50

def fn_part1 {F : FTy → Type} [FloatOps F] (main_arg5 : FVec F S128x128 .f32) (main_arg6 : FVec F S128x128 .f32) (main_arg7 : FVec F S128 .f32) (main_arg8 : FVec F S128x128 .f32) (main_arg9 : FVec F S128x128 .f32) (main_arg10 : FVec F S128 .f32) (main_arg11 : FVec F S384x1 .f32) (main_arg12 : FVec F S1 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg5
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128x128 .f32 := Host.absf main_arg6
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg7
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg8 main_arg9 main_arg10 main_arg11 main_arg12 main_v33

def fn {F : FTy → Type} [FloatOps F] (main_arg0 : FVec F S100000x128 .f32) (main_arg1 : IVec S2x640000 32) (main_arg2 : FVec F S128x128 .f32) (main_arg3 : FVec F S128x128 .f32) (main_arg4 : FVec F S128 .f32) (main_arg5 : FVec F S128x128 .f32) (main_arg6 : FVec F S128x128 .f32) (main_arg7 : FVec F S128 .f32) (main_arg8 : FVec F S128x128 .f32) (main_arg9 : FVec F S128x128 .f32) (main_arg10 : FVec F S128 .f32) (main_arg11 : FVec F S384x1 .f32) (main_arg12 : FVec F S1 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128x128 .f32 := Host.absf main_arg3
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg5 main_arg6 main_arg7 main_arg8 main_arg9 main_arg10 main_arg11 main_arg12 main_v13 main_v16
-- ==== Kernel.lean ====
abbrev S100000x128 : Shape := ⟨2, ![100000, 128]⟩
abbrev S2x640000 : Shape := ⟨2, ![2, 640000]⟩
abbrev S128x128 : Shape := ⟨2, ![128, 128]⟩
abbrev S128 : Shape := ⟨1, ![128]⟩
abbrev S384x1 : Shape := ⟨2, ![384, 1]⟩
abbrev S1 : Shape := ⟨1, ![1]⟩
abbrev S1x640000 : Shape := ⟨2, ![1, 640000]⟩
abbrev S640000 : Shape := ⟨1, ![640000]⟩
abbrev S_ : Shape := ⟨0, ![]⟩
abbrev S100000 : Shape := ⟨1, ![100000]⟩
abbrev S640000x1 : Shape := ⟨2, ![640000, 1]⟩
abbrev S100000x1 : Shape := ⟨2, ![100000, 1]⟩
abbrev S640000x128 : Shape := ⟨2, ![640000, 128]⟩
abbrev S1x128 : Shape := ⟨2, ![1, 128]⟩
abbrev S5000x128 : Shape := ⟨2, ![5000, 128]⟩
abbrev S128x1 : Shape := ⟨2, ![128, 1]⟩

abbrev nBuf : Space → Nat
  | .hbm => 112
  | .vmem => 39
  | .smem => 0
  | _ => 0

abbrev bufTy : (tb : Table) → Fin (tcTables nBuf tb) → BufTy
  | .hbm, ⟨0, _⟩ => ⟨S100000x128, .f32⟩
  | .hbm, ⟨1, _⟩ => ⟨S2x640000, .i32⟩
  | .hbm, ⟨2, _⟩ => ⟨S128x128, .f32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128x128, .f32⟩
  | .hbm, ⟨7, _⟩ => ⟨S128, .f32⟩
  | .hbm, ⟨8, _⟩ => ⟨S128x128, .f32⟩
  | .hbm, ⟨9, _⟩ => ⟨S128x128, .f32⟩
  | .hbm, ⟨10, _⟩ => ⟨S128, .f32⟩
  | .hbm, ⟨11, _⟩ => ⟨S384x1, .f32⟩
  | .hbm, ⟨12, _⟩ => ⟨S1, .f32⟩
  | .hbm, ⟨13, _⟩ => ⟨S1x640000, .i32⟩
  | .hbm, ⟨14, _⟩ => ⟨S640000, .i32⟩
  | .hbm, ⟨15, _⟩ => ⟨S1x640000, .i32⟩
  | .hbm, ⟨16, _⟩ => ⟨S640000, .i32⟩
  | .hbm, ⟨17, _⟩ => ⟨S_, .f32⟩
  | .hbm, ⟨18, _⟩ => ⟨S640000, .f32⟩
  | .hbm, ⟨19, _⟩ => ⟨S_, .f32⟩
  | .hbm, ⟨20, _⟩ => ⟨S100000, .f32⟩
  | .hbm, ⟨21, _⟩ => ⟨S640000x1, .i32⟩
  | .hbm, ⟨22, _⟩ => ⟨S100000, .f32⟩
  | .hbm, ⟨23, _⟩ => ⟨S_, .f32⟩
  | .hbm, ⟨24, _⟩ => ⟨S100000, .f32⟩
  | .hbm, ⟨25, _⟩ => ⟨S100000, .f32⟩
  | .hbm, ⟨26, _⟩ => ⟨S_, .f32⟩
  | .hbm, ⟨27, _⟩ => ⟨S100000, .f32⟩
  | .hbm, ⟨28, _⟩ => ⟨S100000, .f32⟩
  | .hbm, ⟨29, _⟩ => ⟨S100000x1, .f32⟩
  | .hbm, ⟨30, _⟩ => ⟨S_, .i32⟩
  | .hbm, ⟨31, _⟩ => ⟨S640000, .i32⟩
  | .hbm, ⟨32, _⟩ => ⟨S640000, .i1⟩
  | .hbm, ⟨33, _⟩ => ⟨S_, .i32⟩
  | .hbm, ⟨34, _⟩ => ⟨S640000, .i32⟩
  | .hbm, ⟨35, _⟩ => ⟨S640000, .i32⟩
  | .hbm, ⟨36, _⟩ => ⟨S640000, .i32⟩
  | .hbm, ⟨37, _⟩ => ⟨S640000x1, .i32⟩
  | .hbm, ⟨38, _⟩ => ⟨S640000x128, .f32⟩
  | .hbm, ⟨39, _⟩ => ⟨S_, .f32⟩
  | .hbm, ⟨40, _⟩ => ⟨S100000x128, .f32⟩
  | .hbm, ⟨41, _⟩ => ⟨S640000x1, .i32⟩
  | .hbm, ⟨42, _⟩ => ⟨S100000x128, .f32⟩
  | .hbm, ⟨43, _⟩ => ⟨S100000x128, .f32⟩
  | .hbm, ⟨44, _⟩ => ⟨S100000x128, .f32⟩
  | .hbm, ⟨45, _⟩ => ⟨S1x128, .f32⟩
  | .hbm, ⟨46, _⟩ => ⟨S100000x128, .f32⟩
  | .hbm, ⟨47, _⟩ => ⟨S_, .i32⟩
  | .hbm, ⟨48, _⟩ => ⟨S640000, .i32⟩
  | .hbm, ⟨49, _⟩ => ⟨S640000, .i1⟩
  | .hbm, ⟨50, _⟩ => ⟨S_, .i32⟩
  | .hbm, ⟨51, _⟩ => ⟨S640000, .i32⟩
  | .hbm, ⟨52, _⟩ => ⟨S640000, .i32⟩
  | .hbm, ⟨53, _⟩ => ⟨S640000, .i32⟩
  | .hbm, ⟨54, _⟩ => ⟨S640000x1, .i32⟩
  | .hbm, ⟨55, _⟩ => ⟨S640000x128, .f32⟩
  | .hbm, ⟨56, _⟩ => ⟨S_, .f32⟩
  | .hbm, ⟨57, _⟩ => ⟨S100000x128, .f32⟩
  | .hbm, ⟨58, _⟩ => ⟨S640000x1, .i32⟩
  | .hbm, ⟨59, _⟩ => ⟨S100000x128, .f32⟩
  | .hbm, ⟨60, _⟩ => ⟨S100000x128, .f32⟩
  | .hbm, ⟨61, _⟩ => ⟨S100000x128, .f32⟩
  | .hbm, ⟨62, _⟩ => ⟨S1x128, .f32⟩
  | .hbm, ⟨63, _⟩ => ⟨S100000x128, .f32⟩
  | .hbm, ⟨64, _⟩ => ⟨S_, .i32⟩
  | .hbm, ⟨65, _⟩ => ⟨S640000, .i32⟩
  | .hbm, ⟨66, _⟩ => ⟨S640000, .i1⟩
  | .hbm, ⟨67, _⟩ => ⟨S_, .i32⟩
  | .hbm, ⟨68, _⟩ => ⟨S640000, .i32⟩
  | .hbm, ⟨69, _⟩ => ⟨S640000, .i32⟩
  | .hbm, ⟨70, _⟩ => ⟨S640000, .i32⟩
  | .hbm, ⟨71, _⟩ => ⟨S640000x1, .i32⟩
  | .hbm, ⟨72, _⟩ => ⟨S640000x128, .f32⟩
  | .hbm, ⟨73, _⟩ => ⟨S_, .f32⟩
  | .hbm, ⟨74, _⟩ => ⟨S100000x128, .f32⟩
  | .hbm, ⟨75, _⟩ => ⟨S640000x1, .i32⟩
  | .hbm, ⟨76, _⟩ => ⟨S100000x128, .f32⟩
  | .hbm, ⟨77, _⟩ => ⟨S100000x128, .f32⟩
  | .hbm, ⟨78, _⟩ => ⟨S100000x128, .f32⟩
  | .hbm, ⟨79, _⟩ => ⟨S1x128, .f32⟩
  | .hbm, ⟨80, _⟩ => ⟨S100000x128, .f32⟩
  | .hbm, ⟨81, _⟩ => ⟨S128x1, .f32⟩
  | .hbm, ⟨82, _⟩ => ⟨S128, .f32⟩
  | .hbm, ⟨83, _⟩ => ⟨S_, .f32⟩
  | .hbm, ⟨84, _⟩ => ⟨S128x128, .f32⟩
  | .hbm, ⟨85, _⟩ => ⟨S_, .i32⟩
  | .hbm, ⟨86, _⟩ => ⟨S1, .i32⟩
  | .hbm, ⟨87, _⟩ => ⟨S128x128, .f32⟩
  | .hbm, ⟨88, _⟩ => ⟨S128x1, .f32⟩
  | .hbm, ⟨89, _⟩ => ⟨S128, .f32⟩
  | .hbm, ⟨90, _⟩ => ⟨S_, .f32⟩
  | .hbm, ⟨91, _⟩ => ⟨S128x128, .f32⟩
  | .hbm, ⟨92, _⟩ => ⟨S_, .i32⟩
  | .hbm, ⟨93, _⟩ => ⟨S1, .i32⟩
  | .hbm, ⟨94, _⟩ => ⟨S128x128, .f32⟩
  | .hbm, ⟨95, _⟩ => ⟨S128x1, .f32⟩
  | .hbm, ⟨96, _⟩ => ⟨S128, .f32⟩
  | .hbm, ⟨97, _⟩ => ⟨S_, .f32⟩
  | .hbm, ⟨98, _⟩ => ⟨S128x128, .f32⟩
  | .hbm, ⟨99, _⟩ => ⟨S_, .i32⟩
  | .hbm, ⟨100, _⟩ => ⟨S1, .i32⟩
  | .hbm, ⟨101, _⟩ => ⟨S128x128, .f32⟩
  | .hbm, ⟨102, _⟩ => ⟨S_, .f32⟩
  | .hbm, ⟨103, _⟩ => ⟨S128, .f32⟩
  | .hbm, ⟨104, _⟩ => ⟨S_, .f32⟩
  | .hbm, ⟨105, _⟩ => ⟨S_, .i32⟩
  | .hbm, ⟨106, _⟩ => ⟨S1, .i32⟩
  | .hbm, ⟨107, _⟩ => ⟨S128, .f32⟩
  | .hbm, ⟨108, _⟩ => ⟨S1x128, .f32⟩
  | .hbm, ⟨109, _⟩ => ⟨S100000x128, .f32⟩
  | .hbm, ⟨110, _⟩ => ⟨S100000x1, .f32⟩
  | .hbm, ⟨111, _⟩ => ⟨S100000, .f32⟩
  | .local _ .vmem, ⟨0, _⟩ => ⟨S5000x128, .f32⟩
  | .local _ .vmem, ⟨1, _⟩ => ⟨S5000x128, .f32⟩
  | .local _ .vmem, ⟨2, _⟩ => ⟨S5000x128, .f32⟩
  | .local _ .vmem, ⟨3, _⟩ => ⟨S5000x128, .f32⟩
  | .local _ .vmem, ⟨4, _⟩ => ⟨S128x128, .f32⟩
  | .local _ .vmem, ⟨5, _⟩ => ⟨S128x128, .f32⟩
  | .local _ .vmem, ⟨6, _⟩ => ⟨S1x128, .f32⟩
  | .local _ .vmem, ⟨7, _⟩ => ⟨S5000x128, .f32⟩
  | .local _ .vmem, ⟨8, _⟩ => ⟨S5000x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S5000x128, .f32⟩
  | .local _ .vmem, ⟨13, _⟩ => ⟨S128x128, .f32⟩
  | .local _ .vmem, ⟨14, _⟩ => ⟨S128x128, .f32⟩
  | .local _ .vmem, ⟨15, _⟩ => ⟨S1x128, .f32⟩
  | .local _ .vmem, ⟨16, _⟩ => ⟨S5000x128, .f32⟩
  | .local _ .vmem, ⟨17, _⟩ => ⟨S5000x128, .f32⟩
  | .local _ .vmem, ⟨18, _⟩ => ⟨S5000x128, .f32⟩
  | .local _ .vmem, ⟨19, _⟩ => ⟨S5000x128, .f32⟩
  | .local _ .vmem, ⟨20, _⟩ => ⟨S5000x128, .f32⟩
  | .local _ .vmem, ⟨21, _⟩ => ⟨S5000x128, .f32⟩
  | .local _ .vmem, ⟨22, _⟩ => ⟨S128x128, .f32⟩
  | .local _ .vmem, ⟨23, _⟩ => ⟨S128x128, .f32⟩
  | .local _ .vmem, ⟨24, _⟩ => ⟨S1x128, .f32⟩
  | .local _ .vmem, ⟨25, _⟩ => ⟨S5000x128, .f32⟩
  | .local _ .vmem, ⟨26, _⟩ => ⟨S5000x128, .f32⟩
  | .local _ .vmem, ⟨27, _⟩ => ⟨S5000x128, .f32⟩
  | .local _ .vmem, ⟨28, _⟩ => ⟨S5000x128, .f32⟩
  | .local _ .vmem, ⟨29, _⟩ => ⟨S5000x128, .f32⟩
  | .local _ .vmem, ⟨30, _⟩ => ⟨S5000x128, .f32⟩
  | .local _ .vmem, ⟨31, _⟩ => ⟨S5000x128, .f32⟩
  | .local _ .vmem, ⟨32, _⟩ => ⟨S5000x128, .f32⟩
  | .local _ .vmem, ⟨33, _⟩ => ⟨S128x128, .f32⟩
  | .local _ .vmem, ⟨34, _⟩ => ⟨S128x128, .f32⟩
  | .local _ .vmem, ⟨35, _⟩ => ⟨S128x128, .f32⟩
  | .local _ .vmem, ⟨36, _⟩ => ⟨S1x128, .f32⟩
  | .local _ .vmem, ⟨37, _⟩ => ⟨S5000x128, .f32⟩
  | .local _ .vmem, ⟨38, _⟩ => ⟨S5000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | _, _ => false

abbrev semScoped : Fin 0 → Bool
  | ⟨_, h⟩ => absurd h (Nat.not_lt_zero _)

abbrev dmaSemScoped : Fin 39 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | _ => false

abbrev sig : RefSig :=
  ofTc nBuf bufTy 0 39 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_cst : Ref sig .tc := ⟨.hbm, 17, rfl⟩
abbrev main_v4 : Ref sig .tc := ⟨.hbm, 18, rfl⟩
abbrev main_cst_0 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_cst_1 : Ref sig .tc := ⟨.hbm, 23, rfl⟩
abbrev main_v8 : Ref sig .tc := ⟨.hbm, 24, rfl⟩
abbrev main_v9 : Ref sig .tc := ⟨.hbm, 25, rfl⟩
abbrev main_cst_2 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_c : Ref sig .tc := ⟨.hbm, 30, rfl⟩
abbrev main_v13 : Ref sig .tc := ⟨.hbm, 31, rfl⟩
abbrev main_v14 : Ref sig .tc := ⟨.hbm, 32, rfl⟩
abbrev main_c_3 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_cst_4 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_c_5 : Ref sig .tc := ⟨.hbm, 47, rfl⟩
abbrev main_v27 : Ref sig .tc := ⟨.hbm, 48, rfl⟩
abbrev main_v28 : Ref sig .tc := ⟨.hbm, 49, rfl⟩
abbrev main_c_6 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_cst_7 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_c_8 : Ref sig .tc := ⟨.hbm, 64, rfl⟩
abbrev main_v41 : Ref sig .tc := ⟨.hbm, 65, rfl⟩
abbrev main_v42 : Ref sig .tc := ⟨.hbm, 66, rfl⟩
abbrev main_c_9 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_cst_10 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_cst_11 : Ref sig .tc := ⟨.hbm, 83, rfl⟩
abbrev main_v57 : Ref sig .tc := ⟨.hbm, 84, rfl⟩
abbrev main_c_12 : Ref sig .tc := ⟨.hbm, 85, rfl⟩
abbrev main_v58 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_cst_13 : Ref sig .tc := ⟨.hbm, 90, rfl⟩
abbrev main_v62 : Ref sig .tc := ⟨.hbm, 91, rfl⟩
abbrev main_c_14 : Ref sig .tc := ⟨.hbm, 92, rfl⟩
abbrev main_v63 : Ref sig .tc := ⟨.hbm, 93, rfl⟩
abbrev main_v64 : Ref sig .tc := ⟨.hbm, 94, rfl⟩
abbrev main_v65 : Ref sig .tc := ⟨.hbm, 95, rfl⟩
abbrev main_v66 : Ref sig .tc := ⟨.hbm, 96, rfl⟩
abbrev main_cst_15 : Ref sig .tc := ⟨.hbm, 97, rfl⟩
abbrev main_v67 : Ref sig .tc := ⟨.hbm, 98, rfl⟩
abbrev main_c_16 : Ref sig .tc := ⟨.hbm, 99, rfl⟩
abbrev main_v68 : Ref sig .tc := ⟨.hbm, 100, rfl⟩
abbrev main_v69 : Ref sig .tc := ⟨.hbm, 101, rfl⟩
abbrev main_cst_17 : Ref sig .tc := ⟨.hbm, 102, rfl⟩
abbrev main_v70 : Ref sig .tc := ⟨.hbm, 103, rfl⟩
abbrev main_v71 : Ref sig .tc := ⟨.hbm, 104, rfl⟩
abbrev main_c_18 : Ref sig .tc := ⟨.hbm, 105, rfl⟩
abbrev main_v72 : Ref sig .tc := ⟨.hbm, 106, rfl⟩
abbrev main_v73 : Ref sig .tc := ⟨.hbm, 107, rfl⟩
abbrev main_v74 : Ref sig .tc := ⟨.hbm, 108, rfl⟩
abbrev main_v75 : Ref sig .tc := ⟨.hbm, 109, rfl⟩
abbrev main_v76 : Ref sig .tc := ⟨.hbm, 110, rfl⟩
abbrev main_v77 : Ref sig .tc := ⟨.hbm, 111, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg1_1 : Ref sig .tc := ⟨.vmem, 21, rfl⟩
abbrev cc2_stg2_0 : Ref sig .tc := ⟨.vmem, 22, rfl⟩
abbrev cc2_stg3_0 : Ref sig .tc := ⟨.vmem, 23, rfl⟩
abbrev cc2_stg4_0 : Ref sig .tc := ⟨.vmem, 24, rfl⟩
abbrev cc2_stg5_0 : Ref sig .tc := ⟨.vmem, 25, rfl⟩
abbrev cc2_stg5_1 : Ref sig .tc := ⟨.vmem, 26, rfl⟩
abbrev cc3_stg0_0 : Ref sig .tc := ⟨.vmem, 27, rfl⟩
abbrev cc3_stg0_1 : Ref sig .tc := ⟨.vmem, 28, rfl⟩
abbrev cc3_stg1_0 : Ref sig .tc := ⟨.vmem, 29, rfl⟩
abbrev cc3_stg1_1 : Ref sig .tc := ⟨.vmem, 30, rfl⟩
abbrev cc3_stg2_0 : Ref sig .tc := ⟨.vmem, 31, rfl⟩
abbrev cc3_stg2_1 : Ref sig .tc := ⟨.vmem, 32, rfl⟩
abbrev cc3_stg3_0 : Ref sig .tc := ⟨.vmem, 33, rfl⟩
abbrev cc3_stg4_0 : Ref sig .tc := ⟨.vmem, 34, rfl⟩
abbrev cc3_stg5_0 : Ref sig .tc := ⟨.vmem, 35, rfl⟩
abbrev cc3_stg6_0 : Ref sig .tc := ⟨.vmem, 36, rfl⟩
abbrev cc3_stg7_0 : Ref sig .tc := ⟨.vmem, 37, rfl⟩
abbrev cc3_stg7_1 : Ref sig .tc := ⟨.vmem, 38, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17
abbrev cc2_sem0_0 : DmaSem sig := 18
abbrev cc2_sem0_1 : DmaSem sig := 19
abbrev cc2_sem1_0 : DmaSem sig := 20
abbrev cc2_sem1_1 : DmaSem sig := 21
abbrev cc2_sem2_0 : DmaSem sig := 22
abbrev cc2_sem3_0 : DmaSem sig := 23
abbrev cc2_sem4_0 : DmaSem sig := 24
abbrev cc2_sem5_0 : DmaSem sig := 25
abbrev cc2_sem5_1 : DmaSem sig := 26
abbrev cc3_sem0_0 : DmaSem sig := 27
abbrev cc3_sem0_1 : DmaSem sig := 28
abbrev cc3_sem1_0 : DmaSem sig := 29
abbrev cc3_sem1_1 : DmaSem sig := 30
abbrev cc3_sem2_0 : DmaSem sig := 31
abbrev cc3_sem2_1 : DmaSem sig := 32
abbrev cc3_sem3_0 : DmaSem sig := 33
abbrev cc3_sem4_0 : DmaSem sig := 34
abbrev cc3_sem5_0 : DmaSem sig := 35
abbrev cc3_sem6_0 : DmaSem sig := 36
abbrev cc3_sem7_0 : DmaSem sig := 37
abbrev cc3_sem7_1 : DmaSem sig := 38

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S5000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S128x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S128x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S5000x128 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_7 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S5000x128 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S5000x128 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 1 → Memref sig .tc .vmem S128x128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S128x128 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S128x128 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 1 → Memref sig .tc .vmem S1x128 .f32 := fun | 0 => Memref.whole cc3_stg6_0 | ⟨_ + 1, h⟩ => absurd h (Nat.not_lt.2 (Nat.le_add_left _ _))
abbrev sem3_6 : Fin 1 → DmaSem sig := fun | 0 => cc3_sem6_0 | ⟨_ + 1, h⟩ => absurd h (Nat.not_lt.2 (Nat.le_add_left _ _))
abbrev reads3_6 : Fin grid3.rank → Bool := ![false]

abbrev stage3_7 : Fin 2 → Memref sig .tc .vmem S5000x128 .f32 := fun | 0 => Memref.whole cc3_stg7_0 | 1 => Memref.whole cc3_stg7_1 | ⟨_ + 2, h⟩ => absurd h (Nat.not_lt.2 (Nat.le_add_left _ _))
abbrev sem3_7 : Fin 2 → DmaSem sig := fun | 0 => cc3_sem7_0 | 1 => cc3_sem7_1 | ⟨_ + 2, h⟩ => absurd h (Nat.not_lt.2 (Nat.le_add_left _ _))
abbrev reads3_7 : Fin grid3.rank → Bool := ![true]

class Facts₀ : Prop where
  slices_S2x640000_S1x640000_0_0 : S2x640000.Slices ![0, 0] S1x640000
  shapeCasts_S1x640000_S640000 : S1x640000.ShapeCasts S640000
  slices_S2x640000_S1x640000_1_0 : S2x640000.Slices ![1, 0] S1x640000
  bcast_S_S640000 : S_.BroadcastsInDim S640000 (![] : Fin 0 → Fin S640000.rank)
  bcast_S_S100000 : S_.BroadcastsInDim S100000 (![] : Fin 0 → Fin S100000.rank)
  bcast_S640000_S640000x1_0 : S640000.BroadcastsInDim S640000x1 (![0] : Fin 1 → Fin S640000x1.rank)
  bcast_S100000_S100000x1_0 : S100000.BroadcastsInDim S100000x1 (![0] : Fin 1 → Fin S100000x1.rank)
  bcast_S_S100000x128 : S_.BroadcastsInDim S100000x128 (![] : Fin 0 → Fin S100000x128.rank)
  bcast_S100000x1_S100000x128_0_1 : S100000x1.BroadcastsInDim S100000x128 (![0, 1] : Fin 2 → Fin S100000x128.rank)
  shapeCasts_S128_S1x128 : S128.ShapeCasts S1x128
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  slices_S384x1_S128x1_0_0 : S384x1.Slices ![0, 0] S128x1
  shapeCasts_S128x1_S128 : S128x1.ShapeCasts S128
  bcast_S_S128x128 : S_.BroadcastsInDim S128x128 (![] : Fin 0 → Fin S128x128.rank)
  bcast_S_S1 : S_.BroadcastsInDim S1 (![] : Fin 0 → Fin S1.rank)
  slices_S384x1_S128x1_128_0 : S384x1.Slices ![128, 0] S128x1
  slices_S384x1_S128x1_256_0 : S384x1.Slices ![256, 0] S128x1
  bcast_S_S128 : S_.BroadcastsInDim S128 (![] : Fin 0 → Fin S128.rank)
  shapeCasts_S1_S_ : S1.ShapeCasts S_
  shapeCasts_S128x128_S128x128 : S128x128.ShapeCasts S128x128
  slices_S100000x128_S100000x1_0_0 : S100000x128.Slices ![0, 0] S100000x1
  shapeCasts_S100000x1_S100000 : S100000x1.ShapeCasts S100000
  scatter_S100000_S640000x1_S640000_n_0_0_1_wf : ScatterDims.WF S100000 S640000x1 S640000 [] [0] [0] 1
  gather_S100000x128_S640000x1_S640000x128_1_0_n_n_0_1_1128_wf : GatherDims.WF S100000x128 S640000x1 S640000x128 [1] [0] [] [0] [] 1 ![1, 128]
  scatter_S100000x128_S640000x1_S640000x128_1_0_0_1_wf : ScatterDims.WF S100000x128 S640000x1 S640000x128 [1] [0] [0] 1
  dot_S5000x128_S128x128_S5000x128_1_0_0_1_n_n_wf : DotDims.WF S5000x128 S128x128 S5000x128 [1] [0] [0] [1] [] []
  scatter_S128x128_S1_S128_0_1_1_0_wf : ScatterDims.WF S128x128 S1 S128 [0] [1] [1] 0
  scatter_S128_S1_S__n_0_0_0_wf : ScatterDims.WF S128 S1 S_ [] [0] [0] 0
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S100000x128.size a
  hwx0_1 : ∀ i : grid0.Coords, EltTy.bits .f32 = 32 ∨ (Rect.block (s := S100000x128) S5000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x128.size a ≤ S100000x128.size a
  hwx0_5 : ∀ i : grid0.Coords, EltTy.bits .f32 = 32 ∨ (Rect.block (s := S100000x128) S5000x128.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S100000x128.size a
  hwx1_1 : ∀ i : grid1.Coords, EltTy.bits .f32 = 32 ∨ (Rect.block (s := S100000x128) S5000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x128.size a ≤ S100000x128.size a
  hwx1_5 : ∀ i : grid1.Coords, EltTy.bits .f32 = 32 ∨ (Rect.block (s := S100000x128) S5000x128.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S100000x128.size a
  hwx2_0 : ∀ i : grid2.Coords, EltTy.bits .f32 = 32 ∨ (Rect.block (s := S100000x128) S5000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x128.size a ≤ S100000x128.size a
  hwx2_1 : ∀ i : grid2.Coords, EltTy.bits .f32 = 32 ∨ (Rect.block (s := S100000x128) S5000x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128x128.size a ≤ S128x128.size a
  hwx2_2 : ∀ i : grid2.Coords, EltTy.bits .f32 = 32 ∨ (Rect.block (s := S128x128) S128x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S128x128.size a ≤ S128x128.size a
  hwx2_3 : ∀ i : grid2.Coords, EltTy.bits .f32 = 32 ∨ (Rect.block (s := S128x128) S128x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x128.size a ≤ S1x128.size a
  hwx2_4 : ∀ i : grid2.Coords, EltTy.bits .f32 = 32 ∨ (Rect.block (s := S1x128) S1x128.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S5000x128.size a ≤ S100000x128.size a
  hwx2_5 : ∀ i : grid2.Coords, EltTy.bits .f32 = 32 ∨ (Rect.block (s := S100000x128) S5000x128.size (cc2_transform_5 i) (hinb2_5 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S100000x128.size a
  hwx3_0 : ∀ i : grid3.Coords, EltTy.bits .f32 = 32 ∨ (Rect.block (s := S100000x128) S5000x128.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S5000x128.size a ≤ S100000x128.size a
  hwx3_1 : ∀ i : grid3.Coords, EltTy.bits .f32 = 32 ∨ (Rect.block (s := S100000x128) S5000x128.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x128.size a ≤ S100000x128.size a
  hwx3_2 : ∀ i : grid3.Coords, EltTy.bits .f32 = 32 ∨ (Rect.block (s := S100000x128) S5000x128.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S128x128.size a ≤ S128x128.size a
  hwx3_3 : ∀ i : grid3.Coords, EltTy.bits .f32 = 32 ∨ (Rect.block (s := S128x128) S128x128.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S128x128.size a ≤ S128x128.size a
  hwx3_4 : ∀ i : grid3.Coords, EltTy.bits .f32 = 32 ∨ (Rect.block (s := S128x128) S128x128.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S128x128.size a ≤ S128x128.size a
  hwx3_5 : ∀ i : grid3.Coords, EltTy.bits .f32 = 32 ∨ (Rect.block (s := S128x128) S128x128.size (cc3_transform_5 i) (hinb3_5 i)).WholeWords (EltTy.packing .f32)
  hstage3_6 : ∀ j, (stage3_6 j).IsWhole
  nbuf3_6 : grid3.bufCount reads3_6 true = 1
  hreads3_6 : ∀ i i' : grid3.Coords, (∀ a, reads3_6 a = true → i a = i' a) → cc3_transform_6 i = cc3_transform_6 i'
  hinb3_6 : ∀ (i : grid3.Coords) a, (cc3_transform_6 i a + 1) * S1x128.size a ≤ S1x128.size a
  hwx3_6 : ∀ i : grid3.Coords, EltTy.bits .f32 = 32 ∨ (Rect.block (s := S1x128) S1x128.size (cc3_transform_6 i) (hinb3_6 i)).WholeWords (EltTy.packing .f32)
  hstage3_7 : ∀ j, (stage3_7 j).IsWhole
  nbuf3_7 : grid3.bufCount reads3_7 false = 2
  hreads3_7 : ∀ i i' : grid3.Coords, (∀ a, reads3_7 a = true → i a = i' a) → cc3_transform_7 i = cc3_transform_7 i'
  hinb3_7 : ∀ (i : grid3.Coords) a, (cc3_transform_7 i a + 1) * S5000x128.size a ≤ S100000x128.size a
  hwx3_7 : ∀ i : grid3.Coords, EltTy.bits .f32 = 32 ∨ (Rect.block (s := S100000x128) S5000x128.size (cc3_transform_7 i) (hinb3_7 i)).WholeWords (EltTy.packing .f32)

variable [Facts₀]

def scatter_S100000_S640000x1_S640000_n_0_0_1 : ScatterDims S100000 S640000x1 S640000 where
  updateWindowDims := []
  insertedWindowDims := [0]
  scatterDimsToOperandDims := [0]
  indexVectorDim := 1
  wf := scatter_S100000_S640000x1_S640000_n_0_0_1_wf
def gather_S100000x128_S640000x1_S640000x128_1_0_n_n_0_1_1128 : GatherDims S100000x128 S640000x1 S640000x128 where
  offsetDims := [1]
  collapsedSliceDims := [0]
  operandBatchingDims := []
  startIndicesBatchingDims := []
  startIndexMap := [0]
  indexVectorDim := 1
  sliceSizes := ![1, 128]
  wf := gather_S100000x128_S640000x1_S640000x128_1_0_n_n_0_1_1128_wf
def scatter_S100000x128_S640000x1_S640000x128_1_0_0_1 : ScatterDims S100000x128 S640000x1 S640000x128 where
  updateWindowDims := [1]
  insertedWindowDims := [0]
  scatterDimsToOperandDims := [0]
  indexVectorDim := 1
  wf := scatter_S100000x128_S640000x1_S640000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def scatter_S128x128_S1_S128_0_1_1_0 : ScatterDims S128x128 S1 S128 where
  updateWindowDims := [0]
  insertedWindowDims := [1]
  scatterDimsToOperandDims := [1]
  indexVectorDim := 0
  wf := scatter_S128x128_S1_S128_0_1_1_0_wf
def scatter_S128_S1_S__n_0_0_0 : ScatterDims S128 S1 S_ where
  updateWindowDims := []
  insertedWindowDims := [0]
  scatterDimsToOperandDims := [0]
  indexVectorDim := 0
  wf := scatter_S128_S1_S__n_0_0_0_wf

abbrev win0_0 : Pipeline.Window sig grid0 :=
  Pipeline.Window.ofSpec (Memref.whole main_v24) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v25) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v26) S5000x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v38) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v26) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg5) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg6) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v39) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v40) S5000x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v52) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v40) S5000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg8) S128x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_arg9) S128x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v53) S1x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v54) S5000x128.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

abbrev win3_0 : Pipeline.Window sig grid3 :=
  Pipeline.Window.ofSpec (Memref.whole main_v26) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v40) S5000x128.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v54) S5000x128.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v59) S128x128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v64) S128x128.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v69) S128x128.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_v74) S1x128.size cc3_transform_6 reads3_6 false true 1 stage3_6 sem3_6
    hrank3 hreads3_6 hinb3_6 nbuf3_6 (Memref.isWhole_whole _) hwx3_6 hstage3_6

abbrev win3_7 : Pipeline.Window sig grid3 :=
  Pipeline.Window.ofSpec (Memref.whole main_v75) S5000x128.size cc3_transform_7 reads3_7 true false 2 stage3_7 sem3_7
    hrank3 hreads3_7 hinb3_7 nbuf3_7 (Memref.isWhole_whole _) hwx3_7 hstage3_7

abbrev win3 : Fin 8 → Pipeline.Window sig grid3 := fun | 0 => win3_0 | 1 => win3_1 | 2 => win3_2 | 3 => win3_3 | 4 => win3_4 | 5 => win3_5 | 6 => win3_6 | 7 => win3_7 | ⟨_ + 8, h⟩ => absurd h (Nat.not_lt.2 (Nat.le_add_left _ _))
abbrev spec3 : Fin 8 → Pipeline.WinSpec sig grid3.rank := fun w => (win3 w).toWinSpec

class Facts : Prop extends Facts₀ where

variable [Facts]
-- ==== ReferenceIdeal.lean ====
abbrev S100000x128 : Shape := ⟨2, ![100000, 128]⟩
abbrev S2x640000 : Shape := ⟨2, ![2, 640000]⟩
abbrev S128x128 : Shape := ⟨2, ![128, 128]⟩
abbrev S128 : Shape := ⟨1, ![128]⟩
abbrev S384x1 : Shape := ⟨2, ![384, 1]⟩
abbrev S1 : Shape := ⟨1, ![1]⟩
abbrev S1x640000 : Shape := ⟨2, ![1, 640000]⟩
abbrev S640000 : Shape := ⟨1, ![640000]⟩
abbrev S_ : Shape := ⟨0, ![]⟩
abbrev S640000x1 : Shape := ⟨2, ![640000, 1]⟩
abbrev S640000x128 : Shape := ⟨2, ![640000, 128]⟩
abbrev S100000 : Shape := ⟨1, ![100000]⟩
abbrev S100000x1 : Shape := ⟨2, ![100000, 1]⟩
abbrev S1x128 : Shape := ⟨2, ![1, 128]⟩
abbrev S100000x384 : Shape := ⟨2, ![100000, 384]⟩
abbrev S1x1 : Shape := ⟨2, ![1, 1]⟩

abbrev nBuf : Space → Nat
  | .hbm => 125
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x640000, .i32⟩
  | .hbm, ⟨2, _⟩ => ⟨S128x128, .f32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128x128, .f32⟩
  | .hbm, ⟨7, _⟩ => ⟨S128, .f32⟩
  | .hbm, ⟨8, _⟩ => ⟨S128x128, .f32⟩
  | .hbm, ⟨9, _⟩ => ⟨S128x128, .f32⟩
  | .hbm, ⟨10, _⟩ => ⟨S128, .f32⟩
  | .hbm, ⟨11, _⟩ => ⟨S384x1, .f32⟩
  | .hbm, ⟨12, _⟩ => ⟨S1, .f32⟩
  | .hbm, ⟨13, _⟩ => ⟨S1x640000, .i32⟩
  | .hbm, ⟨14, _⟩ => ⟨S640000, .i32⟩
  | .hbm, ⟨15, _⟩ => ⟨S1x640000, .i32⟩
  | .hbm, ⟨16, _⟩ => ⟨S640000, .i32⟩
  | .hbm, ⟨17, _⟩ => ⟨S_, .i32⟩
  | .hbm, ⟨18, _⟩ => ⟨S640000, .i32⟩
  | .hbm, ⟨19, _⟩ => ⟨S640000, .i1⟩
  | .hbm, ⟨20, _⟩ => ⟨S_, .i32⟩
  | .hbm, ⟨21, _⟩ => ⟨S640000, .i32⟩
  | .hbm, ⟨22, _⟩ => ⟨S640000, .i32⟩
  | .hbm, ⟨23, _⟩ => ⟨S640000, .i32⟩
  | .hbm, ⟨24, _⟩ => ⟨S640000x1, .i32⟩
  | .hbm, ⟨25, _⟩ => ⟨S640000x128, .f32⟩
  | .hbm, ⟨26, _⟩ => ⟨S_, .f32⟩
  | .hbm, ⟨27, _⟩ => ⟨S100000x128, .f32⟩
  | .hbm, ⟨28, _⟩ => ⟨S640000x1, .i32⟩
  | .hbm, ⟨29, _⟩ => ⟨S100000x128, .f32⟩
  | .hbm, ⟨30, _⟩ => ⟨S_, .f32⟩
  | .hbm, ⟨31, _⟩ => ⟨S640000, .f32⟩
  | .hbm, ⟨32, _⟩ => ⟨S_, .f32⟩
  | .hbm, ⟨33, _⟩ => ⟨S100000, .f32⟩
  | .hbm, ⟨34, _⟩ => ⟨S640000x1, .i32⟩
  | .hbm, ⟨35, _⟩ => ⟨S100000, .f32⟩
  | .hbm, ⟨36, _⟩ => ⟨S_, .f32⟩
  | .hbm, ⟨37, _⟩ => ⟨S100000, .f32⟩
  | .hbm, ⟨38, _⟩ => ⟨S100000, .f32⟩
  | .hbm, ⟨39, _⟩ => ⟨S100000x1, .f32⟩
  | .hbm, ⟨40, _⟩ => ⟨S100000x128, .f32⟩
  | .hbm, ⟨41, _⟩ => ⟨S100000x128, .f32⟩
  | .hbm, ⟨42, _⟩ => ⟨S100000x128, .f32⟩
  | .hbm, ⟨43, _⟩ => ⟨S100000x128, .f32⟩
  | .hbm, ⟨44, _⟩ => ⟨S100000x128, .f32⟩
  | .hbm, ⟨45, _⟩ => ⟨S1x128, .f32⟩
  | .hbm, ⟨46, _⟩ => ⟨S100000x128, .f32⟩
  | .hbm, ⟨47, _⟩ => ⟨S100000x128, .f32⟩
  | .hbm, ⟨48, _⟩ => ⟨S_, .f32⟩
  | .hbm, ⟨49, _⟩ => ⟨S100000x128, .f32⟩
  | .hbm, ⟨50, _⟩ => ⟨S100000x128, .f32⟩
  | .hbm, ⟨51, _⟩ => ⟨S_, .i32⟩
  | .hbm, ⟨52, _⟩ => ⟨S640000, .i32⟩
  | .hbm, ⟨53, _⟩ => ⟨S640000, .i1⟩
  | .hbm, ⟨54, _⟩ => ⟨S_, .i32⟩
  | .hbm, ⟨55, _⟩ => ⟨S640000, .i32⟩
  | .hbm, ⟨56, _⟩ => ⟨S640000, .i32⟩
  | .hbm, ⟨57, _⟩ => ⟨S640000, .i32⟩
  | .hbm, ⟨58, _⟩ => ⟨S640000x1, .i32⟩
  | .hbm, ⟨59, _⟩ => ⟨S640000x128, .f32⟩
  | .hbm, ⟨60, _⟩ => ⟨S_, .f32⟩
  | .hbm, ⟨61, _⟩ => ⟨S100000x128, .f32⟩
  | .hbm, ⟨62, _⟩ => ⟨S640000x1, .i32⟩
  | .hbm, ⟨63, _⟩ => ⟨S100000x128, .f32⟩
  | .hbm, ⟨64, _⟩ => ⟨S_, .f32⟩
  | .hbm, ⟨65, _⟩ => ⟨S640000, .f32⟩
  | .hbm, ⟨66, _⟩ => ⟨S_, .f32⟩
  | .hbm, ⟨67, _⟩ => ⟨S100000, .f32⟩
  | .hbm, ⟨68, _⟩ => ⟨S640000x1, .i32⟩
  | .hbm, ⟨69, _⟩ => ⟨S100000, .f32⟩
  | .hbm, ⟨70, _⟩ => ⟨S_, .f32⟩
  | .hbm, ⟨71, _⟩ => ⟨S100000, .f32⟩
  | .hbm, ⟨72, _⟩ => ⟨S100000, .f32⟩
  | .hbm, ⟨73, _⟩ => ⟨S100000x1, .f32⟩
  | .hbm, ⟨74, _⟩ => ⟨S100000x128, .f32⟩
  | .hbm, ⟨75, _⟩ => ⟨S100000x128, .f32⟩
  | .hbm, ⟨76, _⟩ => ⟨S100000x128, .f32⟩
  | .hbm, ⟨77, _⟩ => ⟨S100000x128, .f32⟩
  | .hbm, ⟨78, _⟩ => ⟨S100000x128, .f32⟩
  | .hbm, ⟨79, _⟩ => ⟨S1x128, .f32⟩
  | .hbm, ⟨80, _⟩ => ⟨S100000x128, .f32⟩
  | .hbm, ⟨81, _⟩ => ⟨S100000x128, .f32⟩
  | .hbm, ⟨82, _⟩ => ⟨S_, .f32⟩
  | .hbm, ⟨83, _⟩ => ⟨S100000x128, .f32⟩
  | .hbm, ⟨84, _⟩ => ⟨S100000x128, .f32⟩
  | .hbm, ⟨85, _⟩ => ⟨S_, .i32⟩
  | .hbm, ⟨86, _⟩ => ⟨S640000, .i32⟩
  | .hbm, ⟨87, _⟩ => ⟨S640000, .i1⟩
  | .hbm, ⟨88, _⟩ => ⟨S_, .i32⟩
  | .hbm, ⟨89, _⟩ => ⟨S640000, .i32⟩
  | .hbm, ⟨90, _⟩ => ⟨S640000, .i32⟩
  | .hbm, ⟨91, _⟩ => ⟨S640000, .i32⟩
  | .hbm, ⟨92, _⟩ => ⟨S640000x1, .i32⟩
  | .hbm, ⟨93, _⟩ => ⟨S640000x128, .f32⟩
  | .hbm, ⟨94, _⟩ => ⟨S_, .f32⟩
  | .hbm, ⟨95, _⟩ => ⟨S100000x128, .f32⟩
  | .hbm, ⟨96, _⟩ => ⟨S640000x1, .i32⟩
  | .hbm, ⟨97, _⟩ => ⟨S100000x128, .f32⟩
  | .hbm, ⟨98, _⟩ => ⟨S_, .f32⟩
  | .hbm, ⟨99, _⟩ => ⟨S640000, .f32⟩
  | .hbm, ⟨100, _⟩ => ⟨S_, .f32⟩
  | .hbm, ⟨101, _⟩ => ⟨S100000, .f32⟩
  | .hbm, ⟨102, _⟩ => ⟨S640000x1, .i32⟩
  | .hbm, ⟨103, _⟩ => ⟨S100000, .f32⟩
  | .hbm, ⟨104, _⟩ => ⟨S_, .f32⟩
  | .hbm, ⟨105, _⟩ => ⟨S100000, .f32⟩
  | .hbm, ⟨106, _⟩ => ⟨S100000, .f32⟩
  | .hbm, ⟨107, _⟩ => ⟨S100000x1, .f32⟩
  | .hbm, ⟨108, _⟩ => ⟨S100000x128, .f32⟩
  | .hbm, ⟨109, _⟩ => ⟨S100000x128, .f32⟩
  | .hbm, ⟨110, _⟩ => ⟨S100000x128, .f32⟩
  | .hbm, ⟨111, _⟩ => ⟨S100000x128, .f32⟩
  | .hbm, ⟨112, _⟩ => ⟨S100000x128, .f32⟩
  | .hbm, ⟨113, _⟩ => ⟨S1x128, .f32⟩
  | .hbm, ⟨114, _⟩ => ⟨S100000x128, .f32⟩
  | .hbm, ⟨115, _⟩ => ⟨S100000x128, .f32⟩
  | .hbm, ⟨116, _⟩ => ⟨S_, .f32⟩
  | .hbm, ⟨117, _⟩ => ⟨S100000x128, .f32⟩
  | .hbm, ⟨118, _⟩ => ⟨S100000x128, .f32⟩
  | .hbm, ⟨119, _⟩ => ⟨S100000x384, .f32⟩
  | .hbm, ⟨120, _⟩ => ⟨S100000x1, .f32⟩
  | .hbm, ⟨121, _⟩ => ⟨S1x1, .f32⟩
  | .hbm, ⟨122, _⟩ => ⟨S100000x1, .f32⟩
  | .hbm, ⟨123, _⟩ => ⟨S100000x1, .f32⟩
  | .hbm, ⟨124, _⟩ => ⟨S100000, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_c : Ref sig .tc := ⟨.hbm, 17, rfl⟩
abbrev main_v4 : Ref sig .tc := ⟨.hbm, 18, rfl⟩
abbrev main_v5 : Ref sig .tc := ⟨.hbm, 19, rfl⟩
abbrev main_c_0 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_cst : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_cst_1 : Ref sig .tc := ⟨.hbm, 30, rfl⟩
abbrev main_v14 : Ref sig .tc := ⟨.hbm, 31, rfl⟩
abbrev main_cst_2 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_cst_3 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_call0_cst : Ref sig .tc := ⟨.hbm, 48, rfl⟩
abbrev main_call0_v0 : Ref sig .tc := ⟨.hbm, 49, rfl⟩
abbrev main_v29 : Ref sig .tc := ⟨.hbm, 50, rfl⟩
abbrev main_c_4 : Ref sig .tc := ⟨.hbm, 51, rfl⟩
abbrev main_v30 : Ref sig .tc := ⟨.hbm, 52, rfl⟩
abbrev main_v31 : Ref sig .tc := ⟨.hbm, 53, rfl⟩
abbrev main_c_5 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_cst_6 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_cst_7 : Ref sig .tc := ⟨.hbm, 64, rfl⟩
abbrev main_v40 : Ref sig .tc := ⟨.hbm, 65, rfl⟩
abbrev main_cst_8 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_cst_9 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_call1_cst : Ref sig .tc := ⟨.hbm, 82, rfl⟩
abbrev main_call1_v0 : Ref sig .tc := ⟨.hbm, 83, rfl⟩
abbrev main_v55 : Ref sig .tc := ⟨.hbm, 84, rfl⟩
abbrev main_c_10 : Ref sig .tc := ⟨.hbm, 85, rfl⟩
abbrev main_v56 : Ref sig .tc := ⟨.hbm, 86, rfl⟩
abbrev main_v57 : Ref sig .tc := ⟨.hbm, 87, rfl⟩
abbrev main_c_11 : Ref sig .tc := ⟨.hbm, 88, rfl⟩
abbrev main_v58 : Ref sig .tc := ⟨.hbm, 89, rfl⟩
abbrev main_v59 : Ref sig .tc := ⟨.hbm, 90, rfl⟩
abbrev main_v60 : Ref sig .tc := ⟨.hbm, 91, rfl⟩
abbrev main_v61 : Ref sig .tc := ⟨.hbm, 92, rfl⟩
abbrev main_v62 : Ref sig .tc := ⟨.hbm, 93, rfl⟩
abbrev main_cst_12 : Ref sig .tc := ⟨.hbm, 94, rfl⟩
abbrev main_v63 : Ref sig .tc := ⟨.hbm, 95, rfl⟩
abbrev main_v64 : Ref sig .tc := ⟨.hbm, 96, rfl⟩
abbrev main_v65 : Ref sig .tc := ⟨.hbm, 97, rfl⟩
abbrev main_cst_13 : Ref sig .tc := ⟨.hbm, 98, rfl⟩
abbrev main_v66 : Ref sig .tc := ⟨.hbm, 99, rfl⟩
abbrev main_cst_14 : Ref sig .tc := ⟨.hbm, 100, rfl⟩
abbrev main_v67 : Ref sig .tc := ⟨.hbm, 101, rfl⟩
abbrev main_v68 : Ref sig .tc := ⟨.hbm, 102, rfl⟩
abbrev main_v69 : Ref sig .tc := ⟨.hbm, 103, rfl⟩
abbrev main_cst_15 : Ref sig .tc := ⟨.hbm, 104, rfl⟩
abbrev main_v70 : Ref sig .tc := ⟨.hbm, 105, rfl⟩
abbrev main_v71 : Ref sig .tc := ⟨.hbm, 106, rfl⟩
abbrev main_v72 : Ref sig .tc := ⟨.hbm, 107, rfl⟩
abbrev main_v73 : Ref sig .tc := ⟨.hbm, 108, rfl⟩
abbrev main_v74 : Ref sig .tc := ⟨.hbm, 109, rfl⟩
abbrev main_v75 : Ref sig .tc := ⟨.hbm, 110, rfl⟩
abbrev main_v76 : Ref sig .tc := ⟨.hbm, 111, rfl⟩
abbrev main_v77 : Ref sig .tc := ⟨.hbm, 112, rfl⟩
abbrev main_v78 : Ref sig .tc := ⟨.hbm, 113, rfl⟩
abbrev main_v79 : Ref sig .tc := ⟨.hbm, 114, rfl⟩
abbrev main_v80 : Ref sig .tc := ⟨.hbm, 115, rfl⟩
abbrev main_call2_cst : Ref sig .tc := ⟨.hbm, 116, rfl⟩
abbrev main_call2_v0 : Ref sig .tc := ⟨.hbm, 117, rfl⟩
abbrev main_v81 : Ref sig .tc := ⟨.hbm, 118, rfl⟩
abbrev main_v82 : Ref sig .tc := ⟨.hbm, 119, rfl⟩
abbrev main_v83 : Ref sig .tc := ⟨.hbm, 120, rfl⟩
abbrev main_v84 : Ref sig .tc := ⟨.hbm, 121, rfl⟩
abbrev main_v85 : Ref sig .tc := ⟨.hbm, 122, rfl⟩
abbrev main_v86 : Ref sig .tc := ⟨.hbm, 123, rfl⟩
abbrev main_v87 : Ref sig .tc := ⟨.hbm, 124, rfl⟩

abbrev nD : Nat := 1
abbrev τ : Topo := Topo.v7x

variable {F : FTy → Type} [FloatOps F]

class Facts₀ : Prop where
  slices_S2x640000_S1x640000_0_0 : S2x640000.Slices ![0, 0] S1x640000
  shapeCasts_S1x640000_S640000 : S1x640000.ShapeCasts S640000
  slices_S2x640000_S1x640000_1_0 : S2x640000.Slices ![1, 0] S1x640000
  bcast_S_S640000 : S_.BroadcastsInDim S640000 (![] : Fin 0 → Fin S640000.rank)
  bcast_S640000_S640000x1_0 : S640000.BroadcastsInDim S640000x1 (![0] : Fin 1 → Fin S640000x1.rank)
  bcast_S_S100000x128 : S_.BroadcastsInDim S100000x128 (![] : Fin 0 → Fin S100000x128.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  concatenates_S100000x128_S100000x128_S100000x128_S100000x384_d1 : Shape.Concatenates [S100000x128, S100000x128, S100000x128] S100000x384 1
  bcast_S1_S1x1_1 : S1.BroadcastsInDim S1x1 (![1] : Fin 1 → Fin S1x1.rank)
  bcast_S1x1_S100000x1_0_1 : S1x1.BroadcastsInDim S100000x1 (![0, 1] : Fin 2 → Fin S100000x1.rank)
  shapeCasts_S100000x1_S100000 : S100000x1.ShapeCasts S100000
  gather_S100000x128_S640000x1_S640000x128_1_0_n_n_0_1_1128_wf : GatherDims.WF S100000x128 S640000x1 S640000x128 [1] [0] [] [0] [] 1 ![1, 128]
  scatter_S100000x128_S640000x1_S640000x128_1_0_0_1_wf : ScatterDims.WF S100000x128 S640000x1 S640000x128 [1] [0] [0] 1
  scatter_S100000_S640000x1_S640000_n_0_0_1_wf : ScatterDims.WF S100000 S640000x1 S640000 [] [0] [0] 1
  dot_S100000x128_S128x128_S100000x128_1_0_0_1_n_n_wf : DotDims.WF S100000x128 S128x128 S100000x128 [1] [0] [0] [1] [] []
  dot_S100000x384_S384x1_S100000x1_1_0_0_1_n_n_wf : DotDims.WF S100000x384 S384x1 S100000x1 [1] [0] [0] [1] [] []

variable [Facts₀]

def gather_S100000x128_S640000x1_S640000x128_1_0_n_n_0_1_1128 : GatherDims S100000x128 S640000x1 S640000x128 where
  offsetDims := [1]
  collapsedSliceDims := [0]
  operandBatchingDims := []
  startIndicesBatchingDims := []
  startIndexMap := [0]
  indexVectorDim := 1
  sliceSizes := ![1, 128]
  wf := gather_S100000x128_S640000x1_S640000x128_1_0_n_n_0_1_1128_wf
def scatter_S100000x128_S640000x1_S640000x128_1_0_0_1 : ScatterDims S100000x128 S640000x1 S640000x128 where
  updateWindowDims := [1]
  insertedWindowDims := [0]
  scatterDimsToOperandDims := [0]
  indexVectorDim := 1
  wf := scatter_S100000x128_S640000x1_S640000x128_1_0_0_1_wf
def scatter_S100000_S640000x1_S640000_n_0_0_1 : ScatterDims S100000 S640000x1 S640000 where
  updateWindowDims := []
  insertedWindowDims := [0]
  scatterDimsToOperandDims := [0]
  indexVectorDim := 1
  wf := scatter_S100000_S640000x1_S640000_n_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def dot_S100000x384_S384x1_S100000x1_1_0_0_1_n_n : DotDims S100000x384 S384x1 S100000x1 where
  lhsContracting := [1]
  rhsContracting := [0]
  lhsNonContracting := [0]
  rhsNonContracting := [1]
  lhsBatch := []
  rhsBatch := []
  wf := dot_S100000x384_S384x1_S100000x1_1_0_0_1_n_n_wf

class Facts : Prop extends Facts₀ where

variable [Facts]
-- ==== Proof.KernelRun.lean ====
/-
  The kernel program's run with its RESULT named.  The program is nine segments: five stretches of host operations
  and, between them, four pipelined regions.  Running them in order from the launch memory leaves every buffer the
  thread holds at the last boundary's contents — the fold `W9` of the host operations and the regions' write-backs
  over the launch memory.  Reading the final state at the result buffer and at the thirteen argument buffers gives:
  the result array is `W9` at the result's reference, and every argument array is as launched.
-/
import proofs.«147244_j38216618999857_1_alg».proof.Proof.Gen.KernelIdeal.Frame

set_option maxRecDepth 16384

noncomputable section

namespace Cert.KernelIdeal.RunValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates without a fault; the result array ends at the last
    boundary's contents and the argument arrays end as launched. -/
theorem run : θ_run defs (onTc (τ := τ) (main (F := F))) ⟨m, fun _ => 0, ρ⟩ (fun r => ∀ c : Dev nD,
      r.2.mem ((c.tc : Thread nD τ).loc main_v77) = W9 m ρ c (Proc.devRef .tc main_v77)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 m ρ c b)
    (hfin := fun c s' => by
      iintro ⟨⟨Hh, -⟩, HSI⟩
      unfold StableHlo.held
      imodintro
      iapply (pointsTo_read_all (Pipeline.ucRefs τ sig) (fun b => (((c : Thread nD τ)).1, b)) (W9 m ρ c) s')
      isplitl [Hh] <;> iassumption)
    (hQ := fun s h c =>
      ⟨h c _ (mem_uc main_v77 (by decide)),
       (h c _ (mem_uc main_arg0 (by decide))).trans (W9_main_arg0 m ρ c),
       (h c _ (mem_uc main_arg1 (by decide))).trans (W9_main_arg1 m ρ c),
       (h c _ (mem_uc main_arg2 (by decide))).trans (W9_main_arg2 m ρ c),
       (h c _ (mem_uc main_arg3 (by decide))).trans (W9_main_arg3 m ρ c),
       (h c _ (mem_uc main_arg4 (by decide))).trans (W9_main_arg4 m ρ c),
       (h c _ (mem_uc main_arg5 (by decide))).trans (W9_main_arg5 m ρ c),
       (h c _ (mem_uc main_arg6 (by decide))).trans (W9_main_arg6 m ρ c),
       (h c _ (mem_uc main_arg7 (by decide))).trans (W9_main_arg7 m ρ c),
       (h c _ (mem_uc main_arg8 (by decide))).trans (W9_main_arg8 m ρ c),
       (h c _ (mem_uc main_arg9 (by decide))).trans (W9_main_arg9 m ρ c),
       (h c _ (mem_uc main_arg10 (by decide))).trans (W9_main_arg10 m ρ c),
       (h c _ (mem_uc main_arg11 (by decide))).trans (W9_main_arg11 m ρ c),
       (h c _ (mem_uc main_arg12 (by decide))).trans (W9_main_arg12 m ρ c)⟩)

end Cert.KernelIdeal.RunValue

end
-- ==== Proof.KernelKeep.lean ====
/-
  Which buffers each segment of the kernel program leaves alone.  A stretch of host operations rewrites exactly its
  own result buffers; a pipelined region rewrites exactly its one output array (an input window's array is never
  written back, and a buffer that is no window's array is not touched).  So the contents of any other buffer pass
  through the segment unchanged.
-/
import proofs.«147244_j38216618999857_1_alg».proof.Proof.Gen.KernelIdeal.Frame

set_option maxRecDepth 16384

noncomputable section

namespace Cert.KernelIdeal.Keep

open Cert.KernelIdeal Cert.KernelIdeal.Gen
open Idealize.ShloMosaic Idealize.ShloMosaic.TcCoe Idealize.ShloMosaic.Tactic
open Idealize.SL Idealize.SL.Sem
open Idealize.ShloMosaic.Pipeline (Dat Cfg Window)

variable {F : FTy → Type} [FloatOps F]
variable (m : (ℓ : Loc nD τ sig) → Buf (Elt F) ℓ) (ρ : Dev nD → PrngReg) (c : Dev nD)

/-- The buffers the host stretch 0 writes. -/
abbrev hostOps0_W : List (Ref sig .tc) := [main_v0, main_v1, main_v2, main_v3, main_cst, main_v4, main_cst_0, main_v5, main_v6, main_v7, main_cst_1, main_v8, main_v9, main_cst_2, main_v10, main_v11, main_v12, main_c, main_v13, main_v14, main_c_3, main_v15, main_v16, main_v17, main_v18, main_v19, main_cst_4, main_v20, main_v21, main_v22, main_v23, main_v24, main_v25]
theorem hostOps0_writes : (hostOps0 : List (HloOp τ sig (Elt F))).Forall fun op => op.writes ⊆ (hostOps0_W.map (Proc.devRef (τ := τ) .tc)).toFinset := by
  simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  repeat' apply And.intro
  all_goals exact List.mem_map_of_mem (by decide)
/-- A buffer the host stretch 0 does not write passes through it. -/
theorem W1_keep (b : Ref sig .tc) (hb : b ∉ hostOps0_W) : W1 m ρ c (Proc.devRef .tc b) = W0 m ρ c (Proc.devRef .tc b) :=
  StableHlo.after_of_writes_sub hostOps0 _ hostOps0_writes hb

/-- The buffers the host stretch 1 writes. -/
abbrev hostOps1_W : List (Ref sig .tc) := [main_c_5, main_v27, main_v28, main_c_6, main_v29, main_v30, main_v31, main_v32, main_v33, main_cst_7, main_v34, main_v35, main_v36, main_v37, main_v38, main_v39]
theorem hostOps1_writes : (hostOps1 : List (HloOp τ sig (Elt F))).Forall fun op => op.writes ⊆ (hostOps1_W.map (Proc.devRef (τ := τ) .tc)).toFinset := by
  simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  repeat' apply And.intro
  all_goals exact List.mem_map_of_mem (by decide)
/-- A buffer the host stretch 1 does not write passes through it. -/
theorem W3_keep (b : Ref sig .tc) (hb : b ∉ hostOps1_W) : W3 m ρ c (Proc.devRef .tc b) = W2 m ρ c (Proc.devRef .tc b) :=
  StableHlo.after_of_writes_sub hostOps1 _ hostOps1_writes hb

/-- The buffers the host stretch 2 writes. -/
abbrev hostOps2_W : List (Ref sig .tc) := [main_c_8, main_v41, main_v42, main_c_9, main_v43, main_v44, main_v45, main_v46, main_v47, main_cst_10, main_v48, main_v49, main_v50, main_v51, main_v52, main_v53]
theorem hostOps2_writes : (hostOps2 : List (HloOp τ sig (Elt F))).Forall fun op => op.writes ⊆ (hostOps2_W.map (Proc.devRef (τ := τ) .tc)).toFinset := by
  simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  repeat' apply And.intro
  all_goals exact List.mem_map_of_mem (by decide)
/-- A buffer the host stretch 2 does not write passes through it. -/
theorem W5_keep (b : Ref sig .tc) (hb : b ∉ hostOps2_W) : W5 m ρ c (Proc.devRef .tc b) = W4 m ρ c (Proc.devRef .tc b) :=
  StableHlo.after_of_writes_sub hostOps2 _ hostOps2_writes hb

/-- The buffers the host stretch 3 writes. -/
abbrev hostOps3_W : List (Ref sig .tc) := [main_v55, main_v56, main_cst_11, main_v57, main_c_12, main_v58, main_v59, main_v60, main_v61, main_cst_13, main_v62, main_c_14, main_v63, main_v64, main_v65, main_v66, main_cst_15, main_v67, main_c_16, main_v68, main_v69, main_cst_17, main_v70, main_v71, main_c_18, main_v72, main_v73, main_v74]
theorem hostOps3_writes : (hostOps3 : List (HloOp τ sig (Elt F))).Forall fun op => op.writes ⊆ (hostOps3_W.map (Proc.devRef (τ := τ) .tc)).toFinset := by
  simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  repeat' apply And.intro
  all_goals exact List.mem_map_of_mem (by decide)
/-- A buffer the host stretch 3 does not write passes through it. -/
theorem W7_keep (b : Ref sig .tc) (hb : b ∉ hostOps3_W) : W7 m ρ c (Proc.devRef .tc b) = W6 m ρ c (Proc.devRef .tc b) :=
  StableHlo.after_of_writes_sub hostOps3 _ hostOps3_writes hb

/-- The buffers the host stretch 4 writes. -/
abbrev hostOps4_W : List (Ref sig .tc) := [main_v76, main_v77]
theorem hostOps4_writes : (hostOps4 : List (HloOp τ sig (Elt F))).Forall fun op => op.writes ⊆ (hostOps4_W.map (Proc.devRef (τ := τ) .tc)).toFinset := by
  simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  repeat' apply And.intro
  all_goals exact List.mem_map_of_mem (by decide)
/-- A buffer the host stretch 4 does not write passes through it. -/
theorem W9_keep (b : Ref sig .tc) (hb : b ∉ hostOps4_W) : W9 m ρ c (Proc.devRef .tc b) = W8 m ρ c (Proc.devRef .tc b) :=
  StableHlo.after_of_writes_sub hostOps4 _ hostOps4_writes hb

/-- Region 0 writes only its output array. -/
theorem W2_keep (b : Ref sig .tc) (hb : b ≠ main_v26) : W2 m ρ c (Proc.devRef .tc b) = W1 m ρ c (Proc.devRef .tc b) := by
  by_cases h : ∃ w : Fin cfg0.W, Pipeline.arrRef spec0 w = b
  · obtain ⟨w, rfl⟩ := h
    have hin : ∀ w : Fin cfg0.W, Pipeline.arrRef spec0 w ≠ main_v26 → (cfg0.win w).isOut = false := by decide
    exact (W2_arr m ρ c w).trans (((dat0 (V1 m ρ) c).arrAt_in w (hin w hb) _).trans (A_eq0 (V1 m ρ) c w))
  · exact W2_of_ne m ρ c b fun w e => h ⟨w, e⟩

/-- Region 1 writes only its output array. -/
theorem W4_keep (b : Ref sig .tc) (hb : b ≠ main_v40) : W4 m ρ c (Proc.devRef .tc b) = W3 m ρ c (Proc.devRef .tc b) := by
  by_cases h : ∃ w : Fin cfg1.W, Pipeline.arrRef spec1 w = b
  · obtain ⟨w, rfl⟩ := h
    have hin : ∀ w : Fin cfg1.W, Pipeline.arrRef spec1 w ≠ main_v40 → (cfg1.win w).isOut = false := by decide
    exact (W4_arr m ρ c w).trans (((dat1 (V3 m ρ) c).arrAt_in w (hin w hb) _).trans (A_eq1 (V3 m ρ) c w))
  · exact W4_of_ne m ρ c b fun w e => h ⟨w, e⟩

/-- Region 2 writes only its output array. -/
theorem W6_keep (b : Ref sig .tc) (hb : b ≠ main_v54) : W6 m ρ c (Proc.devRef .tc b) = W5 m ρ c (Proc.devRef .tc b) := by
  by_cases h : ∃ w : Fin cfg2.W, Pipeline.arrRef spec2 w = b
  · obtain ⟨w, rfl⟩ := h
    have hin : ∀ w : Fin cfg2.W, Pipeline.arrRef spec2 w ≠ main_v54 → (cfg2.win w).isOut = false := by decide
    exact (W6_arr m ρ c w).trans (((dat2 (V5 m ρ) c).arrAt_in w (hin w hb) _).trans (A_eq2 (V5 m ρ) c w))
  · exact W6_of_ne m ρ c b fun w e => h ⟨w, e⟩

/-- Region 3 writes only its output array. -/
theorem W8_keep (b : Ref sig .tc) (hb : b ≠ main_v75) : W8 m ρ c (Proc.devRef .tc b) = W7 m ρ c (Proc.devRef .tc b) := by
  by_cases h : ∃ w : Fin cfg3.W, Pipeline.arrRef spec3 w = b
  · obtain ⟨w, rfl⟩ := h
    have hin : ∀ w : Fin cfg3.W, Pipeline.arrRef spec3 w ≠ main_v75 → (cfg3.win w).isOut = false := by decide
    exact (W8_arr m ρ c w).trans (((dat3 (V7 m ρ) c).arrAt_in w (hin w hb) _).trans (A_eq3 (V7 m ρ) c w))
  · exact W8_of_ne m ρ c b fun w e => h ⟨w, e⟩

end Cert.KernelIdeal.Keep

end
-- ==== Proof.KernelTerms.lean ====
/-
  The host-side pieces of the kernel program, as functions of the argument arrays (at the ideal values).
  From the edge list: the source and destination node of every edge; the gather index (a negative source wrapped by
  the node count); the degree of every node (how many edges end there), clamped below by one, and its reciprocal as a
  column.  From node features `h`: the neighbourhood sum (gather the source rows, scatter-add them at the
  destinations) and its product with the reciprocal-degree column, the neighbourhood mean.  From the read-out
  weights: each run of 128 weights written into column 0 of a zero 128 × 128 matrix, and the bias written into
  position 0 of a zero row.
-/
import proofs.«147244_j38216618999857_1_alg».proof.KernelIdeal
import proofs.«147244_j38216618999857_1_alg».proof.Proof.Gen.KernelIdeal
import Idealize.ShloMosaic.PureOps.Ideal

noncomputable section

namespace Cert.KernelIdeal.Terms

open Cert.KernelIdeal Cert.KernelIdeal.Facts₀ Cert.KernelIdeal.Facts Idealize.ShloMosaic

/-- Source node of every edge: row 0 of the edge list. -/
def srcK (e : IVec S2x640000 32) : IVec S640000 32 :=
  fun i => shapeCast S640000 (extractStridedSlice S1x640000 ![0, 0] e slices_S2x640000_S1x640000_0_0) shapeCasts_S1x640000_S640000 i

/-- Destination node of every edge: row 1 of the edge list. -/
def dstK (e : IVec S2x640000 32) : IVec S640000 32 :=
  fun i => shapeCast S640000 (extractStridedSlice S1x640000 ![1, 0] e slices_S2x640000_S1x640000_1_0) shapeCasts_S1x640000_S640000 i

/-- The gather index column: a negative source wrapped around by the node count. -/
def idxK (e : IVec S2x640000 32) : IVec S640000x1 32 :=
  broadcastInDim S640000x1 ![0] bcast_S640000_S640000x1_0
    (select (cmpi CmpIPredicate.slt (srcK e) (broadcastInDim S640000 ![] bcast_S_S640000 (constantI S_ 32 0#32)))
      (addi (srcK e) (broadcastInDim S640000 ![] bcast_S_S640000 (constantI S_ 32 100000#32)))
      (srcK e))

/-- The neighbourhood sum of node features `h`. -/
def aggK (e : IVec S2x640000 32) (h : FVec Ideal S100000x128 .f32) : FVec Ideal S100000x128 .f32 :=
  Host.scatterAdd scatter_S100000x128_S640000x1_S640000x128_1_0_0_1
    (broadcastInDim S100000x128 ![] bcast_S_S100000x128 (constant S_ FTy.f32 0#32))
    (broadcastInDim S640000x1 ![0] bcast_S640000_S640000x1_0 (dstK e))
    (Host.gather gather_S100000x128_S640000x1_S640000x128_1_0_n_n_0_1_1128 h (idxK e))

/-- The degree of every node. -/
def degK (e : IVec S2x640000 32) : FVec Ideal S100000 .f32 :=
  Host.scatterAdd scatter_S100000_S640000x1_S640000_n_0_0_1
    (broadcastInDim S100000 ![] bcast_S_S100000 (constant S_ FTy.f32 0#32))
    (broadcastInDim S640000x1 ![0] bcast_S640000_S640000x1_0 (dstK e))
    (broadcastInDim S640000 ![] bcast_S_S640000 (constant S_ FTy.f32 1065353216#32))

/-- The degree clamped below by one. -/
def dmaxK (e : IVec S2x640000 32) : FVec Ideal S100000 .f32 :=
  maximumf (degK e) (broadcastInDim S100000 ![] bcast_S_S100000 (constant S_ FTy.f32 1065353216#32))

/-- The reciprocal of the clamped degree, as a column. -/
def dinvK (e : IVec S2x640000 32) : FVec Ideal S100000x1 .f32 :=
  broadcastInDim S100000x1 ![0] bcast_S100000_S100000x1_0
    (Host.divf (broadcastInDim S100000 ![] bcast_S_S100000 (constant S_ FTy.f32 1065353216#32)) (dmaxK e))

/-- The neighbourhood mean of `h`: the sum times the reciprocal-degree column laid along the 128 lanes. -/
def meanK (e : IVec S2x640000 32) (h : FVec Ideal S100000x128 .f32) : FVec Ideal S100000x128 .f32 :=
  mulf (aggK e h) (broadcastInDim S100000x128 ![0, 1] bcast_S100000x1_S100000x128_0_1 (dinvK e))

/-- A bias vector as a single row. -/
def rowK (b : FVec Ideal S128 .f32) : FVec Ideal S1x128 .f32 :=
  fun i => shapeCast S1x128 b shapeCasts_S128_S1x128 i

/-- The first run of 128 read-out weights in column 0 of a zero matrix. -/
def pad0K (wc : FVec Ideal S384x1 .f32) : FVec Ideal S128x128 .f32 :=
  Host.scatter scatter_S128x128_S1_S128_0_1_1_0 (fun _ b => b)
    (broadcastInDim S128x128 ![] bcast_S_S128x128 (constant S_ FTy.f32 0#32))
    (broadcastInDim S1 ![] bcast_S_S1 (constantI S_ 32 0#32))
    fun i => shapeCast S128 (extractStridedSlice S128x1 ![0, 0] wc slices_S384x1_S128x1_0_0) shapeCasts_S128x1_S128 i

/-- The second run. -/
def pad1K (wc : FVec Ideal S384x1 .f32) : FVec Ideal S128x128 .f32 :=
  Host.scatter scatter_S128x128_S1_S128_0_1_1_0 (fun _ b => b)
    (broadcastInDim S128x128 ![] bcast_S_S128x128 (constant S_ FTy.f32 0#32))
    (broadcastInDim S1 ![] bcast_S_S1 (constantI S_ 32 0#32))
    fun i => shapeCast S128 (extractStridedSlice S128x1 ![128, 0] wc slices_S384x1_S128x1_128_0) shapeCasts_S128x1_S128 i

/-- The third run. -/
def pad2K (wc : FVec Ideal S384x1 .f32) : FVec Ideal S128x128 .f32 :=
  Host.scatter scatter_S128x128_S1_S128_0_1_1_0 (fun _ b => b)
    (broadcastInDim S128x128 ![] bcast_S_S128x128 (constant S_ FTy.f32 0#32))
    (broadcastInDim S1 ![] bcast_S_S1 (constantI S_ 32 0#32))
    fun i => shapeCast S128 (extractStridedSlice S128x1 ![256, 0] wc slices_S384x1_S128x1_256_0) shapeCasts_S128x1_S128 i

/-- The read-out bias in position 0 of a zero row. -/
def padBK (bc : FVec Ideal S1 .f32) : FVec Ideal S1x128 .f32 :=
  fun i => shapeCast S1x128
    (Host.scatter scatter_S128_S1_S__n_0_0_0 (fun _ b => b)
      (broadcastInDim S128 ![] bcast_S_S128 (constant S_ FTy.f32 0#32))
      (broadcastInDim S1 ![] bcast_S_S1 (constantI S_ 32 0#32))
      fun i => shapeCast S_ bc shapeCasts_S1_S_ i)
    shapeCasts_S128_S1x128 i

/-- Column 0 of a 100000 × 128 array as a flat array. -/
def col0K (y : FVec Ideal S100000x128 .f32) : FVec Ideal S100000 .f32 :=
  fun i => shapeCast S100000 (extractStridedSlice S100000x1 ![0, 0] y slices_S100000x128_S100000x1_0_0) shapeCasts_S100000x1_S100000 i

end Cert.KernelIdeal.Terms

end
-- ==== Proof.Spec.lean ====
/-
  The mathematics of a three-layer mean-aggregation graph network with a linear read-out, entry by entry on the
  extended reals.

  One layer maps node features `h` (100000 rows of 128) to `relu (mean · Wl + h · Wr + b)`, where `mean` is the
  neighbourhood sum of `h` scaled per node.  The read-out multiplies the three layers' outputs, laid side by side
  (384 columns), by a single column of 384 weights and adds a bias; cutting the 384 positions into three runs of
  128 gives three products of 128 positions each.

  Two scalings of the neighbourhood sum are compared: the quotient by the clamped degree `d = max deg 1`, and the
  product with its reciprocal `1 / d`.  Since `d ≥ 1` it is not zero, the quotient is the product with `d⁻¹`, and
  `1 / d = d⁻¹`: the two agree for every extended-real numerator, finite or not.
-/
import Idealize.ShloMosaic.PureOps.Ideal
import Idealize.ShloMosaic.PureOps.Ideal.Laws
import Idealize.ShloMosaic.Lib.ValueIdx

noncomputable section

namespace Cert.Sage

open Idealize.ShloMosaic Idealize.ShloMosaic.ValueIdx

/-- Node features: 100000 rows of 128. -/
abbrev Rows : Shape := ⟨2, ![100000, 128]⟩
/-- A 128 × 128 weight matrix. -/
abbrev Sq : Shape := ⟨2, ![128, 128]⟩

/-- The float word of zero, as both programs spell the relu's floor. -/
abbrev zeroW : EReal := Ideal.ofBits .f32 0x00000000#32
/-- The float word of one. -/
abbrev oneW : EReal := Ideal.ofBits .f32 0x3F800000#32

/-- One layer at node `n`, column `j`: `relu ((mean · Wl)[n,j] + (h · Wr)[n,j] + b[j])`. -/
def layerAt (mean h : Rows.Idx → EReal) (wl wr : Sq.Idx → EReal) (b : Fin 128 → EReal) (n : Fin 100000) (j : Fin 128) : EReal :=
  max (((∑ k : Fin 128, mean (ix2 n k) * wl (ix2 k j)) + (∑ k : Fin 128, h (ix2 n k) * wr (ix2 k j))) + b j) zeroW

/-- One layer as a whole array. -/
def layerArr (mean h : Rows.Idx → EReal) (wl wr : Sq.Idx → EReal) (b : Fin 128 → EReal) : Rows.Idx → EReal :=
  fun i => layerAt mean h wl wr b ⟨(i 0).val, (i 0).isLt⟩ ⟨(i 1).val, (i 1).isLt⟩

/-- The read-out at node `n`, column `j`, as three products of 128 positions and a bias. -/
def clsAt (h0 h1 h2 : Rows.Idx → EReal) (w0 w1 w2 : Sq.Idx → EReal) (bc : Fin 128 → EReal) (n : Fin 100000) (j : Fin 128) : EReal :=
  (((∑ k : Fin 128, h0 (ix2 n k) * w0 (ix2 k j)) + (∑ k : Fin 128, h1 (ix2 n k) * w1 (ix2 k j)))
    + (∑ k : Fin 128, h2 (ix2 n k) * w2 (ix2 k j))) + bc j

/-- The read-out as a whole array (only its column 0 is kept by the program). -/
def clsArr (h0 h1 h2 : Rows.Idx → EReal) (w0 w1 w2 : Sq.Idx → EReal) (bc : Fin 128 → EReal) : Rows.Idx → EReal :=
  fun i => clsAt h0 h1 h2 w0 w1 w2 bc ⟨(i 0).val, (i 0).isLt⟩ ⟨(i 1).val, (i 1).isLt⟩

theorem layerArr_apply (mean h : Rows.Idx → EReal) (wl wr : Sq.Idx → EReal) (b : Fin 128 → EReal) (n : Fin 100000) (j : Fin 128) :
    layerArr mean h wl wr b (ix2 n j) = layerAt mean h wl wr b n j := rfl

theorem clsArr_apply (h0 h1 h2 : Rows.Idx → EReal) (w0 w1 w2 : Sq.Idx → EReal) (bc : Fin 128 → EReal) (n : Fin 100000) (j : Fin 128) :
    clsArr h0 h1 h2 w0 w1 w2 bc (ix2 n j) = clsAt h0 h1 h2 w0 w1 w2 bc n j := rfl

/-- The word of one is the number one. -/
theorem oneW_eq : oneW = 1 := by
  show Ideal.ofBits .f32 0x3F800000#32 = 1
  simp [Ideal.ofBits, Ideal.ieee, -EReal.coe_mul]; norm_num

/-- Scaling by the reciprocal of a clamped degree is dividing by it: for `d = max deg 1`, `a · (1 / d) = a / d`
    whatever the extended real `a`. -/
theorem mul_recip_clamped (a deg : EReal) :
    a * Ideal.div oneW (max deg oneW) = Ideal.div a (max deg oneW) := by
  have hd : max deg oneW ≠ 0 := by
    have h1 : (1 : EReal) ≤ max deg oneW := by rw [oneW_eq]; exact le_max_right _ _
    intro h0
    rw [h0] at h1
    exact absurd h1 (by norm_num)
  unfold Ideal.div
  rw [if_neg hd, if_neg hd, oneW_eq, one_mul]

/-- The read-out at node `n` against the one column of 384 weights `wc`, cut into its three runs of 128, plus the
    bias. -/
def outAt (h0 h1 h2 : Rows.Idx → EReal) (wc : (⟨2, ![384, 1]⟩ : Shape).Idx → EReal) (bc : EReal) (n : Fin 100000) : EReal :=
  (((∑ k : Fin 128, h0 (ix2 n k) * wc (ix2 (⟨k.val, by omega⟩ : Fin 384) (0 : Fin 1)))
      + (∑ k : Fin 128, h1 (ix2 n k) * wc (ix2 (⟨128 + k.val, by omega⟩ : Fin 384) (0 : Fin 1))))
    + (∑ k : Fin 128, h2 (ix2 n k) * wc (ix2 (⟨256 + k.val, by omega⟩ : Fin 384) (0 : Fin 1)))) + bc

/-- A sum over 384 positions is the sum of its three runs of 128. -/
theorem sum_384 {M : Type*} [AddCommMonoid M] (f : Fin 384 → M) :
    ∑ k : Fin 384, f k
      = ((∑ k : Fin 128, f ⟨k.val, by omega⟩) + (∑ k : Fin 128, f ⟨128 + k.val, by omega⟩))
        + (∑ k : Fin 128, f ⟨256 + k.val, by omega⟩) := by
  have e : ∑ k : Fin 384, f k = ∑ k : Fin (128 + (128 + 128)), f ⟨k.val, by omega⟩ := rfl
  rw [e, Fin.sum_univ_add, Fin.sum_univ_add, ← add_assoc]
  refine congrArg₂ _ (congrArg₂ _ ?_ ?_) ?_
  · exact Finset.sum_congr rfl fun k _ => rfl
  · exact Finset.sum_congr rfl fun k _ => congrArg f (Fin.ext (by simp))
  · exact Finset.sum_congr rfl fun k _ => congrArg f (Fin.ext (by simp; omega))

end Cert.Sage

end
-- ==== Proof.KernelStages.lean ====
/-
  The kernel program's buffers, boundary by boundary.  The first stretch of host operations computes, from the edge
  list, the sources, the destinations and the reciprocal-degree column, and from the node features the first
  neighbourhood mean; each region then applies one layer to (mean, features) and the following stretch forms the
  next mean from the layer's output; the last stretch before the read-out pads the read-out weights and bias, the
  read-out region multiplies, and the final stretch keeps column 0.  Every buffer a later segment reads is followed
  from the boundary where it is written to the boundary where it is read.
-/
import proofs.«147244_j38216618999857_1_alg».proof.Proof.Gen.KernelIdeal.Frame
import proofs.«147244_j38216618999857_1_alg».proof.Proof.KernelKeep
import proofs.«147244_j38216618999857_1_alg».proof.Proof.KernelTerms
import proofs.«147244_j38216618999857_1_alg».proof.Proof.Spec

set_option maxRecDepth 16384
set_option maxHeartbeats 1000000

noncomputable section

namespace Cert.KernelIdeal.Stages

open Cert.KernelIdeal Cert.KernelIdeal.Gen Cert.KernelIdeal.Terms Cert.KernelIdeal.Keep
open Idealize.ShloMosaic Idealize.ShloMosaic.TcCoe Idealize.ShloMosaic.Tactic Idealize.ShloMosaic.StableHlo Idealize.ShloMosaic.ValueIdx
open Idealize.SL Idealize.SL.Sem

variable (m : (ℓ : Loc nD τ sig) → Buf (Elt Ideal) ℓ) (ρ : Dev nD → PrngReg) (c : Dev nD)

/-- An argument array as launched. -/
abbrev arg (b : Ref sig .tc) : Buf (Elt Ideal) ((c : Thread nD τ).loc b) := m ((c : Thread nD τ).loc b)

/-! ## After the first host stretch -/

theorem W1_v1 : W1 m ρ c (Proc.devRef .tc main_v1) = srcK (arg m c main_arg1) := by
  show StableHlo.after hostOps0 (W0 m ρ c) (Proc.devRef .tc main_v1) = _
  after_results_simp
  rfl

theorem W1_v3 : W1 m ρ c (Proc.devRef .tc main_v3) = dstK (arg m c main_arg1) := by
  show StableHlo.after hostOps0 (W0 m ρ c) (Proc.devRef .tc main_v3) = _
  after_results_simp
  rfl

theorem W1_v12 : W1 m ρ c (Proc.devRef .tc main_v12) = dinvK (arg m c main_arg1) := by
  show StableHlo.after hostOps0 (W0 m ρ c) (Proc.devRef .tc main_v12) = _
  after_results_simp
  rfl

theorem W1_v24 : W1 m ρ c (Proc.devRef .tc main_v24) = meanK (arg m c main_arg1) (arg m c main_arg0) := by
  show StableHlo.after hostOps0 (W0 m ρ c) (Proc.devRef .tc main_v24) = _
  after_results_simp
  rfl

theorem W1_v25 : W1 m ρ c (Proc.devRef .tc main_v25) = rowK (arg m c main_arg4) := by
  show StableHlo.after hostOps0 (W0 m ρ c) (Proc.devRef .tc main_v25) = _
  after_results_simp
  rfl

/-- An argument array is still as launched after the first host stretch. -/
theorem W1_arg (b : Ref sig .tc) (hb : b ∉ hostOps0_W) : W1 m ρ c (Proc.devRef .tc b) = arg m c b :=
  W1_keep m ρ c b hb

/-! ## The layers' outputs and the read-out, as functions of the arguments -/

/-- The first layer's output. -/
def H0 : Cert.Sage.Rows.Idx → EReal :=
  Cert.Sage.layerArr (meanK (arg m c main_arg1) (arg m c main_arg0)) (arg m c main_arg0) (arg m c main_arg2) (arg m c main_arg3)
    (fun j => rowK (arg m c main_arg4) (ix2 (0 : Fin 1) j))
/-- The second layer's output. -/
def H1 : Cert.Sage.Rows.Idx → EReal :=
  Cert.Sage.layerArr (meanK (arg m c main_arg1) (H0 m c)) (H0 m c) (arg m c main_arg5) (arg m c main_arg6)
    (fun j => rowK (arg m c main_arg7) (ix2 (0 : Fin 1) j))
/-- The third layer's output. -/
def H2 : Cert.Sage.Rows.Idx → EReal :=
  Cert.Sage.layerArr (meanK (arg m c main_arg1) (H1 m c)) (H1 m c) (arg m c main_arg8) (arg m c main_arg9)
    (fun j => rowK (arg m c main_arg10) (ix2 (0 : Fin 1) j))
/-- The read-out over all 128 padded columns. -/
def OUT : Cert.Sage.Rows.Idx → EReal :=
  Cert.Sage.clsArr (H0 m c) (H1 m c) (H2 m c) (pad0K (arg m c main_arg11)) (pad1K (arg m c main_arg11)) (pad2K (arg m c main_arg11))
    (fun j => padBK (arg m c main_arg12) (ix2 (0 : Fin 1) j))

/-! ## What each region leaves: one whole-array function of what it finds (supplied per region) -/

section Chain

variable (hR0 : ∀ (V : (c : Dev nD) → (b : Ref sig .tc) → Buf (Elt Ideal) ((c : Thread nD τ).loc b)) (c : Dev nD),
    (Gen.dat0 (F := Ideal) V c).arrAt 5 cfg0.N = Cert.Sage.layerArr (V c main_v24) (V c main_arg0) (V c main_arg2) (V c main_arg3) (fun j => V c main_v25 (ix2 (0 : Fin 1) j)))
variable (hR1 : ∀ (V : (c : Dev nD) → (b : Ref sig .tc) → Buf (Elt Ideal) ((c : Thread nD τ).loc b)) (c : Dev nD),
    (Gen.dat1 (F := Ideal) V c).arrAt 5 cfg1.N = Cert.Sage.layerArr (V c main_v38) (V c main_v26) (V c main_arg5) (V c main_arg6) (fun j => V c main_v39 (ix2 (0 : Fin 1) j)))
variable (hR2 : ∀ (V : (c : Dev nD) → (b : Ref sig .tc) → Buf (Elt Ideal) ((c : Thread nD τ).loc b)) (c : Dev nD),
    (Gen.dat2 (F := Ideal) V c).arrAt 5 cfg2.N = Cert.Sage.layerArr (V c main_v52) (V c main_v40) (V c main_arg8) (V c main_arg9) (fun j => V c main_v53 (ix2 (0 : Fin 1) j)))
variable (hR3 : ∀ (V : (c : Dev nD) → (b : Ref sig .tc) → Buf (Elt Ideal) ((c : Thread nD τ).loc b)) (c : Dev nD),
    (Gen.dat3 (F := Ideal) V c).arrAt 7 cfg3.N = Cert.Sage.clsArr (V c main_v26) (V c main_v40) (V c main_v54) (V c main_v59) (V c main_v64) (V c main_v69) (fun j => V c main_v74 (ix2 (0 : Fin 1) j)))

/-! ## After region 0 -/

include hR0 in
theorem W2_v26 : W2 m ρ c (Proc.devRef .tc main_v26) = H0 m c := by
  refine (W2_arr m ρ c 5).trans ((hR0 (V1 m ρ) c).trans ?_)
  show Cert.Sage.layerArr (W1 m ρ c (Proc.devRef .tc main_v24)) (W1 m ρ c (Proc.devRef .tc main_arg0)) (W1 m ρ c (Proc.devRef .tc main_arg2))
    (W1 m ρ c (Proc.devRef .tc main_arg3)) (fun j => W1 m ρ c (Proc.devRef .tc main_v25) (ix2 (0 : Fin 1) j)) = _
  rw [W1_v24, W1_v25, W1_arg m ρ c main_arg0 (by decide), W1_arg m ρ c main_arg2 (by decide), W1_arg m ρ c main_arg3 (by decide)]
  rfl

theorem W2_v1 : W2 m ρ c (Proc.devRef .tc main_v1) = srcK (arg m c main_arg1) := (W2_keep m ρ c main_v1 (by decide)).trans (W1_v1 m ρ c)
theorem W2_v3 : W2 m ρ c (Proc.devRef .tc main_v3) = dstK (arg m c main_arg1) := (W2_keep m ρ c main_v3 (by decide)).trans (W1_v3 m ρ c)
theorem W2_v12 : W2 m ρ c (Proc.devRef .tc main_v12) = dinvK (arg m c main_arg1) := (W2_keep m ρ c main_v12 (by decide)).trans (W1_v12 m ρ c)
theorem W2_arg (b : Ref sig .tc) (h0 : b ∉ hostOps0_W) (h26 : b ≠ main_v26) : W2 m ρ c (Proc.devRef .tc b) = arg m c b :=
  (W2_keep m ρ c b h26).trans (W1_arg m ρ c b h0)

/-! ## After the second host stretch -/

include hR0 in
theorem W3_v38 : W3 m ρ c (Proc.devRef .tc main_v38) = meanK (arg m c main_arg1) (H0 m c) := by
  show StableHlo.after hostOps1 (W2 m ρ c) (Proc.devRef .tc main_v38) = _
  after_results_simp
  rw [W2_v1, W2_v3, W2_v12, W2_v26 m ρ c hR0]
  rfl

theorem W3_v39 : W3 m ρ c (Proc.devRef .tc main_v39) = rowK (arg m c main_arg7) := by
  show StableHlo.after hostOps1 (W2 m ρ c) (Proc.devRef .tc main_v39) = _
  after_results_simp
  rw [W2_arg m ρ c main_arg7 (by decide) (by decide)]
  rfl

include hR0 in
theorem W3_v26 : W3 m ρ c (Proc.devRef .tc main_v26) = H0 m c := (W3_keep m ρ c main_v26 (by decide)).trans (W2_v26 m ρ c hR0)
theorem W3_v1 : W3 m ρ c (Proc.devRef .tc main_v1) = srcK (arg m c main_arg1) := (W3_keep m ρ c main_v1 (by decide)).trans (W2_v1 m ρ c)
theorem W3_v3 : W3 m ρ c (Proc.devRef .tc main_v3) = dstK (arg m c main_arg1) := (W3_keep m ρ c main_v3 (by decide)).trans (W2_v3 m ρ c)
theorem W3_v12 : W3 m ρ c (Proc.devRef .tc main_v12) = dinvK (arg m c main_arg1) := (W3_keep m ρ c main_v12 (by decide)).trans (W2_v12 m ρ c)
theorem W3_arg (b : Ref sig .tc) (h0 : b ∉ hostOps0_W) (h26 : b ≠ main_v26) (h1 : b ∉ hostOps1_W) : W3 m ρ c (Proc.devRef .tc b) = arg m c b :=
  (W3_keep m ρ c b h1).trans (W2_arg m ρ c b h0 h26)

/-! ## After region 1 -/

include hR0 hR1 in
theorem W4_v40 : W4 m ρ c (Proc.devRef .tc main_v40) = H1 m c := by
  refine (W4_arr m ρ c 5).trans ((hR1 (V3 m ρ) c).trans ?_)
  show Cert.Sage.layerArr (W3 m ρ c (Proc.devRef .tc main_v38)) (W3 m ρ c (Proc.devRef .tc main_v26)) (W3 m ρ c (Proc.devRef .tc main_arg5))
    (W3 m ρ c (Proc.devRef .tc main_arg6)) (fun j => W3 m ρ c (Proc.devRef .tc main_v39) (ix2 (0 : Fin 1) j)) = _
  rw [W3_v38 m ρ c hR0, W3_v39, W3_v26 m ρ c hR0, W3_arg m ρ c main_arg5 (by decide) (by decide) (by decide),
    W3_arg m ρ c main_arg6 (by decide) (by decide) (by decide)]
  rfl

include hR0 in
theorem W4_v26 : W4 m ρ c (Proc.devRef .tc main_v26) = H0 m c := (W4_keep m ρ c main_v26 (by decide)).trans (W3_v26 m ρ c hR0)
theorem W4_v1 : W4 m ρ c (Proc.devRef .tc main_v1) = srcK (arg m c main_arg1) := (W4_keep m ρ c main_v1 (by decide)).trans (W3_v1 m ρ c)
theorem W4_v3 : W4 m ρ c (Proc.devRef .tc main_v3) = dstK (arg m c main_arg1) := (W4_keep m ρ c main_v3 (by decide)).trans (W3_v3 m ρ c)
theorem W4_v12 : W4 m ρ c (Proc.devRef .tc main_v12) = dinvK (arg m c main_arg1) := (W4_keep m ρ c main_v12 (by decide)).trans (W3_v12 m ρ c)
theorem W4_arg (b : Ref sig .tc) (h0 : b ∉ hostOps0_W) (h26 : b ≠ main_v26) (h1 : b ∉ hostOps1_W) (h40 : b ≠ main_v40) :
    W4 m ρ c (Proc.devRef .tc b) = arg m c b :=
  (W4_keep m ρ c b h40).trans (W3_arg m ρ c b h0 h26 h1)

/-! ## After the third host stretch -/

include hR0 hR1 in
theorem W5_v52 : W5 m ρ c (Proc.devRef .tc main_v52) = meanK (arg m c main_arg1) (H1 m c) := by
  show StableHlo.after hostOps2 (W4 m ρ c) (Proc.devRef .tc main_v52) = _
  after_results_simp
  rw [W4_v1, W4_v3, W4_v12, W4_v40 m ρ c hR0 hR1]
  rfl

theorem W5_v53 : W5 m ρ c (Proc.devRef .tc main_v53) = rowK (arg m c main_arg10) := by
  show StableHlo.after hostOps2 (W4 m ρ c) (Proc.devRef .tc main_v53) = _
  after_results_simp
  rw [W4_arg m ρ c main_arg10 (by decide) (by decide) (by decide) (by decide)]
  rfl

include hR0 in
theorem W5_v26 : W5 m ρ c (Proc.devRef .tc main_v26) = H0 m c := (W5_keep m ρ c main_v26 (by decide)).trans (W4_v26 m ρ c hR0)
include hR0 hR1 in
theorem W5_v40 : W5 m ρ c (Proc.devRef .tc main_v40) = H1 m c := (W5_keep m ρ c main_v40 (by decide)).trans (W4_v40 m ρ c hR0 hR1)
theorem W5_arg (b : Ref sig .tc) (h0 : b ∉ hostOps0_W) (h26 : b ≠ main_v26) (h1 : b ∉ hostOps1_W) (h40 : b ≠ main_v40) (h2 : b ∉ hostOps2_W) :
    W5 m ρ c (Proc.devRef .tc b) = arg m c b :=
  (W5_keep m ρ c b h2).trans (W4_arg m ρ c b h0 h26 h1 h40)

/-! ## After region 2 -/

include hR0 hR1 hR2 in
theorem W6_v54 : W6 m ρ c (Proc.devRef .tc main_v54) = H2 m c := by
  refine (W6_arr m ρ c 5).trans ((hR2 (V5 m ρ) c).trans ?_)
  show Cert.Sage.layerArr (W5 m ρ c (Proc.devRef .tc main_v52)) (W5 m ρ c (Proc.devRef .tc main_v40)) (W5 m ρ c (Proc.devRef .tc main_arg8))
    (W5 m ρ c (Proc.devRef .tc main_arg9)) (fun j => W5 m ρ c (Proc.devRef .tc main_v53) (ix2 (0 : Fin 1) j)) = _
  rw [W5_v52 m ρ c hR0 hR1, W5_v53, W5_v40 m ρ c hR0 hR1, W5_arg m ρ c main_arg8 (by decide) (by decide) (by decide) (by decide) (by decide),
    W5_arg m ρ c main_arg9 (by decide) (by decide) (by decide) (by decide) (by decide)]
  rfl

include hR0 in
theorem W6_v26 : W6 m ρ c (Proc.devRef .tc main_v26) = H0 m c := (W6_keep m ρ c main_v26 (by decide)).trans (W5_v26 m ρ c hR0)
include hR0 hR1 in
theorem W6_v40 : W6 m ρ c (Proc.devRef .tc main_v40) = H1 m c := (W6_keep m ρ c main_v40 (by decide)).trans (W5_v40 m ρ c hR0 hR1)
theorem W6_arg (b : Ref sig .tc) (h0 : b ∉ hostOps0_W) (h26 : b ≠ main_v26) (h1 : b ∉ hostOps1_W) (h40 : b ≠ main_v40) (h2 : b ∉ hostOps2_W)
    (h54 : b ≠ main_v54) : W6 m ρ c (Proc.devRef .tc b) = arg m c b :=
  (W6_keep m ρ c b h54).trans (W5_arg m ρ c b h0 h26 h1 h40 h2)

/-! ## After the fourth host stretch -/

theorem W6_arg11 : W6 m ρ c (Proc.devRef .tc main_arg11) = arg m c main_arg11 :=
  W6_arg m ρ c main_arg11 (by decide) (by decide) (by decide) (by decide) (by decide) (by decide)
theorem W6_arg12 : W6 m ρ c (Proc.devRef .tc main_arg12) = arg m c main_arg12 :=
  W6_arg m ρ c main_arg12 (by decide) (by decide) (by decide) (by decide) (by decide) (by decide)

theorem W7_v59 : W7 m ρ c (Proc.devRef .tc main_v59) = pad0K (arg m c main_arg11) := by
  show StableHlo.after hostOps3 (W6 m ρ c) (Proc.devRef .tc main_v59) = _
  after_results_simp
  rw [W6_arg11]
  rfl
theorem W7_v64 : W7 m ρ c (Proc.devRef .tc main_v64) = pad1K (arg m c main_arg11) := by
  show StableHlo.after hostOps3 (W6 m ρ c) (Proc.devRef .tc main_v64) = _
  after_results_simp
  rw [W6_arg11]
  rfl
theorem W7_v69 : W7 m ρ c (Proc.devRef .tc main_v69) = pad2K (arg m c main_arg11) := by
  show StableHlo.after hostOps3 (W6 m ρ c) (Proc.devRef .tc main_v69) = _
  after_results_simp
  rw [W6_arg11]
  rfl
theorem W7_v74 : W7 m ρ c (Proc.devRef .tc main_v74) = padBK (arg m c main_arg12) := by
  show StableHlo.after hostOps3 (W6 m ρ c) (Proc.devRef .tc main_v74) = _
  after_results_simp
  rw [W6_arg12]
  rfl

include hR0 in
theorem W7_v26 : W7 m ρ c (Proc.devRef .tc main_v26) = H0 m c := (W7_keep m ρ c main_v26 (by decide)).trans (W6_v26 m ρ c hR0)
include hR0 hR1 in
theorem W7_v40 : W7 m ρ c (Proc.devRef .tc main_v40) = H1 m c := (W7_keep m ρ c main_v40 (by decide)).trans (W6_v40 m ρ c hR0 hR1)
include hR0 hR1 hR2 in
theorem W7_v54 : W7 m ρ c (Proc.devRef .tc main_v54) = H2 m c := (W7_keep m ρ c main_v54 (by decide)).trans (W6_v54 m ρ c hR0 hR1 hR2)

/-! ## After the read-out region, and the result -/

include hR0 hR1 hR2 hR3 in
theorem W8_v75 : W8 m ρ c (Proc.devRef .tc main_v75) = OUT m c := by
  refine (W8_arr m ρ c 7).trans ((hR3 (V7 m ρ) c).trans ?_)
  show Cert.Sage.clsArr (W7 m ρ c (Proc.devRef .tc main_v26)) (W7 m ρ c (Proc.devRef .tc main_v40)) (W7 m ρ c (Proc.devRef .tc main_v54))
    (W7 m ρ c (Proc.devRef .tc main_v59)) (W7 m ρ c (Proc.devRef .tc main_v64)) (W7 m ρ c (Proc.devRef .tc main_v69))
    (fun j => W7 m ρ c (Proc.devRef .tc main_v74) (ix2 (0 : Fin 1) j)) = _
  rw [W7_v26 m ρ c hR0, W7_v40 m ρ c hR0 hR1, W7_v54 m ρ c hR0 hR1 hR2, W7_v59, W7_v64, W7_v69, W7_v74]
  rfl

include hR0 hR1 hR2 hR3 in
/-- THE RESULT: column 0 of the read-out. -/
theorem W9_v77 : W9 m ρ c (Proc.devRef .tc main_v77) = col0K (OUT m c) := by
  show StableHlo.after hostOps4 (W8 m ρ c) (Proc.devRef .tc main_v77) = _
  after_results_simp
  rw [W8_v75 m ρ c hR0 hR1 hR2 hR3]
  rfl

end Chain

end Cert.KernelIdeal.Stages

end
-- ==== Proof.LibScatterSet.lean ====
/-
  A scatter that SETS (its body returns the update) when every update element lands inside the operand and no two
  land on the same element: the result at the place update `j` lands on is update `j` itself.  The host's scatter
  is a left fold over the update elements in row-major order, each step overwriting one element; with distinct
  landing places each place is written exactly once, so the order does not matter.

  Two arrangements are read in full: a vector of `K` updates written into ONE COLUMN of a `[K, C]` matrix (the
  operand's column axis is inserted, the single scatter index names the column, the update's axis is the window
  over the rows), and a single scalar written into ONE ELEMENT of a flat array of length `N`.  In both, a scatter
  index whose signed value is `0` puts update row `k` at `(k, 0)`, and the scalar at position `0`.
-/
import Idealize.ShloMosaic.Lib.ValueIdx
import Idealize.ShloMosaic.PureOps.Ideal

noncomputable section

namespace Cert.LibScatterSet

open Idealize.ShloMosaic Idealize.ShloMosaic.ValueIdx

section Fold

variable {ι β γ : Type} [DecidableEq β]

/-- Overwriting steps at places other than `i` leave `i` alone. -/
theorem foldl_set_miss (g : ι → β) (v : ι → γ) (l : List ι) (x : β → γ) (i : β) (h : ∀ n ∈ l, g n ≠ i) :
    (l.foldl (fun r n => fun i' => if i' = g n then v n else r i') x) i = x i := by
  induction l generalizing x with
  | nil => rfl
  | cons a l ih =>
    rw [List.foldl_cons, ih _ (fun n hn => h n (List.mem_cons_of_mem _ hn))]
    exact if_neg (fun e => h a List.mem_cons_self e.symm)

/-- Overwriting steps at pairwise distinct places: the place of step `n₀` ends holding step `n₀`'s value. -/
theorem foldl_set_hit (g : ι → β) (hg : Function.Injective g) (v : ι → γ) (l : List ι) (hl : l.Nodup) (x : β → γ)
    (n₀ : ι) (hn : n₀ ∈ l) :
    (l.foldl (fun r n => fun i' => if i' = g n then v n else r i') x) (g n₀) = v n₀ := by
  induction l generalizing x with
  | nil => exact absurd hn List.not_mem_nil
  | cons a l ih =>
    rw [List.foldl_cons]
    rcases List.mem_cons.mp hn with e | hn'
    · subst e
      rw [foldl_set_miss g v l _ (g n₀) (fun n hn' e => (List.nodup_cons.mp hl).1 (hg e ▸ hn'))]
      exact if_pos rfl
    · exact ih (List.nodup_cons.mp hl).2 _ hn'

end Fold

/-- A setting scatter whose update `j` lands at `g j`, `g` one to one: the result at `g j` is update `j`. -/
theorem scatter_set_apply {α : Type} {s si u : Shape} {w : Nat} (d : ScatterDims s si u) (x : s.Idx → α) (idx : IVec si w)
    (upd : u.Idx → α) (g : u.Idx → s.Idx) (hg : Function.Injective g) (hres : ∀ j, d.resultIdx? j idx = some (g j))
    (j : u.Idx) :
    Host.scatter d (fun _ b => b) x idx upd (g j) = upd j := by
  unfold Host.scatter
  simp only [hres]
  have h := foldl_set_hit (fun n => g (u.rowMajor.symm n)) (hg.comp u.rowMajor.symm.injective)
    (fun n => upd (u.rowMajor.symm n)) (List.finRange u.numel) (List.nodup_finRange _) x (u.rowMajor j) (List.mem_finRange _)
  simpa only [Equiv.symm_apply_apply] using h

/-- An operand axis takes a window coordinate exactly when it is not an inserted axis. -/
theorem mem_sKept {s si u : Shape} (d : ScatterDims s si u) (a : Fin s.rank) :
    a ∈ d.sKept ↔ a ∉ d.insertedWindowDims := by
  simp [ScatterDims.sKept, Shape.kept, List.mem_filter, List.mem_finRange]

section Column

variable {K C w : Nat} (wf : ScatterDims.WF ⟨2, ![K, C]⟩ ⟨1, ![1]⟩ ⟨1, ![K]⟩ [0] [1] [1] 0)

/-- A vector of `K` updates into one column of a `[K, C]` matrix, the column named by the one scatter index. -/
abbrev colDims : ScatterDims ⟨2, ![K, C]⟩ ⟨1, ![1]⟩ ⟨1, ![K]⟩ where
  updateWindowDims := [0]
  insertedWindowDims := [1]
  scatterDimsToOperandDims := [1]
  indexVectorDim := 0
  wf := wf

theorem col_start_row (idx : IVec ⟨1, ![1]⟩ w) (j : (⟨1, ![K]⟩ : Shape).Idx) : (colDims wf).start j idx (0 : Fin 2) = 0 := by
  have hne : ¬ ((0 : Fin 2) = 1) := by decide
  unfold ScatterDims.start
  rw [dif_neg (fun h => hne (List.mem_singleton.mp h))]

theorem col_start_col (idx : IVec ⟨1, ![1]⟩ w) (j : (⟨1, ![K]⟩ : Shape).Idx) :
    (colDims wf).start j idx (1 : Fin 2) = (idx (ix1 (0 : Fin 1))).toInt := by
  unfold ScatterDims.start
  rw [dif_pos (show (1 : Fin 2) ∈ (colDims wf).scatterDimsToOperandDims from List.mem_singleton.mpr rfl)]
  have hsi : (colDims wf).siIdx j ⟨List.idxOf (1 : Fin 2) (colDims wf).scatterDimsToOperandDims,
      List.idxOf_lt_length_iff.2 (List.mem_singleton.mpr rfl)⟩ = ix1 (0 : Fin 1) := by
    funext b; refine Fin.ext ?_
    match b with
    | ⟨0, _⟩ => rfl
  rw [hsi]

theorem col_window_row (j : (⟨1, ![K]⟩ : Shape).Idx) : (colDims wf).window j (0 : Fin 2) = (j 0).val := by
  have hne : ¬ ((0 : Fin 2) = 1) := by decide
  unfold ScatterDims.window
  rw [dif_pos ((mem_sKept _ _).mpr (fun h => hne (List.mem_singleton.mp h)))]
  rfl

theorem col_window_col (j : (⟨1, ![K]⟩ : Shape).Idx) : (colDims wf).window j (1 : Fin 2) = 0 := by
  unfold ScatterDims.window
  rw [dif_neg (fun h => (mem_sKept _ _).mp h (List.mem_singleton.mpr rfl))]

/-- With the scatter index `0`, update row `k` lands at `(k, 0)`. -/
theorem col_resultIdx (hC : 0 < C) (idx : IVec ⟨1, ![1]⟩ w) (hidx : (idx (ix1 (0 : Fin 1))).toInt = 0)
    (j : (⟨1, ![K]⟩ : Shape).Idx) :
    (colDims wf).resultIdx? j idx = some (ix2 (j 0) (⟨0, hC⟩ : Fin C)) := by
  have hK : (j 0).val < K := (j 0).isLt
  have hb : ∀ a : Fin 2, 0 ≤ (colDims wf).start j idx a + (colDims wf).window j a
      ∧ (colDims wf).start j idx a + (colDims wf).window j a < (⟨2, ![K, C]⟩ : Shape).size a := by
    intro a
    match a with
    | ⟨0, _⟩ =>
      rw [show (⟨0, by omega⟩ : Fin 2) = (0 : Fin 2) from rfl, col_start_row, col_window_row]
      exact ⟨by omega, by show (0 : Int) + ((j 0).val : Int) < (K : Int); omega⟩
    | ⟨1, _⟩ =>
      rw [show (⟨1, by omega⟩ : Fin 2) = (1 : Fin 2) from rfl, col_start_col, col_window_col, hidx]
      exact ⟨by omega, by show (0 : Int) + ((0 : Nat) : Int) < (C : Int); omega⟩
  unfold ScatterDims.resultIdx?
  rw [dif_pos hb]
  refine congrArg some (funext fun a => Fin.ext ?_)
  match a with
  | ⟨0, _⟩ =>
    show ((colDims wf).start j idx (0 : Fin 2) + (colDims wf).window j (0 : Fin 2)).toNat = (j 0).val
    rw [col_start_row, col_window_row]; omega
  | ⟨1, _⟩ =>
    show ((colDims wf).start j idx (1 : Fin 2) + (colDims wf).window j (1 : Fin 2)).toNat = 0
    rw [col_start_col, col_window_col, hidx]; rfl

/-- THE COLUMN READ BACK: a vector set into column `0` of any matrix reads back, at `(k, 0)`, as its entry `k`. -/
theorem col_set_apply {α : Type} (hC : 0 < C) (x : (⟨2, ![K, C]⟩ : Shape).Idx → α) (idx : IVec ⟨1, ![1]⟩ w)
    (hidx : (idx (ix1 (0 : Fin 1))).toInt = 0) (upd : (⟨1, ![K]⟩ : Shape).Idx → α) (k : Fin K) :
    Host.scatter (colDims wf) (fun _ b => b) x idx upd (ix2 k (⟨0, hC⟩ : Fin C)) = upd (ix1 k) := by
  have hg : Function.Injective (fun j : (⟨1, ![K]⟩ : Shape).Idx => (ix2 (j 0) (⟨0, hC⟩ : Fin C) : (⟨2, ![K, C]⟩ : Shape).Idx)) := by
    intro a b e
    funext q
    match q with
    | ⟨0, _⟩ => exact congrFun e (0 : Fin 2)
  exact scatter_set_apply (colDims wf) x idx upd _ hg (col_resultIdx wf hC idx hidx) (ix1 k)

end Column

section Element

variable {N w : Nat} (wf : ScatterDims.WF ⟨1, ![N]⟩ ⟨1, ![1]⟩ ⟨0, ![]⟩ [] [0] [0] 0)

/-- A single scalar into one element of a flat array, the element named by the one scatter index. -/
abbrev elemDims : ScatterDims ⟨1, ![N]⟩ ⟨1, ![1]⟩ ⟨0, ![]⟩ where
  updateWindowDims := []
  insertedWindowDims := [0]
  scatterDimsToOperandDims := [0]
  indexVectorDim := 0
  wf := wf

/-- With the scatter index `0`, the scalar lands at position `0`. -/
theorem elem_resultIdx (hN : 0 < N) (idx : IVec ⟨1, ![1]⟩ w) (hidx : (idx (ix1 (0 : Fin 1))).toInt = 0)
    (j : (⟨0, ![]⟩ : Shape).Idx) :
    (elemDims wf).resultIdx? j idx = some (ix1 (⟨0, hN⟩ : Fin N)) := by
  have hstart : (elemDims wf).start j idx (0 : Fin 1) = 0 := by
    unfold ScatterDims.start
    rw [dif_pos (show (0 : Fin 1) ∈ (elemDims wf).scatterDimsToOperandDims from List.mem_singleton.mpr rfl)]
    have hsi : (elemDims wf).siIdx j ⟨List.idxOf (0 : Fin 1) (elemDims wf).scatterDimsToOperandDims,
        List.idxOf_lt_length_iff.2 (List.mem_singleton.mpr rfl)⟩ = ix1 (0 : Fin 1) := by
      funext b; refine Fin.ext ?_
      match b with
      | ⟨0, _⟩ => rfl
    rw [hsi, hidx]
  have hwindow : (elemDims wf).window j (0 : Fin 1) = 0 := by
    unfold ScatterDims.window
    rw [dif_neg (fun h => (mem_sKept _ _).mp h (List.mem_singleton.mpr rfl))]
  have hb : ∀ a : Fin 1, 0 ≤ (elemDims wf).start j idx a + (elemDims wf).window j a
      ∧ (elemDims wf).start j idx a + (elemDims wf).window j a < (⟨1, ![N]⟩ : Shape).size a := by
    intro a
    match a with
    | ⟨0, _⟩ =>
      rw [show (⟨0, by omega⟩ : Fin 1) = (0 : Fin 1) from rfl, hstart, hwindow]
      exact ⟨by omega, by show (0 : Int) + ((0 : Nat) : Int) < (N : Int); omega⟩
  unfold ScatterDims.resultIdx?
  rw [dif_pos hb]
  refine congrArg some (funext fun a => Fin.ext ?_)
  match a with
  | ⟨0, _⟩ =>
    show ((elemDims wf).start j idx (0 : Fin 1) + (elemDims wf).window j (0 : Fin 1)).toNat = 0
    rw [hstart, hwindow]; rfl

/-- THE ELEMENT READ BACK: a scalar set at position `0` of any flat array reads back there. -/
theorem elem_set_apply {α : Type} (hN : 0 < N) (x : (⟨1, ![N]⟩ : Shape).Idx → α) (idx : IVec ⟨1, ![1]⟩ w)
    (hidx : (idx (ix1 (0 : Fin 1))).toInt = 0) (upd : (⟨0, ![]⟩ : Shape).Idx → α) :
    Host.scatter (elemDims wf) (fun _ b => b) x idx upd (ix1 (⟨0, hN⟩ : Fin N)) = upd ix0 := by
  have hg : Function.Injective (fun _ : (⟨0, ![]⟩ : Shape).Idx => (ix1 (⟨0, hN⟩ : Fin N) : (⟨1, ![N]⟩ : Shape).Idx)) := by
    intro a b _
    exact funext fun q => q.elim0
  exact scatter_set_apply (elemDims wf) x idx upd _ hg (elem_resultIdx wf hN idx hidx) ix0

end Element

end Cert.LibScatterSet

end
-- ==== Proof.LibRows.lean ====
/-
  `stablehlo.gather` of whole rows of a matrix, and of single elements of a flat array, read at an index.

  What `x[idx]` lowers to when `x : [N, C]` is a matrix and `idx : [R, 1]` a column of integer row numbers: a gather with
  offset_dims `[1]`, collapsed_slice_dims `[0]`, start_index_map `[0]`, index_vector_dim 1 and slice_sizes `[1, C]`.
  Result element `(r, c)` is `x` at row `idx[r, 0]` — read as a signed integer and clamped into `[0, N − 1]`, as
  StableHLO's gather clamps every start index — and column `c`. The same with a flat operand `x : [N]` (offset_dims
  `[]`, slice_sizes `[1]`): result element `r` is `x` at the clamped `idx[r, 0]`.
-/
import Idealize.ShloMosaic.Lib.ValueIdx

namespace Cert.LibRows

open Idealize.ShloMosaic Idealize.ShloMosaic.ValueIdx

section Rows
variable {α : Type}

/-- The dimension numbers of a gather of whole rows: operand `[N, C]`, start indices `[R, 1]`, result `[R, C]`; the
    result's axis 1 is the offset axis (it runs along a row), the operand's axis 0 is collapsed and is the one the start
    index names. Their conditions `wf` are decided on a program's literal shapes. -/
abbrev rowsDims (N R C : Nat)
    (wf : GatherDims.WF ⟨2, ![N, C]⟩ ⟨2, ![R, 1]⟩ ⟨2, ![R, C]⟩ [1] [0] [] [0] [] 1 ![1, C]) :
    GatherDims ⟨2, ![N, C]⟩ ⟨2, ![R, 1]⟩ ⟨2, ![R, C]⟩ where
  offsetDims := [1]
  collapsedSliceDims := [0]
  operandBatchingDims := []
  startIndicesBatchingDims := []
  startIndexMap := [0]
  indexVectorDim := 1
  sliceSizes := ![1, C]
  wf := wf

/-- THE ROW GATHER READ AT `(r, c)`: the operand at row `idx[r, 0]` (read signed and clamped into `[0, N − 1]`) and
    column `c`. -/
theorem gather_rows_apply {N R C w : Nat} (hN : 0 < N)
    (wf : GatherDims.WF ⟨2, ![N, C]⟩ ⟨2, ![R, 1]⟩ ⟨2, ![R, C]⟩ [1] [0] [] [0] [] 1 ![1, C])
    (x : (⟨2, ![N, C]⟩ : Shape).Idx → α) (idx : IVec ⟨2, ![R, 1]⟩ w) (y : (⟨2, ![R, C]⟩ : Shape).Idx) :
    Host.gather (rowsDims N R C wf) x idx y
      = x (ix2 ⟨min (idx (ix2 (y 0) 0)).toInt.toNat (N - 1), by omega⟩ (y 1)) := by
  unfold Host.gather
  congr 1
  funext a
  refine Fin.ext ?_
  show (rowsDims N R C wf).start y idx a + (rowsDims N R C wf).batchCoord y a + (rowsDims N R C wf).offCoord y a = _
  rw [GatherDims.batchCoord_eq_zero _ _ _ List.not_mem_nil]
  simp only [Nat.add_zero]
  -- the collapsed axis: the clamped start index, no offset
  have h0 : (rowsDims N R C wf).start y idx (0 : Fin 2) + (rowsDims N R C wf).offCoord y (0 : Fin 2)
      = min (idx (ix2 (y 0) 0)).toInt.toNat (N - 1) := by
    rw [GatherDims.offCoord_eq_zero _ _ _
      (fun h => ((GatherDims.mem_sKept _ _).mp h).1 (List.mem_singleton.mpr rfl))]
    simp only [Nat.add_zero]
    unfold GatherDims.start
    rw [dif_pos (show (0 : Fin 2) ∈ (rowsDims N R C wf).startIndexMap from List.mem_singleton.mpr rfl)]
    have hsi : (rowsDims N R C wf).siIdx y ⟨List.idxOf (0 : Fin 2) (rowsDims N R C wf).startIndexMap,
        List.idxOf_lt_length_iff.2 (List.mem_singleton.mpr rfl)⟩ = ix2 (y 0) 0 := by
      funext b; refine Fin.ext ?_
      match b with
      | ⟨0, _⟩ => rfl
      | ⟨1, _⟩ => rfl
    rw [hsi]
    rfl
  -- the offset axis: start 0, the result's own column
  have h1 : (rowsDims N R C wf).start y idx (1 : Fin 2) + (rowsDims N R C wf).offCoord y (1 : Fin 2)
      = (y 1).val := by
    have hne : ¬ ((1 : Fin 2) = 0) := by decide
    have hstart : (rowsDims N R C wf).start y idx (1 : Fin 2) = 0 := by
      unfold GatherDims.start
      rw [dif_neg (fun h => hne (List.mem_singleton.mp h))]
    have hkept : (1 : Fin 2) ∈ (rowsDims N R C wf).sKept :=
      (GatherDims.mem_sKept _ _).mpr ⟨fun h => hne (List.mem_singleton.mp h), List.not_mem_nil⟩
    have hoff : (rowsDims N R C wf).offCoord y (1 : Fin 2) = (y 1).val := by
      unfold GatherDims.offCoord
      rw [dif_pos hkept]
      rfl
    rw [hstart, hoff, Nat.zero_add]
  match a with
  | ⟨0, _⟩ => exact h0
  | ⟨1, _⟩ => exact h1

/-- The same read with the result index given by its coordinates `(r, c)`. -/
theorem gather_rows_apply_ix2 {N R C w : Nat} (hN : 0 < N)
    (wf : GatherDims.WF ⟨2, ![N, C]⟩ ⟨2, ![R, 1]⟩ ⟨2, ![R, C]⟩ [1] [0] [] [0] [] 1 ![1, C])
    (x : (⟨2, ![N, C]⟩ : Shape).Idx → α) (idx : IVec ⟨2, ![R, 1]⟩ w) (r : Fin R) (c : Fin C) :
    Host.gather (rowsDims N R C wf) x idx (ix2 r c)
      = x (ix2 ⟨min (idx (ix2 r 0)).toInt.toNat (N - 1), by omega⟩ c) :=
  gather_rows_apply hN wf x idx (ix2 r c)

end Rows

section Take1
variable {α : Type}

/-- The dimension numbers of a gather of single elements of a flat array: operand `[N]`, start indices `[R, 1]`, result
    `[R]`; no offset axis, the operand's only axis is collapsed and is the one the start index names. -/
abbrev take1Dims (N R : Nat)
    (wf : GatherDims.WF ⟨1, ![N]⟩ ⟨2, ![R, 1]⟩ ⟨1, ![R]⟩ [] [0] [] [0] [] 1 ![1]) :
    GatherDims ⟨1, ![N]⟩ ⟨2, ![R, 1]⟩ ⟨1, ![R]⟩ where
  offsetDims := []
  collapsedSliceDims := [0]
  operandBatchingDims := []
  startIndicesBatchingDims := []
  startIndexMap := [0]
  indexVectorDim := 1
  sliceSizes := ![1]
  wf := wf

/-- THE ELEMENT GATHER READ AT `r`: the operand at `idx[r, 0]`, read signed and clamped into `[0, N − 1]`. -/
theorem gather_take1_apply {N R w : Nat} (hN : 0 < N)
    (wf : GatherDims.WF ⟨1, ![N]⟩ ⟨2, ![R, 1]⟩ ⟨1, ![R]⟩ [] [0] [] [0] [] 1 ![1])
    (x : (⟨1, ![N]⟩ : Shape).Idx → α) (idx : IVec ⟨2, ![R, 1]⟩ w) (y : (⟨1, ![R]⟩ : Shape).Idx) :
    Host.gather (take1Dims N R wf) x idx y
      = x (ix1 ⟨min (idx (ix2 (y 0) 0)).toInt.toNat (N - 1), by omega⟩) := by
  unfold Host.gather
  congr 1
  funext a
  obtain rfl : a = 0 := Subsingleton.elim _ _
  refine Fin.ext ?_
  show (take1Dims N R wf).start y idx 0 + (take1Dims N R wf).batchCoord y 0 + (take1Dims N R wf).offCoord y 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (take1Dims N R wf).startIndexMap from List.mem_singleton.mpr rfl)]
  have hsi : (take1Dims N R wf).siIdx y ⟨List.idxOf (0 : Fin 1) (take1Dims N R wf).startIndexMap,
      List.idxOf_lt_length_iff.2 (List.mem_singleton.mpr rfl)⟩ = ix2 (y 0) 0 := by
    funext b; refine Fin.ext ?_
    match b with
    | ⟨0, _⟩ => rfl
    | ⟨1, _⟩ => rfl
  rw [hsi]
  rfl

/-- The same read with the result index given by its coordinate `r`. -/
theorem gather_take1_apply_ix1 {N R w : Nat} (hN : 0 < N)
    (wf : GatherDims.WF ⟨1, ![N]⟩ ⟨2, ![R, 1]⟩ ⟨1, ![R]⟩ [] [0] [] [0] [] 1 ![1])
    (x : (⟨1, ![N]⟩ : Shape).Idx → α) (idx : IVec ⟨2, ![R, 1]⟩ w) (r : Fin R) :
    Host.gather (take1Dims N R wf) x idx (ix1 r)
      = x (ix1 ⟨min (idx (ix2 r 0)).toInt.toNat (N - 1), by omega⟩) :=
  gather_take1_apply hN wf x idx (ix1 r)

end Take1

end Cert.LibRows
-- ==== Proof.LibLayout.lean ====
/-
  Small layout operations read at an index, and the gather of rows under a row-wise map.

  A reshape keeps the elements in row-major order, so a vector `[n]` reshaped to a single row `[1, n]` or to a single
  column `[n, 1]` (and back) reads the same element at the matching position; a broadcast along a new unit axis does the
  same. A unit-stride slice reads the operand at the index shifted by the offsets: the row blocks `0–63`, `64–127`, `128`
  and `129` of a `130 × 64` matrix, and the first half of a flat array. Gathering whole rows commutes with any map that
  acts on each row separately, because the gathered row is a row of the operand.
-/
import Idealize.ShloMosaic.Lib.ValueIdx
import Idealize.ShloMosaic.Lib.Pipeline.Value
import proofs.«147244_j38216618999857_1_alg».proof.Proof.LibRows

namespace Cert.LibLayout

open Idealize.ShloMosaic Idealize.ShloMosaic.ValueIdx Cert.LibRows

/-! ## Gathering rows commutes with a row-wise map -/

section RowsMap
variable {α β : Type}

/-- GATHERING ROWS COMMUTES WITH A ROW-WISE MAP: if every row of the operand is the image under `f` of the matching row of
    `x`, then every gathered row is the image under `f` of the matching gathered row of `x`. -/
theorem gather_rows_map {N R C D w : Nat} (hN : 0 < N)
    (wfC : GatherDims.WF ⟨2, ![N, C]⟩ ⟨2, ![R, 1]⟩ ⟨2, ![R, C]⟩ [1] [0] [] [0] [] 1 ![1, C])
    (wfD : GatherDims.WF ⟨2, ![N, D]⟩ ⟨2, ![R, 1]⟩ ⟨2, ![R, D]⟩ [1] [0] [] [0] [] 1 ![1, D])
    (f : (Fin C → α) → Fin D → β) (x : (⟨2, ![N, C]⟩ : Shape).Idx → α) (idx : IVec ⟨2, ![R, 1]⟩ w) :
    Host.gather (rowsDims N R D wfD) (fun i => f (fun k => x (ix2 (i 0) k)) (i 1)) idx
      = fun y => f (fun k => Host.gather (rowsDims N R C wfC) x idx (ix2 (y 0) k)) (y 1) := by
  funext y
  obtain ⟨r, q, rfl⟩ : ∃ r q, y = ix2 r q := ⟨y 0, y 1, eq_ix2 y⟩
  show Host.gather (rowsDims N R D wfD) (fun i => f (fun k => x (ix2 (i 0) k)) (i 1)) idx (ix2 r q)
      = f (fun k => Host.gather (rowsDims N R C wfC) x idx (ix2 r k)) q
  rw [gather_rows_apply_ix2 hN wfD,
    show (fun k => Host.gather (rowsDims N R C wfC) x idx (ix2 r k))
        = fun k => x (ix2 ⟨min (idx (ix2 r 0)).toInt.toNat (N - 1), by omega⟩ k)
      from funext fun k => gather_rows_apply_ix2 hN wfC x idx r k]
  rfl

end RowsMap

/-! ## Reshapes and broadcasts between a vector, a single row and a single column -/

section Reshape
variable {α : Type}

/-- A vector `[n]` reshaped to a single row `[1, n]`, read at `(0, j)`, is the vector at `j`. -/
theorem shapeCast_row_apply {n : Nat} (x : (⟨1, ![n]⟩ : Shape).Idx → α)
    (h : (⟨1, ![n]⟩ : Shape).ShapeCasts ⟨2, ![1, n]⟩) (j : Fin n) :
    shapeCast ⟨2, ![1, n]⟩ x h (ix2 0 j) = x (ix1 j) := by
  refine shapeCast_apply x h _ _ ?_
  rw [Shape.rowMajor_val_one, Shape.rowMajor_val_two]
  show j.val = 0 * n + j.val
  omega

/-- A vector `[n]` broadcast to a single row `[1, n]` (its axis sent to axis 1), read at `(0, j)`, is the vector at
    `j`. -/
theorem broadcastInDim_row_apply {n : Nat} (x : (⟨1, ![n]⟩ : Shape).Idx → α)
    (h : (⟨1, ![n]⟩ : Shape).BroadcastsInDim ⟨2, ![1, n]⟩ ![1]) (j : Fin n) :
    broadcastInDim ⟨2, ![1, n]⟩ ![1] h x (ix2 0 j) = x (ix1 j) := by
  refine broadcastInDim_apply _ h x _ _ (fun a => ?_)
  obtain rfl : a = 0 := Subsingleton.elim _ _
  show j.val = if n = 1 then 0 else j.val
  have := j.isLt
  split <;> omega

/-- A vector `[r]` reshaped to a single column `[r, 1]`, read at `(e, 0)`, is the vector at `e`. -/
theorem shapeCast_col_apply {r : Nat} (x : (⟨1, ![r]⟩ : Shape).Idx → α)
    (h : (⟨1, ![r]⟩ : Shape).ShapeCasts ⟨2, ![r, 1]⟩) (e : Fin r) :
    shapeCast ⟨2, ![r, 1]⟩ x h (ix2 e 0) = x (ix1 e) := by
  refine shapeCast_apply x h _ _ ?_
  rw [Shape.rowMajor_val_one, Shape.rowMajor_val_two]
  show e.val = e.val * 1 + 0
  omega

/-- A vector `[r]` broadcast to a single column `[r, 1]` (its axis sent to axis 0), read at `(e, 0)`, is the vector at
    `e`. -/
theorem broadcastInDim_col_apply {r : Nat} (x : (⟨1, ![r]⟩ : Shape).Idx → α)
    (h : (⟨1, ![r]⟩ : Shape).BroadcastsInDim ⟨2, ![r, 1]⟩ ![0]) (e : Fin r) :
    broadcastInDim ⟨2, ![r, 1]⟩ ![0] h x (ix2 e 0) = x (ix1 e) := by
  refine broadcastInDim_apply _ h x _ _ (fun a => ?_)
  obtain rfl : a = 0 := Subsingleton.elim _ _
  show e.val = if r = 1 then 0 else e.val
  have := e.isLt
  split <;> omega

/-- A single row `[1, n]` reshaped to a vector `[n]`, read at `j`, is the row at `(0, j)`. -/
theorem shapeCast_unrow_apply {n : Nat} (x : (⟨2, ![1, n]⟩ : Shape).Idx → α)
    (h : (⟨2, ![1, n]⟩ : Shape).ShapeCasts ⟨1, ![n]⟩) (j : Fin n) :
    shapeCast ⟨1, ![n]⟩ x h (ix1 j) = x (ix2 0 j) := by
  refine shapeCast_apply x h _ _ ?_
  rw [Shape.rowMajor_val_one, Shape.rowMajor_val_two]
  show 0 * n + j.val = j.val
  omega

/-- A single column `[r, 1]` reshaped to a vector `[r]`, read at `e`, is the column at `(e, 0)`. -/
theorem shapeCast_uncol_apply {r : Nat} (x : (⟨2, ![r, 1]⟩ : Shape).Idx → α)
    (h : (⟨2, ![r, 1]⟩ : Shape).ShapeCasts ⟨1, ![r]⟩) (e : Fin r) :
    shapeCast ⟨1, ![r]⟩ x h (ix1 e) = x (ix2 e 0) := by
  refine shapeCast_apply x h _ _ ?_
  rw [Shape.rowMajor_val_one, Shape.rowMajor_val_two]
  show e.val * 1 + 0 = e.val
  omega

end Reshape

/-! ## Unit-stride slices: row blocks of a matrix, a prefix of a flat array -/

section Slice
variable {α : Type}

/-- A block of `m` whole rows of a matrix `[M, C]` starting at row `o`, read at `(k, j)`, is the matrix at row `o + k`
    (given as any `i` with that value) and column `j`. -/
theorem slice_rows_apply {M m C o : Nat} (x : (⟨2, ![M, C]⟩ : Shape).Idx → α)
    (h : (⟨2, ![M, C]⟩ : Shape).Slices ![o, 0] ⟨2, ![m, C]⟩) (k : Fin m) (j : Fin C) (i : Fin M)
    (hi : i.val = o + k.val) :
    extractStridedSlice ⟨2, ![m, C]⟩ ![o, 0] x h (ix2 k j) = x (ix2 i j) := by
  refine extractStridedSlice_apply _ x h _ _ (fun a => ?_)
  match a with
  | ⟨0, _⟩ => exact hi
  | ⟨1, _⟩ => exact (Nat.zero_add j.val).symm

/-- Rows `0–63` of a `130 × 64` matrix, read at `(k, j)`: the matrix at `(k, j)`. -/
theorem slice_rows_0_apply (x : (⟨2, ![130, 64]⟩ : Shape).Idx → α)
    (h : (⟨2, ![130, 64]⟩ : Shape).Slices ![0, 0] ⟨2, ![64, 64]⟩) (k j : Fin 64) :
    extractStridedSlice ⟨2, ![64, 64]⟩ ![0, 0] x h (ix2 k j) = x (ix2 ⟨k.val, by omega⟩ j) :=
  slice_rows_apply x h k j ⟨k.val, by omega⟩ (Nat.zero_add k.val).symm

/-- Rows `64–127` of a `130 × 64` matrix, read at `(k, j)`: the matrix at `(k + 64, j)`. -/
theorem slice_rows_64_apply (x : (⟨2, ![130, 64]⟩ : Shape).Idx → α)
    (h : (⟨2, ![130, 64]⟩ : Shape).Slices ![64, 0] ⟨2, ![64, 64]⟩) (k j : Fin 64) :
    extractStridedSlice ⟨2, ![64, 64]⟩ ![64, 0] x h (ix2 k j) = x (ix2 ⟨k.val + 64, by omega⟩ j) :=
  slice_rows_apply x h k j ⟨k.val + 64, by omega⟩ (Nat.add_comm k.val 64)

/-- Row `128` of a `130 × 64` matrix as a single row, read at `(0, j)`: the matrix at `(128, j)`. -/
theorem slice_rows_128_apply (x : (⟨2, ![130, 64]⟩ : Shape).Idx → α)
    (h : (⟨2, ![130, 64]⟩ : Shape).Slices ![128, 0] ⟨2, ![1, 64]⟩) (j : Fin 64) :
    extractStridedSlice ⟨2, ![1, 64]⟩ ![128, 0] x h (ix2 0 j) = x (ix2 ⟨128, by omega⟩ j) :=
  slice_rows_apply x h 0 j ⟨128, by omega⟩ rfl

/-- Row `129` of a `130 × 64` matrix as a single row, read at `(0, j)`: the matrix at `(129, j)`. -/
theorem slice_rows_129_apply (x : (⟨2, ![130, 64]⟩ : Shape).Idx → α)
    (h : (⟨2, ![130, 64]⟩ : Shape).Slices ![129, 0] ⟨2, ![1, 64]⟩) (j : Fin 64) :
    extractStridedSlice ⟨2, ![1, 64]⟩ ![129, 0] x h (ix2 0 j) = x (ix2 ⟨129, by omega⟩ j) :=
  slice_rows_apply x h 0 j ⟨129, by omega⟩ rfl

/-- A block of `m` consecutive elements of a flat array `[M]` starting at `o`, read at `e`, is the array at `o + e`
    (given as any `i` with that value). -/
theorem slice_flat_apply {M m o : Nat} (x : (⟨1, ![M]⟩ : Shape).Idx → α)
    (h : (⟨1, ![M]⟩ : Shape).Slices ![o] ⟨1, ![m]⟩) (e : Fin m) (i : Fin M) (hi : i.val = o + e.val) :
    extractStridedSlice ⟨1, ![m]⟩ ![o] x h (ix1 e) = x (ix1 i) := by
  refine extractStridedSlice_apply _ x h _ _ (fun a => ?_)
  match a with
  | ⟨0, _⟩ => exact hi

/-- The first `800000` elements of a flat array of `1600000`, read at `e`: the array at `e`. -/
theorem slice_flat_0_apply (x : (⟨1, ![1600000]⟩ : Shape).Idx → α)
    (h : (⟨1, ![1600000]⟩ : Shape).Slices ![0] ⟨1, ![800000]⟩) (e : Fin 800000) :
    extractStridedSlice ⟨1, ![800000]⟩ ![0] x h (ix1 e) = x (ix1 ⟨e.val, by omega⟩) :=
  slice_flat_apply x h e ⟨e.val, by omega⟩ (Nat.zero_add e.val).symm

end Slice

end Cert.LibLayout
-- ==== Proof.KernelLayout.lean ====
/-
  The kernel program's host-side layout pieces, read at an index.

  The neighbourhood mean at (n, k) is the neighbourhood sum at (n, k) times the reciprocal of node n's degree clamped
  below by one: the reciprocals form a column, the column is laid along the 128 lanes, and the product is taken entry
  by entry.  A bias vector reshaped to a single row keeps its entries in order.  Each run of 128 read-out weights is
  cut out of the one weight column (rows 0–127, 128–255, 256–383), flattened, and written into column 0 of a zero
  128 × 128 matrix, so entry (k, 0) of that matrix is the run's k-th weight.  The read-out bias is written into
  position 0 of a zero array of 128 and reshaped to a row, so entry (0, 0) of the row is the bias.  Column 0 of a
  100000 × 128 array, flattened, reads at n the array's entry (n, 0).
-/
import proofs.«147244_j38216618999857_1_alg».proof.Proof.KernelTerms
import proofs.«147244_j38216618999857_1_alg».proof.Proof.Spec
import proofs.«147244_j38216618999857_1_alg».proof.Proof.LibScatterSet
import proofs.«147244_j38216618999857_1_alg».proof.Proof.LibLayout
import Idealize.ShloMosaic.Lib.IdealHost
import Idealize.ShloMosaic.Lib.Pipeline.Value

noncomputable section

namespace Cert.KernelIdeal.Layout

open Cert.KernelIdeal Cert.KernelIdeal.Facts₀ Cert.KernelIdeal.Facts Idealize.ShloMosaic Idealize.ShloMosaic.ValueIdx

/-- A vector of one number per row, made a column and laid along the 128 lanes, reads at (n, k) the number of row n. -/
theorem colLanes_apply {α : Type} (D : S100000.Idx → α) (n : Fin 100000) (k : Fin 128) :
    broadcastInDim S100000x128 ![0, 1] bcast_S100000x1_S100000x128_0_1
        (broadcastInDim S100000x1 ![0] bcast_S100000_S100000x1_0 D) (ix2 n k)
      = D (ix1 n) := by
  refine (broadcastInDim_apply _ bcast_S100000x1_S100000x128_0_1 _ (ix2 n k) (ix2 n (0 : Fin 1)) (fun a => ?_)).trans ?_
  · match a with
    | ⟨0, _⟩ => show n.val = if (100000 : Nat) = 1 then 0 else n.val; rw [if_neg (by decide)]
    | ⟨1, _⟩ => show 0 = if (1 : Nat) = 1 then 0 else k.val; rw [if_pos rfl]
  · exact Cert.LibLayout.broadcastInDim_col_apply D bcast_S100000_S100000x1_0 n

/-- The neighbourhood mean at (n, k): the neighbourhood sum there times the reciprocal of node n's clamped degree. -/
theorem meanK_apply (e : IVec S2x640000 32) (h : FVec Ideal S100000x128 .f32) (n : Fin 100000) (k : Fin 128) :
    Terms.meanK e h (ValueIdx.ix2 n k)
      = Terms.aggK e h (ValueIdx.ix2 n k) * Ideal.div Cert.Sage.oneW (max (Terms.degK e (ValueIdx.ix1 n)) Cert.Sage.oneW) := by
  unfold Terms.meanK
  rw [mulf_apply]
  refine congrArg (Terms.aggK e h (ix2 n k) * ·) ?_
  unfold Terms.dinvK
  rw [colLanes_apply, hostDivf_apply]
  unfold Terms.dmaxK
  rw [maximumf_apply]
  rfl

/-- A bias vector as a single row reads at (0, j) its entry j. -/
theorem rowK_apply (b : FVec Ideal S128 .f32) (j : Fin 128) :
    Terms.rowK b (ValueIdx.ix2 (0 : Fin 1) j) = b (ValueIdx.ix1 j) := by
  unfold Terms.rowK
  exact Cert.LibLayout.shapeCast_row_apply b shapeCasts_S128_S1x128 j

/-- The scatter index of the two writes is the word 0, whose signed value is 0. -/
theorem zeroIndex_toInt :
    ((broadcastInDim S1 ![] bcast_S_S1 (constantI S_ 32 0#32) : IVec S1 32) (ix1 (0 : Fin 1))).toInt = 0 := by
  show (0#32 : BitVec 32).toInt = 0
  decide

/-- Rows o … o + 127 of the weight column, flattened and written into column 0 of a zero 128 × 128 matrix: entry
    (k, 0) is the weight at row o + k. -/
theorem padRun_apply (o : Nat) (hs : S384x1.Slices ![o, 0] S128x1) (wc : FVec Ideal S384x1 .f32) (k : Fin 128) (i : Fin 384)
    (hi : i.val = o + k.val) :
    Host.scatter scatter_S128x128_S1_S128_0_1_1_0 (fun _ b => b)
        (broadcastInDim S128x128 ![] bcast_S_S128x128 (constant (F := Ideal) S_ FTy.f32 0#32))
        (broadcastInDim S1 ![] bcast_S_S1 (constantI S_ 32 0#32))
        (fun i => shapeCast S128 (extractStridedSlice S128x1 ![o, 0] wc hs) shapeCasts_S128x1_S128 i)
        (ix2 k (0 : Fin 128))
      = wc (ix2 i (0 : Fin 1)) := by
  refine (Cert.LibScatterSet.col_set_apply (K := 128) (C := 128) scatter_S128x128_S1_S128_0_1_1_0_wf (by decide) _ _
    zeroIndex_toInt _ k).trans ?_
  refine (Cert.LibLayout.shapeCast_uncol_apply _ shapeCasts_S128x1_S128 k).trans ?_
  exact Cert.LibLayout.slice_rows_apply wc hs k (0 : Fin 1) i hi

/-- The first run of read-out weights: entry (k, 0) is weight k. -/
theorem pad0K_apply (wc : FVec Ideal S384x1 .f32) (k : Fin 128) :
    Terms.pad0K wc (ValueIdx.ix2 k (0 : Fin 128)) = wc (ValueIdx.ix2 (⟨k.val, by omega⟩ : Fin 384) (0 : Fin 1)) := by
  unfold Terms.pad0K
  exact padRun_apply 0 slices_S384x1_S128x1_0_0 wc k ⟨k.val, by omega⟩ (Nat.zero_add k.val).symm

/-- The second run: entry (k, 0) is weight 128 + k. -/
theorem pad1K_apply (wc : FVec Ideal S384x1 .f32) (k : Fin 128) :
    Terms.pad1K wc (ValueIdx.ix2 k (0 : Fin 128)) = wc (ValueIdx.ix2 (⟨128 + k.val, by omega⟩ : Fin 384) (0 : Fin 1)) := by
  unfold Terms.pad1K
  exact padRun_apply 128 slices_S384x1_S128x1_128_0 wc k ⟨128 + k.val, by omega⟩ rfl

/-- The third run: entry (k, 0) is weight 256 + k. -/
theorem pad2K_apply (wc : FVec Ideal S384x1 .f32) (k : Fin 128) :
    Terms.pad2K wc (ValueIdx.ix2 k (0 : Fin 128)) = wc (ValueIdx.ix2 (⟨256 + k.val, by omega⟩ : Fin 384) (0 : Fin 1)) := by
  unfold Terms.pad2K
  exact padRun_apply 256 slices_S384x1_S128x1_256_0 wc k ⟨256 + k.val, by omega⟩ rfl

/-- A one-element array reshaped to a scalar reads its one element. -/
theorem scalarOf_apply {α : Type} (bc : S1.Idx → α) : shapeCast S_ bc shapeCasts_S1_S_ ix0 = bc (ix1 (0 : Fin 1)) := by
  refine shapeCast_apply bc shapeCasts_S1_S_ ix0 (ix1 (0 : Fin 1)) ?_
  rw [Shape.rowMajor_val_one]
  exact (Shape.rowMajorPi_zero _ _).symm

/-- The read-out bias in position 0 of a zero row: entry (0, 0) is the bias. -/
theorem padBK_apply (bc : FVec Ideal S1 .f32) :
    Terms.padBK bc (ValueIdx.ix2 (0 : Fin 1) (0 : Fin 128)) = bc (ValueIdx.ix1 (0 : Fin 1)) := by
  unfold Terms.padBK
  refine (Cert.LibLayout.shapeCast_row_apply _ shapeCasts_S128_S1x128 (0 : Fin 128)).trans ?_
  refine (Cert.LibScatterSet.elem_set_apply (N := 128) scatter_S128_S1_S__n_0_0_0_wf (by decide) _ _ zeroIndex_toInt _).trans ?_
  exact scalarOf_apply bc

/-- Column 0 of a 100000 × 128 array as a flat array reads at n the entry (n, 0). -/
theorem col0K_apply (y : FVec Ideal S100000x128 .f32) (n : Fin 100000) :
    Terms.col0K y (ValueIdx.ix1 n) = y (ValueIdx.ix2 n (0 : Fin 128)) := by
  unfold Terms.col0K
  refine (Cert.LibLayout.shapeCast_uncol_apply _ shapeCasts_S100000x1_S100000 n).trans ?_
  refine extractStridedSlice_apply ![0, 0] y slices_S100000x128_S100000x1_0_0 (ix2 n (0 : Fin 1)) (ix2 n (0 : Fin 128)) (fun a => ?_)
  match a with
  | ⟨0, _⟩ => show n.val = 0 + n.val; omega
  | ⟨1, _⟩ => rfl

end Cert.KernelIdeal.Layout

end
-- ==== Proof.Common.lean ====
/-
  The whole network as ONE function of the thirteen argument arrays: a layer is
  `relu (mean(h) · Wl + h · Wr + b)` with `mean(h)` the neighbourhood sum of `h` times the reciprocal clamped degree;
  three layers in sequence; the read-out of their three outputs against the column of 384 weights, plus the bias.
-/
import proofs.«147244_j38216618999857_1_alg».proof.Proof.KernelTerms
import proofs.«147244_j38216618999857_1_alg».proof.Proof.Spec

noncomputable section

namespace Cert.KernelIdeal.Common

open Cert.KernelIdeal Cert.KernelIdeal.Terms Idealize.ShloMosaic Idealize.ShloMosaic.ValueIdx

/-- One layer over the edge list `e`. -/
def L (e : IVec S2x640000 32) (h : FVec Ideal S100000x128 .f32) (wl wr : FVec Ideal S128x128 .f32) (b : FVec Ideal S128 .f32) :
    FVec Ideal S100000x128 .f32 :=
  Cert.Sage.layerArr (meanK e h) h wl wr (fun j => b (ix1 j))

/-- The network's result. -/
def G (x0 : FVec Ideal S100000x128 .f32) (x1 : IVec S2x640000 32) (x2 x3 : FVec Ideal S128x128 .f32) (x4 : FVec Ideal S128 .f32)
    (x5 x6 : FVec Ideal S128x128 .f32) (x7 : FVec Ideal S128 .f32) (x8 x9 : FVec Ideal S128x128 .f32) (x10 : FVec Ideal S128 .f32)
    (x11 : FVec Ideal S384x1 .f32) (x12 : FVec Ideal S1 .f32) : FVec Ideal S100000 .f32 :=
  fun i => Cert.Sage.outAt (L x1 x0 x2 x3 x4) (L x1 (L x1 x0 x2 x3 x4) x5 x6 x7)
    (L x1 (L x1 (L x1 x0 x2 x3 x4) x5 x6 x7) x8 x9 x10) x11 (x12 (ix1 (0 : Fin 1))) (⟨(i 0).val, (i 0).isLt⟩ : Fin 100000)

end Cert.KernelIdeal.Common

end
-- ==== Proof.LibMatmul2.lean ====
/-
  A product of two matrices [M,K]·[K,N] into a zero accumulator, at the ideal values, read at an entry:
  the sum over the K positions of the contracted axis of the left operand's row entry times the right
  operand's column entry.  The dimension record is any one that contracts the left operand's second axis
  with the right operand's first and keeps the other two axes in order, without batch axes.
-/
import Idealize.ShloMosaic.Lib.ValueIdx
import Idealize.ShloMosaic.PureOps.Ideal.Laws

noncomputable section

namespace Cert.LibMatmul2

open Idealize.ShloMosaic Idealize.ShloMosaic.ValueIdx

variable {sl sr so : Shape} (d : DotDims sl sr so)

/-- On the left operand's one kept axis (no batch axes) the left index reads the result index's first coordinate. -/
theorem lhsIdx_val_of_non {a : Fin sl.rank} (hb : d.lhsBatch = []) (hn : d.lhsNonContracting = [a]) (j : so.Idx) (k : d.contr.Idx) :
    (d.lhsIdx j k a).val = (j ⟨0, by rw [d.rank_out, hb, hn]; simp⟩).val := by
  have hmem : a ∈ d.lhsNonContracting := by rw [hn]; exact List.mem_singleton.mpr rfl
  unfold DotDims.lhsIdx
  rw [dif_neg (by rw [hb]; exact List.not_mem_nil), dif_pos hmem]
  simp only [Fin.val_cast]
  have key : ∀ (p q : Nat) (hp : p < so.rank) (hq : q < so.rank), p = q → (j ⟨p, hp⟩).val = (j ⟨q, hq⟩).val :=
    fun p q hp hq h => by subst h; rfl
  exact key _ _ _ _ (by simp [hb, hn])

/-- On the right operand's one kept axis (no batch axes, one kept axis on the left) the right index reads the
    result index's second coordinate. -/
theorem rhsIdx_val_of_non {a : Fin sr.rank} {al : Fin sl.rank} (hb : d.rhsBatch = []) (hlb : d.lhsBatch = [])
    (hln : d.lhsNonContracting = [al]) (hn : d.rhsNonContracting = [a]) (j : so.Idx) (k : d.contr.Idx) :
    (d.rhsIdx j k a).val = (j ⟨1, by rw [d.rank_out, hlb, hln, hn]; simp⟩).val := by
  have hmem : a ∈ d.rhsNonContracting := by rw [hn]; exact List.mem_singleton.mpr rfl
  unfold DotDims.rhsIdx
  rw [dif_neg (by rw [hb]; exact List.not_mem_nil), dif_pos hmem]
  simp only [Fin.val_cast]
  have key : ∀ (p q : Nat) (hp : p < so.rank) (hq : q < so.rank), p = q → (j ⟨p, hp⟩).val = (j ⟨q, hq⟩).val :=
    fun p q hp hq h => by subst h; rfl
  exact key _ _ _ _ (by simp [hlb, hln, hn])

/-- The plain arrangement of a matrix product's dimension numbers. -/
structure Plain {M K N : Nat} (d : DotDims ⟨2, ![M, K]⟩ ⟨2, ![K, N]⟩ ⟨2, ![M, N]⟩) : Prop where
  lc : d.lhsContracting = [1]
  rc : d.rhsContracting = [0]
  ln : d.lhsNonContracting = [0]
  rn : d.rhsNonContracting = [1]
  lb : d.lhsBatch = []
  rb : d.rhsBatch = []

variable {M K N : Nat} {φ₁ φ₂ : FTy}

theorem Plain.rank {d : DotDims ⟨2, ![M, K]⟩ ⟨2, ![K, N]⟩ ⟨2, ![M, N]⟩} (h : Plain d) : d.contr.rank = 1 := by
  rw [d.rank_contr, h.lc]; rfl

theorem Plain.size {d : DotDims ⟨2, ![M, K]⟩ ⟨2, ![K, N]⟩ ⟨2, ![M, N]⟩} (h : Plain d) :
    d.contr.size ⟨0, by rw [h.rank]; exact Nat.one_pos⟩ = K := by
  have := d.size_contr 0 (by rw [h.lc]; exact Nat.one_pos)
  rw [this]
  simp [h.lc]

/-- THE ENTRY of a plain matrix product into a zero accumulator at the ideal values. -/
theorem matmul_apply {d : DotDims ⟨2, ![M, K]⟩ ⟨2, ![K, N]⟩ ⟨2, ![M, N]⟩} (h : Plain d) (prec : Option ContractPrecision)
    (A : FVec Ideal ⟨2, ![M, K]⟩ φ₁) (B : FVec Ideal ⟨2, ![K, N]⟩ φ₂) (j : (⟨2, ![M, N]⟩ : Shape).Idx) :
    FloatOps.matmul d prec A B (constant ⟨2, ![M, N]⟩ .f32 0x00000000#32) j
      = ∑ l : Fin K, A (ix2 (j 0) l) * B (ix2 l (j 1)) := by
  rw [Ideal.matmul_constant_zero_apply]
  rw [← Equiv.sum_comp (contrEquiv1 d K h.rank h.size).symm]
  refine Finset.sum_congr rfl fun l _ => ?_
  have hl : d.lhsIdx j ((contrEquiv1 d K h.rank h.size).symm l) = ix2 (j 0) l := by
    funext a; apply Fin.ext
    match a with
    | ⟨0, _⟩ => exact lhsIdx_val_of_non d h.lb h.ln j _
    | ⟨1, _⟩ => exact (d.lhsIdx_val_of_single h.lc j _).trans (contrEquiv1_symm_val d K h.rank h.size l)
  have hr : d.rhsIdx j ((contrEquiv1 d K h.rank h.size).symm l) = ix2 l (j 1) := by
    funext a; apply Fin.ext
    match a with
    | ⟨0, _⟩ => exact (d.rhsIdx_val_of_single h.rc j _).trans (contrEquiv1_symm_val d K h.rank h.size l)
    | ⟨1, _⟩ => exact rhsIdx_val_of_non d h.rb h.lb h.ln h.rn j _
  rw [hl, hr]
  rfl

end Cert.LibMatmul2

end
-- ==== Proof.Payload.lean ====
/-
  What each of the four kernel bodies stores, read at one entry, on the extended reals.

  A layer body takes a 5000-row block of the neighbourhood means `x0`, the same rows of the node features `x1`, the
  two 128 × 128 weight matrices `x2`, `x3` and the bias row `x4`; at row `p`, column `q` it stores
  `max ((∑ k, x0[p,k] · x2[k,q]) + (∑ k, x1[p,k] · x3[k,q]) + x4[0,q]) 0`: each product of matrices into the zero
  accumulator is the plain sum over the contracted axis, a change of float format is the identity, a cast to the same
  shape is the identity, and the bias row broadcast down the rows reads its column.

  The read-out body takes three 5000-row blocks `x0`, `x1`, `x2`, three 128 × 128 matrices `x3`, `x4`, `x5` and a
  bias row `x6`; at row `p`, column `q` it stores
  `(∑ k, x0[p,k] · x3[k,q]) + (∑ k, x1[p,k] · x4[k,q]) + (∑ k, x2[p,k] · x5[k,q]) + x6[0,q]`.
-/
import proofs.«147244_j38216618999857_1_alg».proof.Proof.Gen.KernelIdeal.Skeleton
import proofs.«147244_j38216618999857_1_alg».proof.Proof.LibMatmul2
import proofs.«147244_j38216618999857_1_alg».proof.Proof.Spec
import Idealize.ShloMosaic.Lib.Pipeline.Value
import Idealize.ShloMosaic.Lib.ValueLayout
import Idealize.ShloMosaic.Lib.ValueIdx

noncomputable section

namespace Cert.KernelIdeal.Payload

open Idealize.ShloMosaic Idealize.ShloMosaic.ValueIdx
open Cert.KernelIdeal Cert.KernelIdeal.Gen

/-- The bodies' products of matrices contract the left operand's columns with the right operand's rows. -/
theorem plain : Cert.LibMatmul2.Plain dot_S5000x128_S128x128_S5000x128_1_0_0_1_n_n :=
  ⟨rfl, rfl, rfl, rfl, rfl, rfl⟩

/-- A product of a 5000 × 128 block with a 128 × 128 matrix into the zero accumulator, the operands first changed
    to the narrower float format (the identity here), at row `p`, column `q`. -/
theorem mm_apply (A : FVec Ideal S5000x128 .f32) (B : FVec Ideal S128x128 .f32) (p : Fin 5000) (q : Fin 128) :
    matmul dot_S5000x128_S128x128_S5000x128_1_0_0_1_n_n none (truncf .bf16 A bitsLt_bf16_f32) (truncf .bf16 B bitsLt_bf16_f32)
        (constant S5000x128 .f32 0x00000000#32) (ix2 p q)
      = ∑ k : Fin 128, A (ix2 p k) * B (ix2 k q) :=
  Cert.LibMatmul2.matmul_apply plain none (truncf .bf16 A bitsLt_bf16_f32) (truncf .bf16 B bitsLt_bf16_f32) (ix2 p q)

/-- The bias row broadcast down 5000 rows, at row `p`, column `q`, is the row's entry in column `q`. -/
theorem bias_apply (b : FVec Ideal S1x128 .f32) (p : Fin 5000) (q : Fin 128) :
    broadcastTo S5000x128 (shapeCast S1x128 b shapeCasts_S1x128_S1x128) broadcasts_S1x128_S5000x128 (ix2 p q)
      = b (ix2 (0 : Fin 1) q) := by
  rw [shapeCast_self]
  refine broadcastTo_apply b _ (ix2 p q) (ix2 (0 : Fin 1) q) fun a => ?_
  match a with
  | ⟨0, _⟩ => rfl
  | ⟨1, _⟩ => rfl

/-- The first layer's body at an entry. -/
theorem k0_pay1_apply (x0 x1 : Vec Ideal S5000x128 .f32) (x2 x3 : Vec Ideal S128x128 .f32) (x4 : Vec Ideal S1x128 .f32)
    (p : Fin 5000) (q : Fin 128) :
    k0_pay1 (F := Ideal) x0 x1 x2 x3 x4 (ix2 p q)
      = max (((∑ k : Fin 128, x0 (ix2 p k) * x2 (ix2 k q)) + (∑ k : Fin 128, x1 (ix2 p k) * x3 (ix2 k q))) + x4 (ix2 (0 : Fin 1) q))
          Cert.Sage.zeroW := by
  unfold k0_pay1
  refine congrArg₂ max (congrArg₂ (· + ·) (congrArg₂ (· + ·) ?_ ?_) ?_) rfl
  · rw [shapeCast_self]; exact mm_apply x0 x2 p q
  · exact mm_apply x1 x3 p q
  · exact bias_apply x4 p q

/-- The second layer's body at an entry. -/
theorem k1_pay1_apply (x0 x1 : Vec Ideal S5000x128 .f32) (x2 x3 : Vec Ideal S128x128 .f32) (x4 : Vec Ideal S1x128 .f32)
    (p : Fin 5000) (q : Fin 128) :
    k1_pay1 (F := Ideal) x0 x1 x2 x3 x4 (ix2 p q)
      = max (((∑ k : Fin 128, x0 (ix2 p k) * x2 (ix2 k q)) + (∑ k : Fin 128, x1 (ix2 p k) * x3 (ix2 k q))) + x4 (ix2 (0 : Fin 1) q))
          Cert.Sage.zeroW := by
  unfold k1_pay1
  refine congrArg₂ max (congrArg₂ (· + ·) (congrArg₂ (· + ·) ?_ ?_) ?_) rfl
  · rw [shapeCast_self]; exact mm_apply x0 x2 p q
  · rw [shapeCast_self]; exact mm_apply x1 x3 p q
  · exact bias_apply x4 p q

/-- The third layer's body at an entry. -/
theorem k2_pay1_apply (x0 x1 : Vec Ideal S5000x128 .f32) (x2 x3 : Vec Ideal S128x128 .f32) (x4 : Vec Ideal S1x128 .f32)
    (p : Fin 5000) (q : Fin 128) :
    k2_pay1 (F := Ideal) x0 x1 x2 x3 x4 (ix2 p q)
      = max (((∑ k : Fin 128, x0 (ix2 p k) * x2 (ix2 k q)) + (∑ k : Fin 128, x1 (ix2 p k) * x3 (ix2 k q))) + x4 (ix2 (0 : Fin 1) q))
          Cert.Sage.zeroW := by
  unfold k2_pay1
  refine congrArg₂ max (congrArg₂ (· + ·) (congrArg₂ (· + ·) ?_ ?_) ?_) rfl
  · rw [shapeCast_self]; exact mm_apply x0 x2 p q
  · rw [shapeCast_self]; exact mm_apply x1 x3 p q
  · exact bias_apply x4 p q

/-- The read-out's body at an entry. -/
theorem k3_pay1_apply (x0 x1 x2 : Vec Ideal S5000x128 .f32) (x3 x4 x5 : Vec Ideal S128x128 .f32) (x6 : Vec Ideal S1x128 .f32)
    (p : Fin 5000) (q : Fin 128) :
    k3_pay1 (F := Ideal) x0 x1 x2 x3 x4 x5 x6 (ix2 p q)
      = (((∑ k : Fin 128, x0 (ix2 p k) * x3 (ix2 k q)) + (∑ k : Fin 128, x1 (ix2 p k) * x4 (ix2 k q)))
          + (∑ k : Fin 128, x2 (ix2 p k) * x5 (ix2 k q))) + x6 (ix2 (0 : Fin 1) q) := by
  unfold k3_pay1
  refine congrArg₂ (· + ·) (congrArg₂ (· + ·) (congrArg₂ (· + ·) ?_ ?_) ?_) ?_
  · rw [shapeCast_self, shapeCast_self]; exact mm_apply x0 x3 p q
  · rw [shapeCast_self, shapeCast_self]; exact mm_apply x1 x4 p q
  · rw [shapeCast_self, shapeCast_self]; exact mm_apply x2 x5 p q
  · exact bias_apply x6 p q

/-! ## A block of rows against the whole arrays

Block `r` of a 100000-row array is its rows `5000 r … 5000 r + 4999`.  When the row blocks a body reads are block `r`
of whole arrays and the other operands are whole arrays themselves, what the body stores at row `p` of the block is
the layer (or the read-out) of the whole arrays at row `5000 r + p`. -/

/-- The layer formula on block `r` of the rows is the layer of the whole arrays at the block's rows. -/
theorem layer_block (mean h : Cert.Sage.Rows.Idx → EReal) (wl wr : Cert.Sage.Sq.Idx → EReal) (bias : S1x128.Idx → EReal)
    (x0 x1 : Vec Ideal S5000x128 .f32) (x2 x3 : Vec Ideal S128x128 .f32) (x4 : Vec Ideal S1x128 .f32) (r : Nat)
    (h0 : ∀ (y : S5000x128.Idx) (i : S100000x128.Idx), (i 0).val = 5000 * r + (y 0).val → (i 1).val = (y 1).val → x0 y = mean i)
    (h1 : ∀ (y : S5000x128.Idx) (i : S100000x128.Idx), (i 0).val = 5000 * r + (y 0).val → (i 1).val = (y 1).val → x1 y = h i)
    (h2 : ∀ y : S128x128.Idx, x2 y = wl y) (h3 : ∀ y : S128x128.Idx, x3 y = wr y) (h4 : ∀ y : S1x128.Idx, x4 y = bias y)
    (p : Fin 5000) (q : Fin 128) (n : Fin 100000) (hn : n.val = 5000 * r + p.val) :
    max (((∑ k : Fin 128, x0 (ix2 p k) * x2 (ix2 k q)) + (∑ k : Fin 128, x1 (ix2 p k) * x3 (ix2 k q))) + x4 (ix2 (0 : Fin 1) q))
        Cert.Sage.zeroW
      = Cert.Sage.layerAt mean h wl wr (fun j => bias (ix2 (0 : Fin 1) j)) n q := by
  unfold Cert.Sage.layerAt
  refine congrArg₂ max (congrArg₂ (· + ·) (congrArg₂ (· + ·) (Finset.sum_congr rfl fun k _ => ?_)
    (Finset.sum_congr rfl fun k _ => ?_)) (h4 _)) rfl
  · rw [h0 (ix2 p k) (ix2 n k) hn rfl, h2]
  · rw [h1 (ix2 p k) (ix2 n k) hn rfl, h3]

/-- The read-out formula on block `r` of the rows is the read-out of the whole arrays at the block's rows. -/
theorem cls_block (a0 a1 a2 : Cert.Sage.Rows.Idx → EReal) (w0 w1 w2 : Cert.Sage.Sq.Idx → EReal) (bias : S1x128.Idx → EReal)
    (x0 x1 x2 : Vec Ideal S5000x128 .f32) (x3 x4 x5 : Vec Ideal S128x128 .f32) (x6 : Vec Ideal S1x128 .f32) (r : Nat)
    (h0 : ∀ (y : S5000x128.Idx) (i : S100000x128.Idx), (i 0).val = 5000 * r + (y 0).val → (i 1).val = (y 1).val → x0 y = a0 i)
    (h1 : ∀ (y : S5000x128.Idx) (i : S100000x128.Idx), (i 0).val = 5000 * r + (y 0).val → (i 1).val = (y 1).val → x1 y = a1 i)
    (h2 : ∀ (y : S5000x128.Idx) (i : S100000x128.Idx), (i 0).val = 5000 * r + (y 0).val → (i 1).val = (y 1).val → x2 y = a2 i)
    (h3 : ∀ y : S128x128.Idx, x3 y = w0 y) (h4 : ∀ y : S128x128.Idx, x4 y = w1 y) (h5 : ∀ y : S128x128.Idx, x5 y = w2 y)
    (h6 : ∀ y : S1x128.Idx, x6 y = bias y)
    (p : Fin 5000) (q : Fin 128) (n : Fin 100000) (hn : n.val = 5000 * r + p.val) :
    (((∑ k : Fin 128, x0 (ix2 p k) * x3 (ix2 k q)) + (∑ k : Fin 128, x1 (ix2 p k) * x4 (ix2 k q)))
        + (∑ k : Fin 128, x2 (ix2 p k) * x5 (ix2 k q))) + x6 (ix2 (0 : Fin 1) q)
      = Cert.Sage.clsAt a0 a1 a2 w0 w1 w2 (fun j => bias (ix2 (0 : Fin 1) j)) n q := by
  unfold Cert.Sage.clsAt
  refine congrArg₂ (· + ·) (congrArg₂ (· + ·) (congrArg₂ (· + ·) (Finset.sum_congr rfl fun k _ => ?_)
    (Finset.sum_congr rfl fun k _ => ?_)) (Finset.sum_congr rfl fun k _ => ?_)) (h6 _)
  · rw [h0 (ix2 p k) (ix2 n k) hn rfl, h3]
  · rw [h1 (ix2 p k) (ix2 n k) hn rfl, h4]
  · rw [h2 (ix2 p k) (ix2 n k) hn rfl, h5]

/-- A whole-array index with the coordinates of row `5000 r + y₀`, column `y₁` is `ix2` of them. -/
theorem row_split (i : S100000x128.Idx) (y : S5000x128.Idx) (r : Nat) (hi0 : (i 0).val = 5000 * r + (y 0).val)
    (hi1 : (i 1).val = (y 1).val) :
    ∃ (n : Fin 100000) (p : Fin 5000) (q : Fin 128), i = ix2 n q ∧ y = ix2 p q ∧ n.val = 5000 * r + p.val :=
  ⟨i 0, y 0, y 1, (eq_ix2 i).trans (congrArg (ix2 (i 0)) (Fin.ext hi1)), eq_ix2 y, hi0⟩

section
variable (mean h : Cert.Sage.Rows.Idx → EReal) (wl wr : Cert.Sage.Sq.Idx → EReal) (bias : S1x128.Idx → EReal)
  (x0 x1 : Vec Ideal S5000x128 .f32) (x2 x3 : Vec Ideal S128x128 .f32) (x4 : Vec Ideal S1x128 .f32) (r : Nat)
  (h0 : ∀ (y : S5000x128.Idx) (i : S100000x128.Idx), (i 0).val = 5000 * r + (y 0).val → (i 1).val = (y 1).val → x0 y = mean i)
  (h1 : ∀ (y : S5000x128.Idx) (i : S100000x128.Idx), (i 0).val = 5000 * r + (y 0).val → (i 1).val = (y 1).val → x1 y = h i)
  (h2 : ∀ y : S128x128.Idx, x2 y = wl y) (h3 : ∀ y : S128x128.Idx, x3 y = wr y) (h4 : ∀ y : S1x128.Idx, x4 y = bias y)
  (y : S5000x128.Idx) (i : S100000x128.Idx) (hi0 : (i 0).val = 5000 * r + (y 0).val) (hi1 : (i 1).val = (y 1).val)
include h0 h1 h2 h3 h4 hi0 hi1

/-- The first layer's body on block `r`: the layer of the whole arrays at the block's rows. -/
theorem k0_block : k0_pay1 (F := Ideal) x0 x1 x2 x3 x4 y
    = Cert.Sage.layerArr mean h wl wr (fun j => bias (ix2 (0 : Fin 1) j)) i := by
  obtain ⟨n, p, q, rfl, rfl, hn⟩ := row_split i y r hi0 hi1
  rw [k0_pay1_apply, Cert.Sage.layerArr_apply]
  exact layer_block mean h wl wr bias x0 x1 x2 x3 x4 r h0 h1 h2 h3 h4 p q n hn

/-- The second layer's body on block `r`. -/
theorem k1_block : k1_pay1 (F := Ideal) x0 x1 x2 x3 x4 y
    = Cert.Sage.layerArr mean h wl wr (fun j => bias (ix2 (0 : Fin 1) j)) i := by
  obtain ⟨n, p, q, rfl, rfl, hn⟩ := row_split i y r hi0 hi1
  rw [k1_pay1_apply, Cert.Sage.layerArr_apply]
  exact layer_block mean h wl wr bias x0 x1 x2 x3 x4 r h0 h1 h2 h3 h4 p q n hn

/-- The third layer's body on block `r`. -/
theorem k2_block : k2_pay1 (F := Ideal) x0 x1 x2 x3 x4 y
    = Cert.Sage.layerArr mean h wl wr (fun j => bias (ix2 (0 : Fin 1) j)) i := by
  obtain ⟨n, p, q, rfl, rfl, hn⟩ := row_split i y r hi0 hi1
  rw [k2_pay1_apply, Cert.Sage.layerArr_apply]
  exact layer_block mean h wl wr bias x0 x1 x2 x3 x4 r h0 h1 h2 h3 h4 p q n hn

end

/-- The read-out's body on block `r`: the read-out of the whole arrays at the block's rows. -/
theorem k3_block (a0 a1 a2 : Cert.Sage.Rows.Idx → EReal) (w0 w1 w2 : Cert.Sage.Sq.Idx → EReal) (bias : S1x128.Idx → EReal)
    (x0 x1 x2 : Vec Ideal S5000x128 .f32) (x3 x4 x5 : Vec Ideal S128x128 .f32) (x6 : Vec Ideal S1x128 .f32) (r : Nat)
    (h0 : ∀ (y : S5000x128.Idx) (i : S100000x128.Idx), (i 0).val = 5000 * r + (y 0).val → (i 1).val = (y 1).val → x0 y = a0 i)
    (h1 : ∀ (y : S5000x128.Idx) (i : S100000x128.Idx), (i 0).val = 5000 * r + (y 0).val → (i 1).val = (y 1).val → x1 y = a1 i)
    (h2 : ∀ (y : S5000x128.Idx) (i : S100000x128.Idx), (i 0).val = 5000 * r + (y 0).val → (i 1).val = (y 1).val → x2 y = a2 i)
    (h3 : ∀ y : S128x128.Idx, x3 y = w0 y) (h4 : ∀ y : S128x128.Idx, x4 y = w1 y) (h5 : ∀ y : S128x128.Idx, x5 y = w2 y)
    (h6 : ∀ y : S1x128.Idx, x6 y = bias y)
    (y : S5000x128.Idx) (i : S100000x128.Idx) (hi0 : (i 0).val = 5000 * r + (y 0).val) (hi1 : (i 1).val = (y 1).val) :
    k3_pay1 (F := Ideal) x0 x1 x2 x3 x4 x5 x6 y
      = Cert.Sage.clsArr a0 a1 a2 w0 w1 w2 (fun j => bias (ix2 (0 : Fin 1) j)) i := by
  obtain ⟨n, p, q, rfl, rfl, hn⟩ := row_split i y r hi0 hi1
  rw [k3_pay1_apply, Cert.Sage.clsArr_apply]
  exact cls_block a0 a1 a2 w0 w1 w2 bias x0 x1 x2 x3 x4 x5 x6 r h0 h1 h2 h3 h4 h5 h6 p q n hn

end Cert.KernelIdeal.Payload

end
-- ==== Proof.RegionLayer0.lean ====
/-
  Layer kernel 0 as one function of the arrays it finds.

  The kernel runs over 20 grid points.  At point `t` it reads rows `5000 t … 5000 t + 4999` of the neighbourhood means
  and of the node features, the two whole 128 × 128 weight matrices and the whole bias row, and writes rows
  `5000 t … 5000 t + 4999` of the result: at row `p` of the block, column `q`,
  `max ((mean · Wl)[5000 t + p, q] + (h · Wr)[5000 t + p, q] + b[q]) 0`.  So what point `t` writes back is block `t` of
  ONE array, the layer of the whole arrays; row `r` of the result lies in the block of point `r / 5000`, so the 20 blocks
  cover the result, and the result ends holding the layer of the arrays the kernel found.
-/
import proofs.«147244_j38216618999857_1_alg».proof.Proof.Gen.KernelIdeal.Frame
import proofs.«147244_j38216618999857_1_alg».proof.Proof.Payload
import proofs.«147244_j38216618999857_1_alg».proof.Proof.Spec
import Idealize.ShloMosaic.Lib.Pipeline.Value

set_option maxRecDepth 16384

noncomputable section

namespace Cert.KernelIdeal.RegionValue

open Idealize.ShloMosaic Idealize.ShloMosaic.TcCoe Idealize.ShloMosaic.ValueIdx
open Idealize.SL.Sem
open Idealize.ShloMosaic.Pipeline (Dat)
open Cert.KernelIdeal Cert.KernelIdeal.Gen

variable (V : (c : Dev nD) → (b : Ref sig .tc) → Buf (Elt Ideal) ((c : Thread nD τ).loc b)) (c : Dev nD)

/-- The zero offsets of a whole staging buffer, spelt as a constant function. -/
theorem hz0 : (![0, 0] : Fin 2 → Nat) = fun _ => 0 := funext fun a => by fin_cases a <;> rfl

/-- The index maps, decided over the grid: the windows on the means, the features and the result are on block `t` of
    the rows at point `t`; the windows on the weights and the bias are on the whole array at every point. -/
theorem idx0 : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- The block of the means at point `t` is rows `5000 t …` of the array. -/
theorem iblk0_0_apply (t : Fin cfg0.N) (y : S5000x128.Idx) (i : S100000x128.Idx)
    (hi0 : (i 0).val = 5000 * t.val + (y 0).val) (hi1 : (i 1).val = (y 1).val) :
    (iblk0 (F := Ideal) V c 0 t : Vec Ideal S5000x128 .f32) y = (V c main_v24 : S100000x128.Idx → EReal) i := by
  obtain ⟨e0, e1, -⟩ := idx0 t
  unfold iblk0
  rw [View.read_apply]
  show (V c main_v24 : S100000x128.Idx → EReal) _ = V c main_v24 i
  refine congrArg _ (funext fun a => Fin.ext ?_)
  match a with
  | ⟨0, _⟩ => show win0_0.index t (0 : Fin 2) * 5000 + 1 * (y 0).val = (i 0).val; rw [e0, hi0]; omega
  | ⟨1, _⟩ => show win0_0.index t (1 : Fin 2) * 128 + 1 * (y 1).val = (i 1).val; rw [e1, hi1]; omega

/-- The block of the features at point `t` is rows `5000 t …` of the array. -/
theorem iblk0_1_apply (t : Fin cfg0.N) (y : S5000x128.Idx) (i : S100000x128.Idx)
    (hi0 : (i 0).val = 5000 * t.val + (y 0).val) (hi1 : (i 1).val = (y 1).val) :
    (iblk0 (F := Ideal) V c 1 t : Vec Ideal S5000x128 .f32) y = (V c main_arg0 : S100000x128.Idx → EReal) i := by
  obtain ⟨-, -, e0, e1, -⟩ := idx0 t
  unfold iblk0
  rw [View.read_apply]
  show (V c main_arg0 : S100000x128.Idx → EReal) _ = V c main_arg0 i
  refine congrArg _ (funext fun a => Fin.ext ?_)
  match a with
  | ⟨0, _⟩ => show win0_1.index t (0 : Fin 2) * 5000 + 1 * (y 0).val = (i 0).val; rw [e0, hi0]; omega
  | ⟨1, _⟩ => show win0_1.index t (1 : Fin 2) * 128 + 1 * (y 1).val = (i 1).val; rw [e1, hi1]; omega

/-- The block of the first weight matrix is the whole matrix at every point. -/
theorem iblk0_2_apply (t : Fin cfg0.N) (y : S128x128.Idx) :
    (iblk0 (F := Ideal) V c 2 t : Vec Ideal S128x128 .f32) y = (V c main_arg2 : S128x128.Idx → EReal) y := by
  obtain ⟨-, -, -, -, e0, e1, -⟩ := idx0 t
  unfold iblk0
  rw [View.read_apply]
  show (V c main_arg2 : S128x128.Idx → EReal) _ = V c main_arg2 y
  refine congrArg _ (funext fun a => Fin.ext ?_)
  match a with
  | ⟨0, _⟩ => show win0_2.index t (0 : Fin 2) * 128 + 1 * (y 0).val = (y 0).val; rw [e0]; omega
  | ⟨1, _⟩ => show win0_2.index t (1 : Fin 2) * 128 + 1 * (y 1).val = (y 1).val; rw [e1]; omega

/-- The block of the second weight matrix is the whole matrix at every point. -/
theorem iblk0_3_apply (t : Fin cfg0.N) (y : S128x128.Idx) :
    (iblk0 (F := Ideal) V c 3 t : Vec Ideal S128x128 .f32) y = (V c main_arg3 : S128x128.Idx → EReal) y := by
  obtain ⟨-, -, -, -, -, -, e0, e1, -⟩ := idx0 t
  unfold iblk0
  rw [View.read_apply]
  show (V c main_arg3 : S128x128.Idx → EReal) _ = V c main_arg3 y
  refine congrArg _ (funext fun a => Fin.ext ?_)
  match a with
  | ⟨0, _⟩ => show win0_3.index t (0 : Fin 2) * 128 + 1 * (y 0).val = (y 0).val; rw [e0]; omega
  | ⟨1, _⟩ => show win0_3.index t (1 : Fin 2) * 128 + 1 * (y 1).val = (y 1).val; rw [e1]; omega

/-- The block of the bias row is the whole row at every point. -/
theorem iblk0_4_apply (t : Fin cfg0.N) (y : S1x128.Idx) :
    (iblk0 (F := Ideal) V c 4 t : Vec Ideal S1x128 .f32) y = (V c main_v25 : S1x128.Idx → EReal) y := by
  obtain ⟨-, -, -, -, -, -, -, -, e0, e1, -⟩ := idx0 t
  unfold iblk0
  rw [View.read_apply]
  show (V c main_v25 : S1x128.Idx → EReal) _ = V c main_v25 y
  refine congrArg _ (funext fun a => Fin.ext ?_)
  match a with
  | ⟨0, _⟩ => show win0_4.index t (0 : Fin 2) * 1 + 1 * (y 0).val = (y 0).val; rw [e0]; omega
  | ⟨1, _⟩ => show win0_4.index t (1 : Fin 2) * 128 + 1 * (y 1).val = (y 1).val; rw [e1]; omega

/-- The layer of the arrays the kernel finds. -/
abbrev layer0 : S100000x128.Idx → EReal :=
  Cert.Sage.layerArr (V c main_v24) (V c main_arg0) (V c main_arg2) (V c main_arg3) (fun j => V c main_v25 (ValueIdx.ix2 (0 : Fin 1) j))

/-- WHAT POINT `t` WRITES BACK is block `t` of the layer of the arrays the kernel finds. -/
theorem flushed0_eq (t : Fin cfg0.N) :
    (dat0 (F := Ideal) V c).flushed 5 t = ((cfg0.win 5).blk t).view.read (Elt Ideal) (layer0 V c) := by
  show (cfg0.win 5).cut (grid0.coords t) ((dat0 (F := Ideal) V c).after 5 t) = _
  rw [after0_5]
  unfold out0_5
  rw [View.canon_unit_zero hz0]
  simp only [View.ld_unit_zero (S := S5000x128) hz0, View.ld_unit_zero (S := S128x128) hz0, View.ld_unit_zero (S := S1x128) hz0]
  obtain ⟨-, -, -, -, -, -, -, -, -, -, e0, e1⟩ := idx0 t
  funext j
  rw [View.read_apply]
  show k0_pay1 (F := Ideal) (iblk0 V c 0 t) (iblk0 V c 1 t) (iblk0 V c 2 t) (iblk0 V c 3 t) (iblk0 V c 4 t) j
    = layer0 V c (((cfg0.win 5).blk t).view.emb j)
  refine Payload.k0_block (V c main_v24) (V c main_arg0) (V c main_arg2) (V c main_arg3) (V c main_v25)
    (iblk0 V c 0 t) (iblk0 V c 1 t) (iblk0 V c 2 t) (iblk0 V c 3 t) (iblk0 V c 4 t) t.val
    (iblk0_0_apply V c t) (iblk0_1_apply V c t) (iblk0_2_apply V c t) (iblk0_3_apply V c t) (iblk0_4_apply V c t)
    j (((cfg0.win 5).blk t).view.emb j) ?_ ?_
  · show win0_5.index t (0 : Fin 2) * 5000 + 1 * (j 0).val = 5000 * t.val + (j 0).val; rw [e0]; omega
  · show win0_5.index t (1 : Fin 2) * 128 + 1 * (j 1).val = (j 1).val; rw [e1]; omega

/-- An index of the result is in point `t`'s block iff each coordinate is in the block's range on its axis. -/
theorem mem_blk0 (t : Fin cfg0.N) (i : S100000x128.Idx) :
    i ∈ ((cfg0.win 5).blk t).view.set ↔ ∀ a : Fin 2, win0_5.index t a * S5000x128.size a ≤ (i a).val
      ∧ (i a).val < win0_5.index t a * S5000x128.size a + S5000x128.size a := by
  show i ∈ ((View.whole main_v26).slice (win0_5.rect t)).set ↔ _
  rw [View.set_slice_whole, Rect.mem_set_unit]
  exact Iff.rfl

/-- Row `r` of the result is in the block of point `r / 5000`, and every point writes its block back. -/
theorem cover0 (i : S100000x128.Idx) :
    ∃ t : Fin cfg0.N, (cfg0.win 5).flush t = true ∧ i ∈ ((cfg0.win 5).blk t).view.set := by
  have hi0 : (i 0).val < 100000 := (i 0).isLt
  have hi1 : (i 1).val < 128 := (i 1).isLt
  have hN : grid0.N = 20 := N_0
  have ht : (i 0).val / 5000 < cfg0.N := by show (i 0).val / 5000 < grid0.N; rw [hN]; omega
  obtain ⟨-, -, -, -, -, -, -, -, -, -, e0, e1⟩ := idx0 ⟨(i 0).val / 5000, ht⟩
  refine ⟨⟨(i 0).val / 5000, ht⟩, flush0_5 _, ?_⟩
  rw [mem_blk0]
  intro a
  match a with
  | ⟨0, _⟩ =>
    show win0_5.index ⟨(i 0).val / 5000, ht⟩ (0 : Fin 2) * 5000 ≤ (i 0).val
      ∧ (i 0).val < win0_5.index ⟨(i 0).val / 5000, ht⟩ (0 : Fin 2) * 5000 + 5000
    rw [e0]; show (i 0).val / 5000 * 5000 ≤ (i 0).val ∧ (i 0).val < (i 0).val / 5000 * 5000 + 5000; omega
  | ⟨1, _⟩ =>
    show win0_5.index ⟨(i 0).val / 5000, ht⟩ (1 : Fin 2) * 128 ≤ (i 1).val
      ∧ (i 1).val < win0_5.index ⟨(i 0).val / 5000, ht⟩ (1 : Fin 2) * 128 + 128
    rw [e1]; omega

/-- THE RESULT after the region: the layer of the arrays the region finds. -/
theorem region0_value : (Gen.dat0 (F := Ideal) V c).arrAt 5 cfg0.N = Cert.Sage.layerArr (V c main_v24) (V c main_arg0) (V c main_arg2) (V c main_arg3) (fun j => V c main_v25 (ValueIdx.ix2 (0 : Fin 1) j)) :=
  (dat0 (F := Ideal) V c).arrAt_eq_of_cover 5 (layer0 V c) (fun t _ => flushed0_eq V c t) cover0

end Cert.KernelIdeal.RegionValue

end
-- ==== Proof.RegionLayer1.lean ====
/-
  Layer kernel 1 as one function of the arrays it finds.

  The kernel runs over 20 grid points.  At point `t` it reads rows `5000 t … 5000 t + 4999` of the neighbourhood means
  and of the node features, the two whole 128 × 128 weight matrices and the whole bias row, and writes rows
  `5000 t … 5000 t + 4999` of the result: at row `p` of the block, column `q`,
  `max ((mean · Wl)[5000 t + p, q] + (h · Wr)[5000 t + p, q] + b[q]) 0`.  So what point `t` writes back is block `t` of
  ONE array, the layer of the whole arrays; row `r` of the result lies in the block of point `r / 5000`, so the 20 blocks
  cover the result, and the result ends holding the layer of the arrays the kernel found.
-/
import proofs.«147244_j38216618999857_1_alg».proof.Proof.Gen.KernelIdeal.Frame
import proofs.«147244_j38216618999857_1_alg».proof.Proof.Payload
import proofs.«147244_j38216618999857_1_alg».proof.Proof.Spec
import Idealize.ShloMosaic.Lib.Pipeline.Value

set_option maxRecDepth 16384

noncomputable section

namespace Cert.KernelIdeal.RegionValue

open Idealize.ShloMosaic Idealize.ShloMosaic.TcCoe Idealize.ShloMosaic.ValueIdx
open Idealize.SL.Sem
open Idealize.ShloMosaic.Pipeline (Dat)
open Cert.KernelIdeal Cert.KernelIdeal.Gen

variable (V : (c : Dev nD) → (b : Ref sig .tc) → Buf (Elt Ideal) ((c : Thread nD τ).loc b)) (c : Dev nD)

/-- The zero offsets of a whole staging buffer, spelt as a constant function. -/
theorem hz1 : (![0, 0] : Fin 2 → Nat) = fun _ => 0 := funext fun a => by fin_cases a <;> rfl

/-- The index maps, decided over the grid: the windows on the means, the features and the result are on block `t` of
    the rows at point `t`; the windows on the weights and the bias are on the whole array at every point. -/
theorem idx1 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-- The block of the means at point `t` is rows `5000 t …` of the array. -/
theorem iblk1_0_apply (t : Fin cfg1.N) (y : S5000x128.Idx) (i : S100000x128.Idx)
    (hi0 : (i 0).val = 5000 * t.val + (y 0).val) (hi1 : (i 1).val = (y 1).val) :
    (iblk1 (F := Ideal) V c 0 t : Vec Ideal S5000x128 .f32) y = (V c main_v38 : S100000x128.Idx → EReal) i := by
  obtain ⟨e0, e1, -⟩ := idx1 t
  unfold iblk1
  rw [View.read_apply]
  show (V c main_v38 : S100000x128.Idx → EReal) _ = V c main_v38 i
  refine congrArg _ (funext fun a => Fin.ext ?_)
  match a with
  | ⟨0, _⟩ => show win1_0.index t (0 : Fin 2) * 5000 + 1 * (y 0).val = (i 0).val; rw [e0, hi0]; omega
  | ⟨1, _⟩ => show win1_0.index t (1 : Fin 2) * 128 + 1 * (y 1).val = (i 1).val; rw [e1, hi1]; omega

/-- The block of the features at point `t` is rows `5000 t …` of the array. -/
theorem iblk1_1_apply (t : Fin cfg1.N) (y : S5000x128.Idx) (i : S100000x128.Idx)
    (hi0 : (i 0).val = 5000 * t.val + (y 0).val) (hi1 : (i 1).val = (y 1).val) :
    (iblk1 (F := Ideal) V c 1 t : Vec Ideal S5000x128 .f32) y = (V c main_v26 : S100000x128.Idx → EReal) i := by
  obtain ⟨-, -, e0, e1, -⟩ := idx1 t
  unfold iblk1
  rw [View.read_apply]
  show (V c main_v26 : S100000x128.Idx → EReal) _ = V c main_v26 i
  refine congrArg _ (funext fun a => Fin.ext ?_)
  match a with
  | ⟨0, _⟩ => show win1_1.index t (0 : Fin 2) * 5000 + 1 * (y 0).val = (i 0).val; rw [e0, hi0]; omega
  | ⟨1, _⟩ => show win1_1.index t (1 : Fin 2) * 128 + 1 * (y 1).val = (i 1).val; rw [e1, hi1]; omega

/-- The block of the first weight matrix is the whole matrix at every point. -/
theorem iblk1_2_apply (t : Fin cfg1.N) (y : S128x128.Idx) :
    (iblk1 (F := Ideal) V c 2 t : Vec Ideal S128x128 .f32) y = (V c main_arg5 : S128x128.Idx → EReal) y := by
  obtain ⟨-, -, -, -, e0, e1, -⟩ := idx1 t
  unfold iblk1
  rw [View.read_apply]
  show (V c main_arg5 : S128x128.Idx → EReal) _ = V c main_arg5 y
  refine congrArg _ (funext fun a => Fin.ext ?_)
  match a with
  | ⟨0, _⟩ => show win1_2.index t (0 : Fin 2) * 128 + 1 * (y 0).val = (y 0).val; rw [e0]; omega
  | ⟨1, _⟩ => show win1_2.index t (1 : Fin 2) * 128 + 1 * (y 1).val = (y 1).val; rw [e1]; omega

/-- The block of the second weight matrix is the whole matrix at every point. -/
theorem iblk1_3_apply (t : Fin cfg1.N) (y : S128x128.Idx) :
    (iblk1 (F := Ideal) V c 3 t : Vec Ideal S128x128 .f32) y = (V c main_arg6 : S128x128.Idx → EReal) y := by
  obtain ⟨-, -, -, -, -, -, e0, e1, -⟩ := idx1 t
  unfold iblk1
  rw [View.read_apply]
  show (V c main_arg6 : S128x128.Idx → EReal) _ = V c main_arg6 y
  refine congrArg _ (funext fun a => Fin.ext ?_)
  match a with
  | ⟨0, _⟩ => show win1_3.index t (0 : Fin 2) * 128 + 1 * (y 0).val = (y 0).val; rw [e0]; omega
  | ⟨1, _⟩ => show win1_3.index t (1 : Fin 2) * 128 + 1 * (y 1).val = (y 1).val; rw [e1]; omega

/-- The block of the bias row is the whole row at every point. -/
theorem iblk1_4_apply (t : Fin cfg1.N) (y : S1x128.Idx) :
    (iblk1 (F := Ideal) V c 4 t : Vec Ideal S1x128 .f32) y = (V c main_v39 : S1x128.Idx → EReal) y := by
  obtain ⟨-, -, -, -, -, -, -, -, e0, e1, -⟩ := idx1 t
  unfold iblk1
  rw [View.read_apply]
  show (V c main_v39 : S1x128.Idx → EReal) _ = V c main_v39 y
  refine congrArg _ (funext fun a => Fin.ext ?_)
  match a with
  | ⟨0, _⟩ => show win1_4.index t (0 : Fin 2) * 1 + 1 * (y 0).val = (y 0).val; rw [e0]; omega
  | ⟨1, _⟩ => show win1_4.index t (1 : Fin 2) * 128 + 1 * (y 1).val = (y 1).val; rw [e1]; omega

/-- The layer of the arrays the kernel finds. -/
abbrev layer1 : S100000x128.Idx → EReal :=
  Cert.Sage.layerArr (V c main_v38) (V c main_v26) (V c main_arg5) (V c main_arg6) (fun j => V c main_v39 (ValueIdx.ix2 (0 : Fin 1) j))

/-- WHAT POINT `t` WRITES BACK is block `t` of the layer of the arrays the kernel finds. -/
theorem flushed1_eq (t : Fin cfg1.N) :
    (dat1 (F := Ideal) V c).flushed 5 t = ((cfg1.win 5).blk t).view.read (Elt Ideal) (layer1 V c) := by
  show (cfg1.win 5).cut (grid1.coords t) ((dat1 (F := Ideal) V c).after 5 t) = _
  rw [after1_5]
  unfold out1_5
  rw [View.canon_unit_zero hz1]
  simp only [View.ld_unit_zero (S := S5000x128) hz1, View.ld_unit_zero (S := S128x128) hz1, View.ld_unit_zero (S := S1x128) hz1]
  obtain ⟨-, -, -, -, -, -, -, -, -, -, e0, e1⟩ := idx1 t
  funext j
  rw [View.read_apply]
  show k1_pay1 (F := Ideal) (iblk1 V c 0 t) (iblk1 V c 1 t) (iblk1 V c 2 t) (iblk1 V c 3 t) (iblk1 V c 4 t) j
    = layer1 V c (((cfg1.win 5).blk t).view.emb j)
  refine Payload.k1_block (V c main_v38) (V c main_v26) (V c main_arg5) (V c main_arg6) (V c main_v39)
    (iblk1 V c 0 t) (iblk1 V c 1 t) (iblk1 V c 2 t) (iblk1 V c 3 t) (iblk1 V c 4 t) t.val
    (iblk1_0_apply V c t) (iblk1_1_apply V c t) (iblk1_2_apply V c t) (iblk1_3_apply V c t) (iblk1_4_apply V c t)
    j (((cfg1.win 5).blk t).view.emb j) ?_ ?_
  · show win1_5.index t (0 : Fin 2) * 5000 + 1 * (j 0).val = 5000 * t.val + (j 0).val; rw [e0]; omega
  · show win1_5.index t (1 : Fin 2) * 128 + 1 * (j 1).val = (j 1).val; rw [e1]; omega

/-- An index of the result is in point `t`'s block iff each coordinate is in the block's range on its axis. -/
theorem mem_blk1 (t : Fin cfg1.N) (i : S100000x128.Idx) :
    i ∈ ((cfg1.win 5).blk t).view.set ↔ ∀ a : Fin 2, win1_5.index t a * S5000x128.size a ≤ (i a).val
      ∧ (i a).val < win1_5.index t a * S5000x128.size a + S5000x128.size a := by
  show i ∈ ((View.whole main_v40).slice (win1_5.rect t)).set ↔ _
  rw [View.set_slice_whole, Rect.mem_set_unit]
  exact Iff.rfl

/-- Row `r` of the result is in the block of point `r / 5000`, and every point writes its block back. -/
theorem cover1 (i : S100000x128.Idx) :
    ∃ t : Fin cfg1.N, (cfg1.win 5).flush t = true ∧ i ∈ ((cfg1.win 5).blk t).view.set := by
  have hi0 : (i 0).val < 100000 := (i 0).isLt
  have hi1 : (i 1).val < 128 := (i 1).isLt
  have hN : grid1.N = 20 := N_1
  have ht : (i 0).val / 5000 < cfg1.N := by show (i 0).val / 5000 < grid1.N; rw [hN]; omega
  obtain ⟨-, -, -, -, -, -, -, -, -, -, e0, e1⟩ := idx1 ⟨(i 0).val / 5000, ht⟩
  refine ⟨⟨(i 0).val / 5000, ht⟩, flush1_5 _, ?_⟩
  rw [mem_blk1]
  intro a
  match a with
  | ⟨0, _⟩ =>
    show win1_5.index ⟨(i 0).val / 5000, ht⟩ (0 : Fin 2) * 5000 ≤ (i 0).val
      ∧ (i 0).val < win1_5.index ⟨(i 0).val / 5000, ht⟩ (0 : Fin 2) * 5000 + 5000
    rw [e0]; show (i 0).val / 5000 * 5000 ≤ (i 0).val ∧ (i 0).val < (i 0).val / 5000 * 5000 + 5000; omega
  | ⟨1, _⟩ =>
    show win1_5.index ⟨(i 0).val / 5000, ht⟩ (1 : Fin 2) * 128 ≤ (i 1).val
      ∧ (i 1).val < win1_5.index ⟨(i 0).val / 5000, ht⟩ (1 : Fin 2) * 128 + 128
    rw [e1]; omega

/-- THE RESULT after the region: the layer of the arrays the region finds. -/
theorem region1_value : (Gen.dat1 (F := Ideal) V c).arrAt 5 cfg1.N = Cert.Sage.layerArr (V c main_v38) (V c main_v26) (V c main_arg5) (V c main_arg6) (fun j => V c main_v39 (ValueIdx.ix2 (0 : Fin 1) j)) :=
  (dat1 (F := Ideal) V c).arrAt_eq_of_cover 5 (layer1 V c) (fun t _ => flushed1_eq V c t) cover1

end Cert.KernelIdeal.RegionValue

end
-- ==== Proof.RegionLayer2.lean ====
/-
  Layer kernel 2 as one function of the arrays it finds.

  The kernel runs over 20 grid points.  At point `t` it reads rows `5000 t … 5000 t + 4999` of the neighbourhood means
  and of the node features, the two whole 128 × 128 weight matrices and the whole bias row, and writes rows
  `5000 t … 5000 t + 4999` of the result: at row `p` of the block, column `q`,
  `max ((mean · Wl)[5000 t + p, q] + (h · Wr)[5000 t + p, q] + b[q]) 0`.  So what point `t` writes back is block `t` of
  ONE array, the layer of the whole arrays; row `r` of the result lies in the block of point `r / 5000`, so the 20 blocks
  cover the result, and the result ends holding the layer of the arrays the kernel found.
-/
import proofs.«147244_j38216618999857_1_alg».proof.Proof.Gen.KernelIdeal.Frame
import proofs.«147244_j38216618999857_1_alg».proof.Proof.Payload
import proofs.«147244_j38216618999857_1_alg».proof.Proof.Spec
import Idealize.ShloMosaic.Lib.Pipeline.Value

set_option maxRecDepth 16384

noncomputable section

namespace Cert.KernelIdeal.RegionValue

open Idealize.ShloMosaic Idealize.ShloMosaic.TcCoe Idealize.ShloMosaic.ValueIdx
open Idealize.SL.Sem
open Idealize.ShloMosaic.Pipeline (Dat)
open Cert.KernelIdeal Cert.KernelIdeal.Gen

variable (V : (c : Dev nD) → (b : Ref sig .tc) → Buf (Elt Ideal) ((c : Thread nD τ).loc b)) (c : Dev nD)

/-- The zero offsets of a whole staging buffer, spelt as a constant function. -/
theorem hz2 : (![0, 0] : Fin 2 → Nat) = fun _ => 0 := funext fun a => by fin_cases a <;> rfl

/-- The index maps, decided over the grid: the windows on the means, the features and the result are on block `t` of
    the rows at point `t`; the windows on the weights and the bias are on the whole array at every point. -/
theorem idx2 : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = t.val ∧ win2_5.index t (1 : Fin 2) = 0 :=
  (by decide +kernel : ∀ t : Fin grid2.N, _)

/-- The block of the means at point `t` is rows `5000 t …` of the array. -/
theorem iblk2_0_apply (t : Fin cfg2.N) (y : S5000x128.Idx) (i : S100000x128.Idx)
    (hi0 : (i 0).val = 5000 * t.val + (y 0).val) (hi1 : (i 1).val = (y 1).val) :
    (iblk2 (F := Ideal) V c 0 t : Vec Ideal S5000x128 .f32) y = (V c main_v52 : S100000x128.Idx → EReal) i := by
  obtain ⟨e0, e1, -⟩ := idx2 t
  unfold iblk2
  rw [View.read_apply]
  show (V c main_v52 : S100000x128.Idx → EReal) _ = V c main_v52 i
  refine congrArg _ (funext fun a => Fin.ext ?_)
  match a with
  | ⟨0, _⟩ => show win2_0.index t (0 : Fin 2) * 5000 + 1 * (y 0).val = (i 0).val; rw [e0, hi0]; omega
  | ⟨1, _⟩ => show win2_0.index t (1 : Fin 2) * 128 + 1 * (y 1).val = (i 1).val; rw [e1, hi1]; omega

/-- The block of the features at point `t` is rows `5000 t …` of the array. -/
theorem iblk2_1_apply (t : Fin cfg2.N) (y : S5000x128.Idx) (i : S100000x128.Idx)
    (hi0 : (i 0).val = 5000 * t.val + (y 0).val) (hi1 : (i 1).val = (y 1).val) :
    (iblk2 (F := Ideal) V c 1 t : Vec Ideal S5000x128 .f32) y = (V c main_v40 : S100000x128.Idx → EReal) i := by
  obtain ⟨-, -, e0, e1, -⟩ := idx2 t
  unfold iblk2
  rw [View.read_apply]
  show (V c main_v40 : S100000x128.Idx → EReal) _ = V c main_v40 i
  refine congrArg _ (funext fun a => Fin.ext ?_)
  match a with
  | ⟨0, _⟩ => show win2_1.index t (0 : Fin 2) * 5000 + 1 * (y 0).val = (i 0).val; rw [e0, hi0]; omega
  | ⟨1, _⟩ => show win2_1.index t (1 : Fin 2) * 128 + 1 * (y 1).val = (i 1).val; rw [e1, hi1]; omega

/-- The block of the first weight matrix is the whole matrix at every point. -/
theorem iblk2_2_apply (t : Fin cfg2.N) (y : S128x128.Idx) :
    (iblk2 (F := Ideal) V c 2 t : Vec Ideal S128x128 .f32) y = (V c main_arg8 : S128x128.Idx → EReal) y := by
  obtain ⟨-, -, -, -, e0, e1, -⟩ := idx2 t
  unfold iblk2
  rw [View.read_apply]
  show (V c main_arg8 : S128x128.Idx → EReal) _ = V c main_arg8 y
  refine congrArg _ (funext fun a => Fin.ext ?_)
  match a with
  | ⟨0, _⟩ => show win2_2.index t (0 : Fin 2) * 128 + 1 * (y 0).val = (y 0).val; rw [e0]; omega
  | ⟨1, _⟩ => show win2_2.index t (1 : Fin 2) * 128 + 1 * (y 1).val = (y 1).val; rw [e1]; omega

/-- The block of the second weight matrix is the whole matrix at every point. -/
theorem iblk2_3_apply (t : Fin cfg2.N) (y : S128x128.Idx) :
    (iblk2 (F := Ideal) V c 3 t : Vec Ideal S128x128 .f32) y = (V c main_arg9 : S128x128.Idx → EReal) y := by
  obtain ⟨-, -, -, -, -, -, e0, e1, -⟩ := idx2 t
  unfold iblk2
  rw [View.read_apply]
  show (V c main_arg9 : S128x128.Idx → EReal) _ = V c main_arg9 y
  refine congrArg _ (funext fun a => Fin.ext ?_)
  match a with
  | ⟨0, _⟩ => show win2_3.index t (0 : Fin 2) * 128 + 1 * (y 0).val = (y 0).val; rw [e0]; omega
  | ⟨1, _⟩ => show win2_3.index t (1 : Fin 2) * 128 + 1 * (y 1).val = (y 1).val; rw [e1]; omega

/-- The block of the bias row is the whole row at every point. -/
theorem iblk2_4_apply (t : Fin cfg2.N) (y : S1x128.Idx) :
    (iblk2 (F := Ideal) V c 4 t : Vec Ideal S1x128 .f32) y = (V c main_v53 : S1x128.Idx → EReal) y := by
  obtain ⟨-, -, -, -, -, -, -, -, e0, e1, -⟩ := idx2 t
  unfold iblk2
  rw [View.read_apply]
  show (V c main_v53 : S1x128.Idx → EReal) _ = V c main_v53 y
  refine congrArg _ (funext fun a => Fin.ext ?_)
  match a with
  | ⟨0, _⟩ => show win2_4.index t (0 : Fin 2) * 1 + 1 * (y 0).val = (y 0).val; rw [e0]; omega
  | ⟨1, _⟩ => show win2_4.index t (1 : Fin 2) * 128 + 1 * (y 1).val = (y 1).val; rw [e1]; omega

/-- The layer of the arrays the kernel finds. -/
abbrev layer2 : S100000x128.Idx → EReal :=
  Cert.Sage.layerArr (V c main_v52) (V c main_v40) (V c main_arg8) (V c main_arg9) (fun j => V c main_v53 (ValueIdx.ix2 (0 : Fin 1) j))

/-- WHAT POINT `t` WRITES BACK is block `t` of the layer of the arrays the kernel finds. -/
theorem flushed2_eq (t : Fin cfg2.N) :
    (dat2 (F := Ideal) V c).flushed 5 t = ((cfg2.win 5).blk t).view.read (Elt Ideal) (layer2 V c) := by
  show (cfg2.win 5).cut (grid2.coords t) ((dat2 (F := Ideal) V c).after 5 t) = _
  rw [after2_5]
  unfold out2_5
  rw [View.canon_unit_zero hz2]
  simp only [View.ld_unit_zero (S := S5000x128) hz2, View.ld_unit_zero (S := S128x128) hz2, View.ld_unit_zero (S := S1x128) hz2]
  obtain ⟨-, -, -, -, -, -, -, -, -, -, e0, e1⟩ := idx2 t
  funext j
  rw [View.read_apply]
  show k2_pay1 (F := Ideal) (iblk2 V c 0 t) (iblk2 V c 1 t) (iblk2 V c 2 t) (iblk2 V c 3 t) (iblk2 V c 4 t) j
    = layer2 V c (((cfg2.win 5).blk t).view.emb j)
  refine Payload.k2_block (V c main_v52) (V c main_v40) (V c main_arg8) (V c main_arg9) (V c main_v53)
    (iblk2 V c 0 t) (iblk2 V c 1 t) (iblk2 V c 2 t) (iblk2 V c 3 t) (iblk2 V c 4 t) t.val
    (iblk2_0_apply V c t) (iblk2_1_apply V c t) (iblk2_2_apply V c t) (iblk2_3_apply V c t) (iblk2_4_apply V c t)
    j (((cfg2.win 5).blk t).view.emb j) ?_ ?_
  · show win2_5.index t (0 : Fin 2) * 5000 + 1 * (j 0).val = 5000 * t.val + (j 0).val; rw [e0]; omega
  · show win2_5.index t (1 : Fin 2) * 128 + 1 * (j 1).val = (j 1).val; rw [e1]; omega

/-- An index of the result is in point `t`'s block iff each coordinate is in the block's range on its axis. -/
theorem mem_blk2 (t : Fin cfg2.N) (i : S100000x128.Idx) :
    i ∈ ((cfg2.win 5).blk t).view.set ↔ ∀ a : Fin 2, win2_5.index t a * S5000x128.size a ≤ (i a).val
      ∧ (i a).val < win2_5.index t a * S5000x128.size a + S5000x128.size a := by
  show i ∈ ((View.whole main_v54).slice (win2_5.rect t)).set ↔ _
  rw [View.set_slice_whole, Rect.mem_set_unit]
  exact Iff.rfl

/-- Row `r` of the result is in the block of point `r / 5000`, and every point writes its block back. -/
theorem cover2 (i : S100000x128.Idx) :
    ∃ t : Fin cfg2.N, (cfg2.win 5).flush t = true ∧ i ∈ ((cfg2.win 5).blk t).view.set := by
  have hi0 : (i 0).val < 100000 := (i 0).isLt
  have hi1 : (i 1).val < 128 := (i 1).isLt
  have hN : grid2.N = 20 := N_2
  have ht : (i 0).val / 5000 < cfg2.N := by show (i 0).val / 5000 < grid2.N; rw [hN]; omega
  obtain ⟨-, -, -, -, -, -, -, -, -, -, e0, e1⟩ := idx2 ⟨(i 0).val / 5000, ht⟩
  refine ⟨⟨(i 0).val / 5000, ht⟩, flush2_5 _, ?_⟩
  rw [mem_blk2]
  intro a
  match a with
  | ⟨0, _⟩ =>
    show win2_5.index ⟨(i 0).val / 5000, ht⟩ (0 : Fin 2) * 5000 ≤ (i 0).val
      ∧ (i 0).val < win2_5.index ⟨(i 0).val / 5000, ht⟩ (0 : Fin 2) * 5000 + 5000
    rw [e0]; show (i 0).val / 5000 * 5000 ≤ (i 0).val ∧ (i 0).val < (i 0).val / 5000 * 5000 + 5000; omega
  | ⟨1, _⟩ =>
    show win2_5.index ⟨(i 0).val / 5000, ht⟩ (1 : Fin 2) * 128 ≤ (i 1).val
      ∧ (i 1).val < win2_5.index ⟨(i 0).val / 5000, ht⟩ (1 : Fin 2) * 128 + 128
    rw [e1]; omega

/-- THE RESULT after the region: the layer of the arrays the region finds. -/
theorem region2_value : (Gen.dat2 (F := Ideal) V c).arrAt 5 cfg2.N = Cert.Sage.layerArr (V c main_v52) (V c main_v40) (V c main_arg8) (V c main_arg9) (fun j => V c main_v53 (ValueIdx.ix2 (0 : Fin 1) j)) :=
  (dat2 (F := Ideal) V c).arrAt_eq_of_cover 5 (layer2 V c) (fun t _ => flushed2_eq V c t) cover2

end Cert.KernelIdeal.RegionValue

end
-- ==== Proof.RegionCls.lean ====
/-
  The read-out kernel as one function of the arrays it finds.

  The kernel runs over 20 grid points.  At point `t` it reads rows `5000 t … 5000 t + 4999` of the three layers'
  outputs, the three whole 128 × 128 weight matrices and the whole bias row, and writes rows `5000 t … 5000 t + 4999` of
  the result: at row `p` of the block, column `q`,
  `(a0 · w0)[5000 t + p, q] + (a1 · w1)[5000 t + p, q] + (a2 · w2)[5000 t + p, q] + b[q]`.  So what point `t` writes back
  is block `t` of ONE array, the read-out of the whole arrays; row `r` of the result lies in the block of point
  `r / 5000`, so the 20 blocks cover the result, and the result ends holding the read-out of the arrays the kernel found.
-/
import proofs.«147244_j38216618999857_1_alg».proof.Proof.Gen.KernelIdeal.Frame
import proofs.«147244_j38216618999857_1_alg».proof.Proof.Payload
import proofs.«147244_j38216618999857_1_alg».proof.Proof.Spec
import Idealize.ShloMosaic.Lib.Pipeline.Value

set_option maxRecDepth 16384

noncomputable section

namespace Cert.KernelIdeal.RegionValue

open Idealize.ShloMosaic Idealize.ShloMosaic.TcCoe Idealize.ShloMosaic.ValueIdx
open Idealize.SL.Sem
open Idealize.ShloMosaic.Pipeline (Dat)
open Cert.KernelIdeal Cert.KernelIdeal.Gen

variable (V : (c : Dev nD) → (b : Ref sig .tc) → Buf (Elt Ideal) ((c : Thread nD τ).loc b)) (c : Dev nD)

/-- The zero offsets of a whole staging buffer, spelt as a constant function. -/
theorem hz3 : (![0, 0] : Fin 2 → Nat) = fun _ => 0 := funext fun a => by fin_cases a <;> rfl

/-- The index maps, decided over the grid: the windows on the three layers' outputs and on the result are on block `t`
    of the rows at point `t`; the windows on the weights and the bias are on the whole array at every point. -/
theorem idx3 : ∀ t : Fin cfg3.N,
    win3_0.index t (0 : Fin 2) = t.val ∧ win3_0.index t (1 : Fin 2) = 0
    ∧ win3_1.index t (0 : Fin 2) = t.val ∧ win3_1.index t (1 : Fin 2) = 0
    ∧ win3_2.index t (0 : Fin 2) = t.val ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0
    ∧ win3_5.index t (0 : Fin 2) = 0 ∧ win3_5.index t (1 : Fin 2) = 0
    ∧ win3_6.index t (0 : Fin 2) = 0 ∧ win3_6.index t (1 : Fin 2) = 0
    ∧ win3_7.index t (0 : Fin 2) = t.val ∧ win3_7.index t (1 : Fin 2) = 0 :=
  (by decide +kernel : ∀ t : Fin grid3.N, _)

/-- The block of the first layer's output at point `t` is rows `5000 t …` of the array. -/
theorem iblk3_0_apply (t : Fin cfg3.N) (y : S5000x128.Idx) (i : S100000x128.Idx)
    (hi0 : (i 0).val = 5000 * t.val + (y 0).val) (hi1 : (i 1).val = (y 1).val) :
    (iblk3 (F := Ideal) V c 0 t : Vec Ideal S5000x128 .f32) y = (V c main_v26 : S100000x128.Idx → EReal) i := by
  obtain ⟨e0, e1, -⟩ := idx3 t
  unfold iblk3
  rw [View.read_apply]
  show (V c main_v26 : S100000x128.Idx → EReal) _ = V c main_v26 i
  refine congrArg _ (funext fun a => Fin.ext ?_)
  match a with
  | ⟨0, _⟩ => show win3_0.index t (0 : Fin 2) * 5000 + 1 * (y 0).val = (i 0).val; rw [e0, hi0]; omega
  | ⟨1, _⟩ => show win3_0.index t (1 : Fin 2) * 128 + 1 * (y 1).val = (i 1).val; rw [e1, hi1]; omega

/-- The block of the second layer's output at point `t` is rows `5000 t …` of the array. -/
theorem iblk3_1_apply (t : Fin cfg3.N) (y : S5000x128.Idx) (i : S100000x128.Idx)
    (hi0 : (i 0).val = 5000 * t.val + (y 0).val) (hi1 : (i 1).val = (y 1).val) :
    (iblk3 (F := Ideal) V c 1 t : Vec Ideal S5000x128 .f32) y = (V c main_v40 : S100000x128.Idx → EReal) i := by
  obtain ⟨-, -, e0, e1, -⟩ := idx3 t
  unfold iblk3
  rw [View.read_apply]
  show (V c main_v40 : S100000x128.Idx → EReal) _ = V c main_v40 i
  refine congrArg _ (funext fun a => Fin.ext ?_)
  match a with
  | ⟨0, _⟩ => show win3_1.index t (0 : Fin 2) * 5000 + 1 * (y 0).val = (i 0).val; rw [e0, hi0]; omega
  | ⟨1, _⟩ => show win3_1.index t (1 : Fin 2) * 128 + 1 * (y 1).val = (i 1).val; rw [e1, hi1]; omega

/-- The block of the third layer's output at point `t` is rows `5000 t …` of the array. -/
theorem iblk3_2_apply (t : Fin cfg3.N) (y : S5000x128.Idx) (i : S100000x128.Idx)
    (hi0 : (i 0).val = 5000 * t.val + (y 0).val) (hi1 : (i 1).val = (y 1).val) :
    (iblk3 (F := Ideal) V c 2 t : Vec Ideal S5000x128 .f32) y = (V c main_v54 : S100000x128.Idx → EReal) i := by
  obtain ⟨-, -, -, -, e0, e1, -⟩ := idx3 t
  unfold iblk3
  rw [View.read_apply]
  show (V c main_v54 : S100000x128.Idx → EReal) _ = V c main_v54 i
  refine congrArg _ (funext fun a => Fin.ext ?_)
  match a with
  | ⟨0, _⟩ => show win3_2.index t (0 : Fin 2) * 5000 + 1 * (y 0).val = (i 0).val; rw [e0, hi0]; omega
  | ⟨1, _⟩ => show win3_2.index t (1 : Fin 2) * 128 + 1 * (y 1).val = (i 1).val; rw [e1, hi1]; omega

/-- The block of the first weight matrix is the whole array at every point. -/
theorem iblk3_3_apply (t : Fin cfg3.N) (y : S128x128.Idx) :
    (iblk3 (F := Ideal) V c 3 t : Vec Ideal S128x128 .f32) y = (V c main_v59 : S128x128.Idx → EReal) y := by
  obtain ⟨-, -, -, -, -, -, e0, e1, -⟩ := idx3 t
  unfold iblk3
  rw [View.read_apply]
  show (V c main_v59 : S128x128.Idx → EReal) _ = V c main_v59 y
  refine congrArg _ (funext fun a => Fin.ext ?_)
  match a with
  | ⟨0, _⟩ => show win3_3.index t (0 : Fin 2) * 128 + 1 * (y 0).val = (y 0).val; rw [e0]; omega
  | ⟨1, _⟩ => show win3_3.index t (1 : Fin 2) * 128 + 1 * (y 1).val = (y 1).val; rw [e1]; omega

/-- The block of the second weight matrix is the whole array at every point. -/
theorem iblk3_4_apply (t : Fin cfg3.N) (y : S128x128.Idx) :
    (iblk3 (F := Ideal) V c 4 t : Vec Ideal S128x128 .f32) y = (V c main_v64 : S128x128.Idx → EReal) y := by
  obtain ⟨-, -, -, -, -, -, -, -, e0, e1, -⟩ := idx3 t
  unfold iblk3
  rw [View.read_apply]
  show (V c main_v64 : S128x128.Idx → EReal) _ = V c main_v64 y
  refine congrArg _ (funext fun a => Fin.ext ?_)
  match a with
  | ⟨0, _⟩ => show win3_4.index t (0 : Fin 2) * 128 + 1 * (y 0).val = (y 0).val; rw [e0]; omega
  | ⟨1, _⟩ => show win3_4.index t (1 : Fin 2) * 128 + 1 * (y 1).val = (y 1).val; rw [e1]; omega

/-- The block of the third weight matrix is the whole array at every point. -/
theorem iblk3_5_apply (t : Fin cfg3.N) (y : S128x128.Idx) :
    (iblk3 (F := Ideal) V c 5 t : Vec Ideal S128x128 .f32) y = (V c main_v69 : S128x128.Idx → EReal) y := by
  obtain ⟨-, -, -, -, -, -, -, -, -, -, e0, e1, -⟩ := idx3 t
  unfold iblk3
  rw [View.read_apply]
  show (V c main_v69 : S128x128.Idx → EReal) _ = V c main_v69 y
  refine congrArg _ (funext fun a => Fin.ext ?_)
  match a with
  | ⟨0, _⟩ => show win3_5.index t (0 : Fin 2) * 128 + 1 * (y 0).val = (y 0).val; rw [e0]; omega
  | ⟨1, _⟩ => show win3_5.index t (1 : Fin 2) * 128 + 1 * (y 1).val = (y 1).val; rw [e1]; omega

/-- The block of the bias row is the whole array at every point. -/
theorem iblk3_6_apply (t : Fin cfg3.N) (y : S1x128.Idx) :
    (iblk3 (F := Ideal) V c 6 t : Vec Ideal S1x128 .f32) y = (V c main_v74 : S1x128.Idx → EReal) y := by
  obtain ⟨-, -, -, -, -, -, -, -, -, -, -, -, e0, e1, -⟩ := idx3 t
  unfold iblk3
  rw [View.read_apply]
  show (V c main_v74 : S1x128.Idx → EReal) _ = V c main_v74 y
  refine congrArg _ (funext fun a => Fin.ext ?_)
  match a with
  | ⟨0, _⟩ => show win3_6.index t (0 : Fin 2) * 1 + 1 * (y 0).val = (y 0).val; rw [e0]; omega
  | ⟨1, _⟩ => show win3_6.index t (1 : Fin 2) * 128 + 1 * (y 1).val = (y 1).val; rw [e1]; omega

/-- The read-out of the arrays the kernel finds. -/
abbrev cls3 : S100000x128.Idx → EReal :=
  Cert.Sage.clsArr (V c main_v26) (V c main_v40) (V c main_v54) (V c main_v59) (V c main_v64) (V c main_v69)
    (fun j => V c main_v74 (ValueIdx.ix2 (0 : Fin 1) j))

/-- WHAT POINT `t` WRITES BACK is block `t` of the read-out of the arrays the kernel finds. -/
theorem flushed3_eq (t : Fin cfg3.N) :
    (dat3 (F := Ideal) V c).flushed 7 t = ((cfg3.win 7).blk t).view.read (Elt Ideal) (cls3 V c) := by
  show (cfg3.win 7).cut (grid3.coords t) ((dat3 (F := Ideal) V c).after 7 t) = _
  rw [after3_7]
  unfold out3_7
  rw [View.canon_unit_zero hz3]
  simp only [View.ld_unit_zero (S := S5000x128) hz3, View.ld_unit_zero (S := S128x128) hz3, View.ld_unit_zero (S := S1x128) hz3]
  obtain ⟨-, -, -, -, -, -, -, -, -, -, -, -, -, -, e0, e1⟩ := idx3 t
  funext j
  rw [View.read_apply]
  show k3_pay1 (F := Ideal) (iblk3 V c 0 t) (iblk3 V c 1 t) (iblk3 V c 2 t) (iblk3 V c 3 t) (iblk3 V c 4 t) (iblk3 V c 5 t) (iblk3 V c 6 t) j
    = cls3 V c (((cfg3.win 7).blk t).view.emb j)
  refine Payload.k3_block (V c main_v26) (V c main_v40) (V c main_v54) (V c main_v59) (V c main_v64) (V c main_v69) (V c main_v74)
    (iblk3 V c 0 t) (iblk3 V c 1 t) (iblk3 V c 2 t) (iblk3 V c 3 t) (iblk3 V c 4 t) (iblk3 V c 5 t) (iblk3 V c 6 t) t.val
    (iblk3_0_apply V c t) (iblk3_1_apply V c t) (iblk3_2_apply V c t) (iblk3_3_apply V c t) (iblk3_4_apply V c t)
    (iblk3_5_apply V c t) (iblk3_6_apply V c t)
    j (((cfg3.win 7).blk t).view.emb j) ?_ ?_
  · show win3_7.index t (0 : Fin 2) * 5000 + 1 * (j 0).val = 5000 * t.val + (j 0).val; rw [e0]; omega
  · show win3_7.index t (1 : Fin 2) * 128 + 1 * (j 1).val = (j 1).val; rw [e1]; omega

/-- An index of the result is in point `t`'s block iff each coordinate is in the block's range on its axis. -/
theorem mem_blk3 (t : Fin cfg3.N) (i : S100000x128.Idx) :
    i ∈ ((cfg3.win 7).blk t).view.set ↔ ∀ a : Fin 2, win3_7.index t a * S5000x128.size a ≤ (i a).val
      ∧ (i a).val < win3_7.index t a * S5000x128.size a + S5000x128.size a := by
  show i ∈ ((View.whole main_v75).slice (win3_7.rect t)).set ↔ _
  rw [View.set_slice_whole, Rect.mem_set_unit]
  exact Iff.rfl

/-- Row `r` of the result is in the block of point `r / 5000`, and every point writes its block back. -/
theorem cover3 (i : S100000x128.Idx) :
    ∃ t : Fin cfg3.N, (cfg3.win 7).flush t = true ∧ i ∈ ((cfg3.win 7).blk t).view.set := by
  have hi0 : (i 0).val < 100000 := (i 0).isLt
  have hi1 : (i 1).val < 128 := (i 1).isLt
  have hN : grid3.N = 20 := N_3
  have ht : (i 0).val / 5000 < cfg3.N := by show (i 0).val / 5000 < grid3.N; rw [hN]; omega
  obtain ⟨-, -, -, -, -, -, -, -, -, -, -, -, -, -, e0, e1⟩ := idx3 ⟨(i 0).val / 5000, ht⟩
  refine ⟨⟨(i 0).val / 5000, ht⟩, flush3_7 _, ?_⟩
  rw [mem_blk3]
  intro a
  match a with
  | ⟨0, _⟩ =>
    show win3_7.index ⟨(i 0).val / 5000, ht⟩ (0 : Fin 2) * 5000 ≤ (i 0).val
      ∧ (i 0).val < win3_7.index ⟨(i 0).val / 5000, ht⟩ (0 : Fin 2) * 5000 + 5000
    rw [e0]; show (i 0).val / 5000 * 5000 ≤ (i 0).val ∧ (i 0).val < (i 0).val / 5000 * 5000 + 5000; omega
  | ⟨1, _⟩ =>
    show win3_7.index ⟨(i 0).val / 5000, ht⟩ (1 : Fin 2) * 128 ≤ (i 1).val
      ∧ (i 1).val < win3_7.index ⟨(i 0).val / 5000, ht⟩ (1 : Fin 2) * 128 + 128
    rw [e1]; omega

/-- THE RESULT after the region: the read-out of the arrays the region finds. -/
theorem region3_value : (Gen.dat3 (F := Ideal) V c).arrAt 7 cfg3.N = Cert.Sage.clsArr (V c main_v26) (V c main_v40) (V c main_v54) (V c main_v59) (V c main_v64) (V c main_v69) (fun j => V c main_v74 (ValueIdx.ix2 (0 : Fin 1) j)) :=
  (dat3 (F := Ideal) V c).arrAt_eq_of_cover 7 (cls3 V c) (fun t _ => flushed3_eq V c t) cover3

end Cert.KernelIdeal.RegionValue

end
-- ==== Proof.KernelIsCommon.lean ====
/-
  The kernel program computes the common function.  Its result buffer holds column 0 of the read-out of the three
  layers' outputs against the padded weights; a padded matrix's column 0 is the run of 128 weights it was built
  from, the padded bias's entry 0 is the bias, and a bias vector laid as a single row reads back entry by entry —
  so the result at node `n` is the three products of 128 positions against the column of 384 weights plus the bias.
-/
import proofs.«147244_j38216618999857_1_alg».proof.Proof.KernelStages
import proofs.«147244_j38216618999857_1_alg».proof.Proof.KernelLayout
import proofs.«147244_j38216618999857_1_alg».proof.Proof.Common
import proofs.«147244_j38216618999857_1_alg».proof.Proof.RegionLayer0
import proofs.«147244_j38216618999857_1_alg».proof.Proof.RegionLayer1
import proofs.«147244_j38216618999857_1_alg».proof.Proof.RegionLayer2
import proofs.«147244_j38216618999857_1_alg».proof.Proof.RegionCls

set_option maxRecDepth 16384

noncomputable section

namespace Cert.KernelIdeal.Whole

open Cert.KernelIdeal Cert.KernelIdeal.Gen Cert.KernelIdeal.Terms Cert.KernelIdeal.Stages
open Idealize.ShloMosaic Idealize.ShloMosaic.TcCoe Idealize.ShloMosaic.ValueIdx
open Idealize.SL Idealize.SL.Sem

variable (m : (ℓ : Loc nD τ sig) → Buf (Elt Ideal) ℓ) (ρ : Dev nD → PrngReg) (c : Dev nD)

/-- The first layer's output is the common layer of the launched features. -/
theorem H0_is_L : H0 m c = Common.L (arg m c main_arg1) (arg m c main_arg0) (arg m c main_arg2) (arg m c main_arg3) (arg m c main_arg4) := by
  unfold H0 Common.L
  exact congrArg (Cert.Sage.layerArr _ _ _ _) (funext fun j => Layout.rowK_apply _ j)

/-- The second layer's output is the common layer of the first. -/
theorem H1_is_L : H1 m c = Common.L (arg m c main_arg1)
    (Common.L (arg m c main_arg1) (arg m c main_arg0) (arg m c main_arg2) (arg m c main_arg3) (arg m c main_arg4))
    (arg m c main_arg5) (arg m c main_arg6) (arg m c main_arg7) := by
  unfold H1
  rw [H0_is_L]
  unfold Common.L
  exact congrArg (Cert.Sage.layerArr _ _ _ _) (funext fun j => Layout.rowK_apply _ j)

/-- The third layer's output is the common layer of the second. -/
theorem H2_is_L : H2 m c = Common.L (arg m c main_arg1)
    (Common.L (arg m c main_arg1)
      (Common.L (arg m c main_arg1) (arg m c main_arg0) (arg m c main_arg2) (arg m c main_arg3) (arg m c main_arg4))
      (arg m c main_arg5) (arg m c main_arg6) (arg m c main_arg7))
    (arg m c main_arg8) (arg m c main_arg9) (arg m c main_arg10) := by
  unfold H2
  rw [H1_is_L]
  unfold Common.L
  exact congrArg (Cert.Sage.layerArr _ _ _ _) (funext fun j => Layout.rowK_apply _ j)

/-- Column 0 of the read-out is the common function of the launched arguments. -/
theorem out_is_G : col0K (OUT m c) = Common.G (arg m c main_arg0) (arg m c main_arg1) (arg m c main_arg2) (arg m c main_arg3)
    (arg m c main_arg4) (arg m c main_arg5) (arg m c main_arg6) (arg m c main_arg7) (arg m c main_arg8) (arg m c main_arg9)
    (arg m c main_arg10) (arg m c main_arg11) (arg m c main_arg12) := by
  funext i
  obtain ⟨n, rfl⟩ : ∃ n : Fin 100000, i = ix1 n := ⟨i 0, eq_ix1 i⟩
  rw [Layout.col0K_apply]
  unfold OUT
  rw [Cert.Sage.clsArr_apply]
  unfold Cert.Sage.clsAt Common.G Cert.Sage.outAt
  simp only [Layout.pad0K_apply, Layout.pad1K_apply, Layout.pad2K_apply, Layout.padBK_apply, H0_is_L, H1_is_L, H2_is_L]

/-- THE KERNEL'S VALUE: the result buffer after the run is the common function of the launched arguments. -/
theorem kernel_value : W9 m ρ c (Proc.devRef .tc main_v77) = Common.G (arg m c main_arg0) (arg m c main_arg1) (arg m c main_arg2)
    (arg m c main_arg3) (arg m c main_arg4) (arg m c main_arg5) (arg m c main_arg6) (arg m c main_arg7) (arg m c main_arg8)
    (arg m c main_arg9) (arg m c main_arg10) (arg m c main_arg11) (arg m c main_arg12) :=
  (W9_v77 m ρ c (fun V c => RegionValue.region0_value V c) (fun V c => RegionValue.region1_value V c)
    (fun V c => RegionValue.region2_value V c) (fun V c => RegionValue.region3_value V c)).trans (out_is_G m c)

end Cert.KernelIdeal.Whole

end
-- ==== Proof.RefLayer.lean ====
/-
  One layer of the reference network, as a function of its neighbourhood sums and degrees.

  A layer takes the neighbourhood sum `A` (100000 rows of 128), the clamped degree `D` (one number per row), the
  node features `h`, two 128 × 128 weight matrices and a bias of 128 numbers.  It spreads the degree along each
  row, divides the neighbourhood sum by it entry by entry, multiplies the quotient by the first weight matrix and
  the features by the second, adds the two products and the bias (spread down the rows), and takes the maximum
  with zero.

  Read at row n and column j this is
    max ((Σ_k (A[n,k] / D[n]) · Wl[k,j]) + (Σ_k h[n,k] · Wr[k,j]) + b[j]) 0,
  the layer of the shared specification with `A[n,k] / D[n]` as the mean: a product of matrices at one entry is
  the sum over the contracted axis, a row-wise or column-wise spread reads the one number of its row or column,
  and quotient, sum and maximum act entry by entry.
-/
import proofs.«147244_j38216618999857_1_alg».proof.Proof.Spec
import proofs.«147244_j38216618999857_1_alg».proof.Proof.Gen.ReferenceIdeal.Read
import Idealize.ShloMosaic.Lib.IdealHost

noncomputable section

namespace Cert.ReferenceIdeal.RefValue

open Cert.ReferenceIdeal Cert.ReferenceIdeal.Gen Idealize.ShloMosaic Idealize.ShloMosaic.TcCoe Idealize.SL.Sem Idealize.ShloMosaic.StableHlo
open Idealize.ShloMosaic.ValueIdx

/-- One reference layer: the operations of the reference between the neighbourhood sum and degree and the layer's
    output, in the reference's own order. -/
def refLayer (A : FVec Ideal S100000x128 .f32) (D : FVec Ideal S100000 .f32) (h : FVec Ideal S100000x128 .f32)
    (wl wr : FVec Ideal S128x128 .f32) (b : FVec Ideal S128 .f32) : FVec Ideal S100000x128 .f32 :=
  maximumf
    (addf
      (addf
        (Host.dotGeneral (F := Ideal) dot_S100000x128_S128x128_S100000x128_1_0_0_1_n_n none
          (Host.divf (F := Ideal) A
            (broadcastInDim S100000x128 ![0, 1] bcast_S100000x1_S100000x128_0_1
              (broadcastInDim S100000x1 ![0] bcast_S100000_S100000x1_0 D)))
          wl)
        (Host.dotGeneral (F := Ideal) dot_S100000x128_S128x128_S100000x128_1_0_0_1_n_n none h wr))
      (broadcastInDim S100000x128 ![0, 1] bcast_S1x128_S100000x128_0_1 (broadcastInDim S1x128 ![1] bcast_S128_S1x128_1 b)))
    (broadcastInDim S100000x128 ![] bcast_S_S100000x128 (constant (F := Ideal) S_ .f32 0x00000000#32))

/-- The product of a 100000 × 128 array with a 128 × 128 matrix at row n, column j: the sum over the 128 contracted
    positions. -/
theorem hostDot_apply (X : FVec Ideal S100000x128 .f32) (W : FVec Ideal S128x128 .f32) (n : Fin 100000) (j : Fin 128) :
    Host.dotGeneral (F := Ideal) dot_S100000x128_S128x128_S100000x128_1_0_0_1_n_n none X W (ix2 n j)
      = ∑ k : Fin 128, X (ix2 n k) * W (ix2 k j) := by
  refine (Read.val_main_v24_apply X W (ix2 n j)).trans ?_
  refine Finset.sum_congr rfl fun k _ => ?_
  have el : Read.lidx_main_v24 (ix2 n j) k = ix2 n k := funext fun a => by
    match a with
    | ⟨0, _⟩ => rfl
    | ⟨1, _⟩ => rfl
  have er : Read.ridx_main_v24 (ix2 n j) k = ix2 k j := funext fun a => by
    match a with
    | ⟨0, _⟩ => rfl
    | ⟨1, _⟩ => rfl
  rw [el, er]

/-- The degree spread along each row reads, at any entry of row n, the degree of row n. -/
theorem spreadRows_apply (D : FVec Ideal S100000 .f32) (i : S100000x128.Idx) :
    broadcastInDim S100000x128 ![0, 1] bcast_S100000x1_S100000x128_0_1
        (broadcastInDim S100000x1 ![0] bcast_S100000_S100000x1_0 D) i
      = D (ix1 (⟨(i 0).val, (i 0).isLt⟩ : Fin 100000)) := by
  refine (broadcastInDim_apply _ bcast_S100000x1_S100000x128_0_1 _ i (Read.idx_main_v21 i) (fun a => match a with
    | ⟨0, _⟩ => by show (i 0).val = if (100000 : Nat) = 1 then 0 else (i 0).val; rw [if_neg (by decide)]
    | ⟨1, _⟩ => by show 0 = if (1 : Nat) = 1 then 0 else (i 1).val; rw [if_pos rfl])).trans ?_
  refine (broadcastInDim_apply _ bcast_S100000_S100000x1_0 D (Read.idx_main_v21 i) (Read.idx_main_v20 (Read.idx_main_v21 i)) (fun a => match a with
    | ⟨0, _⟩ => by show (i 0).val = if (100000 : Nat) = 1 then 0 else (i 0).val; rw [if_neg (by decide)])).trans ?_
  refine congrArg D (funext fun a => ?_)
  match a with
  | ⟨0, _⟩ => rfl

/-- The bias spread down the rows reads, at any entry of column j, the bias of column j. -/
theorem spreadCols_apply (b : FVec Ideal S128 .f32) (i : S100000x128.Idx) :
    broadcastInDim S100000x128 ![0, 1] bcast_S1x128_S100000x128_0_1 (broadcastInDim S1x128 ![1] bcast_S128_S1x128_1 b) i
      = b (ix1 (⟨(i 1).val, (i 1).isLt⟩ : Fin 128)) := by
  refine (broadcastInDim_apply _ bcast_S1x128_S100000x128_0_1 _ i (Read.idx_main_v27 i) (fun a => match a with
    | ⟨0, _⟩ => by show 0 = if (1 : Nat) = 1 then 0 else (i 0).val; rw [if_pos rfl]
    | ⟨1, _⟩ => by show (i 1).val = if (128 : Nat) = 1 then 0 else (i 1).val; rw [if_neg (by decide)])).trans ?_
  refine (broadcastInDim_apply _ bcast_S128_S1x128_1 b (Read.idx_main_v27 i) (Read.idx_main_v26 (Read.idx_main_v27 i)) (fun a => match a with
    | ⟨0, _⟩ => by show (i 1).val = if (128 : Nat) = 1 then 0 else (i 1).val; rw [if_neg (by decide)])).trans ?_
  refine congrArg b (funext fun a => ?_)
  match a with
  | ⟨0, _⟩ => rfl

/-- The zero constant spread over the whole array reads the word of zero everywhere. -/
theorem spreadZero_apply (i : S100000x128.Idx) :
    broadcastInDim S100000x128 ![] bcast_S_S100000x128 (constant (F := Ideal) S_ .f32 0x00000000#32) i = Cert.Sage.zeroW :=
  broadcastInDim_scalar_apply bcast_S_S100000x128 _ i

/-- A reference layer is the specification's layer whose mean is the neighbourhood sum divided, row by row, by the
    degree. -/
theorem refLayer_eq (A : FVec Ideal S100000x128 .f32) (D : FVec Ideal S100000 .f32) (h : FVec Ideal S100000x128 .f32)
    (wl wr : FVec Ideal S128x128 .f32) (b : FVec Ideal S128 .f32) :
    refLayer A D h wl wr b
      = Cert.Sage.layerArr (fun i => Ideal.div (A i) (D (ValueIdx.ix1 (⟨(i 0).val, (i 0).isLt⟩ : Fin 100000)))) h wl wr
          (fun j => b (ValueIdx.ix1 j)) := by
  funext i
  obtain ⟨n, j, rfl⟩ : ∃ n j, i = ix2 n j := ⟨i 0, i 1, eq_ix2 i⟩
  rw [Cert.Sage.layerArr_apply]
  unfold refLayer Cert.Sage.layerAt
  rw [maximumf_apply, addf_apply, addf_apply, spreadCols_apply, spreadZero_apply, hostDot_apply, hostDot_apply]
  refine congrArg₂ max (congrArg₂ (· + ·) (congrArg₂ (· + ·) (Finset.sum_congr rfl fun k _ => ?_) rfl) rfl) rfl
  rw [hostDivf_apply, spreadRows_apply]

end Cert.ReferenceIdeal.RefValue

end
-- ==== Proof.RefLayers.lean ====
/-
  The three layers of the reference network, each as one layer function of its own neighbourhood sum and degree.

  Layer 1 is the layer function of the neighbourhood sum of the input features, the clamped degree, the input
  features and the first weights and bias; layer 2 is the same function of the neighbourhood sum of layer 1's
  output, the clamped degree, layer 1's output and the second weights and bias; layer 3 likewise from layer 2's
  output.  Each statement only re-groups the reference's operations: the neighbourhood sums and the degrees stay as
  the reference computes them and are not looked into.
-/
import proofs.«147244_j38216618999857_1_alg».proof.Proof.RefLayer

noncomputable section

namespace Cert.ReferenceIdeal.RefValue

open Cert.ReferenceIdeal Cert.ReferenceIdeal.Gen Idealize.ShloMosaic Idealize.ShloMosaic.TcCoe Idealize.SL.Sem Idealize.ShloMosaic.StableHlo

/-- The first layer's output is the layer function of the input features' neighbourhood sum and the clamped degree. -/
theorem v29_eq (x0 : (⟨S100000x128, .f32⟩ : BufTy).Contents (Elt Ideal)) (x1 : (⟨S2x640000, .i32⟩ : BufTy).Contents (Elt Ideal)) (x2 x3 : (⟨S128x128, .f32⟩ : BufTy).Contents (Elt Ideal)) (x4 : (⟨S128, .f32⟩ : BufTy).Contents (Elt Ideal)) :
    Read.val_main_v29 (F := Ideal) x0 x1 x2 x3 x4
      = refLayer (Read.val_main_v13 (F := Ideal) x0 x1) (Read.val_main_v19 (F := Ideal) x1) x0 x2 x3 x4 := by
  unfold Read.val_main_v29 Read.val_main_v28 Read.val_main_v27 Read.val_main_v26 Read.val_main_v25 Read.val_main_v24 Read.val_main_v23
    Read.val_main_v22 Read.val_main_v21 Read.val_main_v20 Read.val_main_call0_v0 Read.val_main_call0_cst refLayer
  rfl

/-- The second layer's output is the layer function of the first layer's neighbourhood sum and the clamped degree. -/
theorem v55_eq (x0 : (⟨S100000x128, .f32⟩ : BufTy).Contents (Elt Ideal)) (x1 : (⟨S2x640000, .i32⟩ : BufTy).Contents (Elt Ideal)) (x2 x3 : (⟨S128x128, .f32⟩ : BufTy).Contents (Elt Ideal)) (x4 : (⟨S128, .f32⟩ : BufTy).Contents (Elt Ideal)) (x5 x6 : (⟨S128x128, .f32⟩ : BufTy).Contents (Elt Ideal)) (x7 : (⟨S128, .f32⟩ : BufTy).Contents (Elt Ideal)) :
    Read.val_main_v55 (F := Ideal) x0 x1 x2 x3 x4 x5 x6 x7
      = refLayer (Read.val_main_v39 (F := Ideal) x0 x1 x2 x3 x4) (Read.val_main_v45 (F := Ideal) x1)
          (Read.val_main_v29 (F := Ideal) x0 x1 x2 x3 x4) x5 x6 x7 := by
  unfold Read.val_main_v55 Read.val_main_v54 Read.val_main_v53 Read.val_main_v52 Read.val_main_v51 Read.val_main_v50 Read.val_main_v49
    Read.val_main_v48 Read.val_main_v47 Read.val_main_v46 Read.val_main_call1_v0 Read.val_main_call1_cst refLayer
  rfl

/-- The third layer's output is the layer function of the second layer's neighbourhood sum and the clamped degree. -/
theorem v81_eq (x0 : (⟨S100000x128, .f32⟩ : BufTy).Contents (Elt Ideal)) (x1 : (⟨S2x640000, .i32⟩ : BufTy).Contents (Elt Ideal)) (x2 x3 : (⟨S128x128, .f32⟩ : BufTy).Contents (Elt Ideal)) (x4 : (⟨S128, .f32⟩ : BufTy).Contents (Elt Ideal)) (x5 x6 : (⟨S128x128, .f32⟩ : BufTy).Contents (Elt Ideal)) (x7 : (⟨S128, .f32⟩ : BufTy).Contents (Elt Ideal)) (x8 x9 : (⟨S128x128, .f32⟩ : BufTy).Contents (Elt Ideal)) (x10 : (⟨S128, .f32⟩ : BufTy).Contents (Elt Ideal)) :
    Read.val_main_v81 (F := Ideal) x0 x1 x2 x3 x4 x5 x6 x7 x8 x9 x10
      = refLayer (Read.val_main_v65 (F := Ideal) x0 x1 x2 x3 x4 x5 x6 x7) (Read.val_main_v71 (F := Ideal) x1)
          (Read.val_main_v55 (F := Ideal) x0 x1 x2 x3 x4 x5 x6 x7) x8 x9 x10 := by
  unfold Read.val_main_v81 Read.val_main_v80 Read.val_main_v79 Read.val_main_v78 Read.val_main_v77 Read.val_main_v76 Read.val_main_v75
    Read.val_main_v74 Read.val_main_v73 Read.val_main_v72 Read.val_main_call2_v0 Read.val_main_call2_cst refLayer
  rfl

end Cert.ReferenceIdeal.RefValue

end
-- ==== Proof.RefOut.lean ====
/-
  The reference's read-out: the three layers' outputs laid side by side (384 columns), multiplied by one column of
  384 weights, plus a bias, as a sum of three products of 128 positions each.

  Row n of the side-by-side array holds, at column k below 128, layer 1's entry (n, k); at column 128 + k, layer 2's
  entry (n, k); at column 256 + k, layer 3's entry (n, k).  The product with the weight column at row n is the sum
  over the 384 columns; cutting the columns into their three runs of 128 gives the three sums of the specification,
  each of one layer's row n against its own run of the weights.  The bias is the one number of a one-element array,
  spread over all rows.
-/
import proofs.«147244_j38216618999857_1_alg».proof.Proof.Spec
import proofs.«147244_j38216618999857_1_alg».proof.Proof.Gen.ReferenceIdeal.Read
import Idealize.ShloMosaic.Lib.IdealHost

noncomputable section

namespace Cert.ReferenceIdeal.RefValue

open Cert.ReferenceIdeal Cert.ReferenceIdeal.Gen Idealize.ShloMosaic Idealize.ShloMosaic.TcCoe Idealize.SL.Sem Idealize.ShloMosaic.StableHlo
open Idealize.ShloMosaic.ValueIdx

/-- Three arrays of 128 columns laid side by side, read at row n: column k of the first run is the first array's
    entry (n, k). -/
theorem sideBySide_apply0 (y0 y1 y2 : S100000x128.Idx → EReal) (n : Fin 100000) (k : Fin 128) :
    concatenate S100000x384 1 [⟨S100000x128, y0⟩, ⟨S100000x128, y1⟩, ⟨S100000x128, y2⟩]
        concatenates_S100000x128_S100000x128_S100000x128_S100000x384_d1 (ix2 n (⟨k.val, by omega⟩ : Fin 384))
      = y0 (ix2 n k) := by
  refine concatenate_apply_piece (1 : Fin S100000x384.rank) _ _ (ix2 n (⟨k.val, by omega⟩ : Fin 384)) 0 (by show (0 : Nat) < 3; omega) S100000x128 y0 rfl rfl 0 rfl
    (ix2 n k) (fun b hb => ?_) ?_
  · match b with
    | ⟨0, _⟩ => rfl
    | ⟨1, _⟩ => exact absurd rfl hb
  · show 0 + k.val = k.val
    omega

/-- Column 128 + k is the second array's entry (n, k). -/
theorem sideBySide_apply1 (y0 y1 y2 : S100000x128.Idx → EReal) (n : Fin 100000) (k : Fin 128) :
    concatenate S100000x384 1 [⟨S100000x128, y0⟩, ⟨S100000x128, y1⟩, ⟨S100000x128, y2⟩]
        concatenates_S100000x128_S100000x128_S100000x128_S100000x384_d1 (ix2 n (⟨128 + k.val, by omega⟩ : Fin 384))
      = y1 (ix2 n k) := by
  refine concatenate_apply_piece (1 : Fin S100000x384.rank) _ _ (ix2 n (⟨128 + k.val, by omega⟩ : Fin 384)) 1 (by show (1 : Nat) < 3; omega) S100000x128 y1 rfl rfl 128 rfl
    (ix2 n k) (fun b hb => ?_) ?_
  · match b with
    | ⟨0, _⟩ => rfl
    | ⟨1, _⟩ => exact absurd rfl hb
  · show 128 + k.val = 128 + k.val
    rfl

/-- Column 256 + k is the third array's entry (n, k). -/
theorem sideBySide_apply2 (y0 y1 y2 : S100000x128.Idx → EReal) (n : Fin 100000) (k : Fin 128) :
    concatenate S100000x384 1 [⟨S100000x128, y0⟩, ⟨S100000x128, y1⟩, ⟨S100000x128, y2⟩]
        concatenates_S100000x128_S100000x128_S100000x128_S100000x384_d1 (ix2 n (⟨256 + k.val, by omega⟩ : Fin 384))
      = y2 (ix2 n k) := by
  refine concatenate_apply_piece (1 : Fin S100000x384.rank) _ _ (ix2 n (⟨256 + k.val, by omega⟩ : Fin 384)) 2 (by show (2 : Nat) < 3; omega) S100000x128 y2 rfl rfl 256 rfl
    (ix2 n k) (fun b hb => ?_) ?_
  · match b with
    | ⟨0, _⟩ => rfl
    | ⟨1, _⟩ => exact absurd rfl hb
  · show 256 + k.val = 256 + k.val
    rfl

/-- The reference's result at node n: the read-out of the specification on the three layers' outputs, the weight
    column and the bias. -/
theorem v87_eq (x0 : (⟨S100000x128, .f32⟩ : BufTy).Contents (Elt Ideal)) (x1 : (⟨S2x640000, .i32⟩ : BufTy).Contents (Elt Ideal)) (x2 x3 : (⟨S128x128, .f32⟩ : BufTy).Contents (Elt Ideal)) (x4 : (⟨S128, .f32⟩ : BufTy).Contents (Elt Ideal)) (x5 x6 : (⟨S128x128, .f32⟩ : BufTy).Contents (Elt Ideal)) (x7 : (⟨S128, .f32⟩ : BufTy).Contents (Elt Ideal)) (x8 x9 : (⟨S128x128, .f32⟩ : BufTy).Contents (Elt Ideal)) (x10 : (⟨S128, .f32⟩ : BufTy).Contents (Elt Ideal)) (x11 : (⟨S384x1, .f32⟩ : BufTy).Contents (Elt Ideal)) (x12 : (⟨S1, .f32⟩ : BufTy).Contents (Elt Ideal)) :
    Read.val_main_v87 (F := Ideal) x0 x1 x2 x3 x4 x5 x6 x7 x8 x9 x10 x11 x12
      = fun i => Cert.Sage.outAt (Read.val_main_v29 (F := Ideal) x0 x1 x2 x3 x4) (Read.val_main_v55 (F := Ideal) x0 x1 x2 x3 x4 x5 x6 x7)
          (Read.val_main_v81 (F := Ideal) x0 x1 x2 x3 x4 x5 x6 x7 x8 x9 x10) x11 (x12 (ValueIdx.ix1 (0 : Fin 1)))
          (⟨(i 0).val, (i 0).isLt⟩ : Fin 100000) := by
  funext i
  rw [Read.val_main_v87_apply, Read.val_main_v86_apply, Read.val_main_v85_apply, Read.val_main_v84_apply, Read.val_main_v83_apply,
    Ideal.addf_def]
  unfold Cert.Sage.outAt Read.val_main_v82
  rw [Cert.Sage.sum_384]
  have hb : Read.idx_main_v84 (Read.idx_main_v85 (Read.idx_main_v87 i)) = ix1 (0 : Fin 1) := funext fun a => by
    match a with
    | ⟨0, _⟩ => rfl
  have el : ∀ k : Fin 384, Read.lidx_main_v83 (Read.idx_main_v87 i) k = ix2 (⟨(i 0).val, (i 0).isLt⟩ : Fin 100000) k := fun k =>
    funext fun a => Fin.ext (by
      match a with
      | ⟨0, _⟩ => exact Nat.div_one _
      | ⟨1, _⟩ => rfl)
  have er : ∀ k : Fin 384, Read.ridx_main_v83 (Read.idx_main_v87 i) k = ix2 k (0 : Fin 1) := fun k =>
    funext fun a => Fin.ext (by
      match a with
      | ⟨0, _⟩ => rfl
      | ⟨1, _⟩ => rfl)
  rw [hb]
  refine congrArg₂ (· + ·) (congrArg₂ (· + ·) (congrArg₂ (· + ·) ?_ ?_) ?_) rfl
  · refine Finset.sum_congr rfl fun k _ => ?_
    rw [el, er, sideBySide_apply0]
  · refine Finset.sum_congr rfl fun k _ => ?_
    rw [el, er, sideBySide_apply1]
  · refine Finset.sum_congr rfl fun k _ => ?_
    rw [el, er, sideBySide_apply2]

end Cert.ReferenceIdeal.RefValue

end
-- ==== Proof.RefIsCommon.lean ====
/-
  The reference computes the common function of the thirteen arguments.

  Both programs build the neighbourhood sum and the degree with the same chain of operations: the source and
  destination rows of the edge list, the source wrapped by the node count when negative, the source rows gathered and
  added up at the destinations, and a one added up at every destination, clamped below by one.  So the reference's
  neighbourhood sums and clamped degrees ARE the kernel side's, operation for operation.

  The two sides then scale the neighbourhood sum differently: the reference divides by the clamped degree, the
  common function multiplies by its reciprocal.  The clamped degree is at least one, so it is not zero and the two
  agree for every extended-real numerator.  Hence each reference layer is the common layer, layer after layer, and
  the read-out of the three layers' outputs is the same expression on both sides.
-/
import proofs.«147244_j38216618999857_1_alg».proof.Proof.Common
import proofs.«147244_j38216618999857_1_alg».proof.Proof.KernelLayout
import proofs.«147244_j38216618999857_1_alg».proof.Proof.RefLayers
import proofs.«147244_j38216618999857_1_alg».proof.Proof.RefOut
import proofs.«147244_j38216618999857_1_alg».proof.Proof.Spec

noncomputable section

namespace Cert.ReferenceIdeal.RefValue

open Cert.ReferenceIdeal Cert.ReferenceIdeal.Gen Idealize.ShloMosaic Idealize.ShloMosaic.TcCoe Idealize.SL.Sem Idealize.ShloMosaic.StableHlo
open Idealize.ShloMosaic.ValueIdx

/-! ## The neighbourhood sums and clamped degrees are the same operations on both sides -/

/-- Layer 1's neighbourhood sum. -/
theorem agg0_eq (x0 : (⟨S100000x128, .f32⟩ : BufTy).Contents (Elt Ideal)) (x1 : (⟨S2x640000, .i32⟩ : BufTy).Contents (Elt Ideal)) :
    Read.val_main_v13 (F := Ideal) x0 x1 = Cert.KernelIdeal.Terms.aggK x1 x0 := by
  unfold Read.val_main_v13 Read.val_main_v12 Read.val_main_v11 Read.val_main_cst Read.val_main_v10 Read.val_main_v9 Read.val_main_v8 Read.val_main_v7 Read.val_main_v6 Read.val_main_c_0 Read.val_main_v5 Read.val_main_v4 Read.val_main_c Read.val_main_v3 Read.val_main_v2 Read.val_main_v1 Read.val_main_v0
    Cert.KernelIdeal.Terms.aggK Cert.KernelIdeal.Terms.idxK Cert.KernelIdeal.Terms.dstK Cert.KernelIdeal.Terms.srcK
  rfl

/-- Layer 2's neighbourhood sum, of layer 1's output. -/
theorem agg1_eq (x0 : (⟨S100000x128, .f32⟩ : BufTy).Contents (Elt Ideal)) (x1 : (⟨S2x640000, .i32⟩ : BufTy).Contents (Elt Ideal)) (x2 x3 : (⟨S128x128, .f32⟩ : BufTy).Contents (Elt Ideal)) (x4 : (⟨S128, .f32⟩ : BufTy).Contents (Elt Ideal)) :
    Read.val_main_v39 (F := Ideal) x0 x1 x2 x3 x4 = Cert.KernelIdeal.Terms.aggK x1 (Read.val_main_v29 (F := Ideal) x0 x1 x2 x3 x4) := by
  unfold Read.val_main_v39 Read.val_main_v38 Read.val_main_v37 Read.val_main_cst_6 Read.val_main_v36 Read.val_main_v35 Read.val_main_v34 Read.val_main_v33 Read.val_main_v32 Read.val_main_c_5 Read.val_main_v31 Read.val_main_v30 Read.val_main_c_4 Read.val_main_v3 Read.val_main_v2 Read.val_main_v1 Read.val_main_v0
    Cert.KernelIdeal.Terms.aggK Cert.KernelIdeal.Terms.idxK Cert.KernelIdeal.Terms.dstK Cert.KernelIdeal.Terms.srcK
  rfl

/-- Layer 3's neighbourhood sum, of layer 2's output. -/
theorem agg2_eq (x0 : (⟨S100000x128, .f32⟩ : BufTy).Contents (Elt Ideal)) (x1 : (⟨S2x640000, .i32⟩ : BufTy).Contents (Elt Ideal)) (x2 x3 : (⟨S128x128, .f32⟩ : BufTy).Contents (Elt Ideal)) (x4 : (⟨S128, .f32⟩ : BufTy).Contents (Elt Ideal)) (x5 x6 : (⟨S128x128, .f32⟩ : BufTy).Contents (Elt Ideal)) (x7 : (⟨S128, .f32⟩ : BufTy).Contents (Elt Ideal)) :
    Read.val_main_v65 (F := Ideal) x0 x1 x2 x3 x4 x5 x6 x7
      = Cert.KernelIdeal.Terms.aggK x1 (Read.val_main_v55 (F := Ideal) x0 x1 x2 x3 x4 x5 x6 x7) := by
  unfold Read.val_main_v65 Read.val_main_v64 Read.val_main_v63 Read.val_main_cst_12 Read.val_main_v62 Read.val_main_v61 Read.val_main_v60 Read.val_main_v59 Read.val_main_v58 Read.val_main_c_11 Read.val_main_v57 Read.val_main_v56 Read.val_main_c_10 Read.val_main_v3 Read.val_main_v2 Read.val_main_v1 Read.val_main_v0
    Cert.KernelIdeal.Terms.aggK Cert.KernelIdeal.Terms.idxK Cert.KernelIdeal.Terms.dstK Cert.KernelIdeal.Terms.srcK
  rfl

/-- Layer 1's clamped degree. -/
theorem dmax0_eq (x1 : (⟨S2x640000, .i32⟩ : BufTy).Contents (Elt Ideal)) : Read.val_main_v19 (F := Ideal) x1 = Cert.KernelIdeal.Terms.dmaxK x1 := by
  unfold Read.val_main_v19 Read.val_main_v18 Read.val_main_cst_3 Read.val_main_v17 Read.val_main_v16 Read.val_main_v15 Read.val_main_cst_2 Read.val_main_v14 Read.val_main_cst_1 Read.val_main_v3 Read.val_main_v2
    Cert.KernelIdeal.Terms.dmaxK Cert.KernelIdeal.Terms.degK Cert.KernelIdeal.Terms.dstK
  rfl

/-- Layer 2's clamped degree. -/
theorem dmax1_eq (x1 : (⟨S2x640000, .i32⟩ : BufTy).Contents (Elt Ideal)) : Read.val_main_v45 (F := Ideal) x1 = Cert.KernelIdeal.Terms.dmaxK x1 := by
  unfold Read.val_main_v45 Read.val_main_v44 Read.val_main_cst_9 Read.val_main_v43 Read.val_main_v42 Read.val_main_v41 Read.val_main_cst_8 Read.val_main_v40 Read.val_main_cst_7 Read.val_main_v3 Read.val_main_v2
    Cert.KernelIdeal.Terms.dmaxK Cert.KernelIdeal.Terms.degK Cert.KernelIdeal.Terms.dstK
  rfl

/-- Layer 3's clamped degree. -/
theorem dmax2_eq (x1 : (⟨S2x640000, .i32⟩ : BufTy).Contents (Elt Ideal)) : Read.val_main_v71 (F := Ideal) x1 = Cert.KernelIdeal.Terms.dmaxK x1 := by
  unfold Read.val_main_v71 Read.val_main_v70 Read.val_main_cst_15 Read.val_main_v69 Read.val_main_v68 Read.val_main_v67 Read.val_main_cst_14 Read.val_main_v66 Read.val_main_cst_13 Read.val_main_v3 Read.val_main_v2
    Cert.KernelIdeal.Terms.dmaxK Cert.KernelIdeal.Terms.degK Cert.KernelIdeal.Terms.dstK
  rfl

/-! ## Dividing by the clamped degree is multiplying by its reciprocal -/

/-- The clamped degree of node n: the larger of its degree and one. -/
theorem dmaxK_apply (e : IVec S2x640000 32) (n : Fin 100000) :
    Cert.KernelIdeal.Terms.dmaxK e (ix1 n) = max (Cert.KernelIdeal.Terms.degK e (ix1 n)) Cert.Sage.oneW := by
  unfold Cert.KernelIdeal.Terms.dmaxK
  rw [maximumf_apply]
  rfl

/-- The neighbourhood sum divided row by row by the clamped degree is the neighbourhood mean. -/
theorem mean_eq (e : IVec S2x640000 32) (h : FVec Ideal S100000x128 .f32) (A : FVec Ideal S100000x128 .f32)
    (D : FVec Ideal S100000 .f32) (hA : A = Cert.KernelIdeal.Terms.aggK e h) (hD : D = Cert.KernelIdeal.Terms.dmaxK e) :
    (fun i : S100000x128.Idx => Ideal.div (A i) (D (ValueIdx.ix1 (⟨(i 0).val, (i 0).isLt⟩ : Fin 100000)))) = Cert.KernelIdeal.Terms.meanK e h := by
  subst hA hD
  funext i
  obtain ⟨n, k, rfl⟩ : ∃ n k, i = ix2 n k := ⟨i 0, i 1, eq_ix2 i⟩
  rw [Cert.KernelIdeal.Layout.meanK_apply, Cert.Sage.mul_recip_clamped]
  exact congrArg (Ideal.div _) (dmaxK_apply e n)

/-- A reference layer on the kernel side's neighbourhood sum and clamped degree is the common layer. -/
theorem layer_eq (e : IVec S2x640000 32) (h : FVec Ideal S100000x128 .f32) (A : FVec Ideal S100000x128 .f32)
    (D : FVec Ideal S100000 .f32) (wl wr : FVec Ideal S128x128 .f32) (b : FVec Ideal S128 .f32)
    (hA : A = Cert.KernelIdeal.Terms.aggK e h) (hD : D = Cert.KernelIdeal.Terms.dmaxK e) :
    refLayer A D h wl wr b = Cert.KernelIdeal.Common.L e h wl wr b := by
  rw [refLayer_eq, mean_eq e h A D hA hD]
  rfl

/-! ## Layer after layer, and the read-out -/

/-- The reference's first layer is the common layer of the input features. -/
theorem v29_is_L (x0 : (⟨S100000x128, .f32⟩ : BufTy).Contents (Elt Ideal)) (x1 : (⟨S2x640000, .i32⟩ : BufTy).Contents (Elt Ideal)) (x2 x3 : (⟨S128x128, .f32⟩ : BufTy).Contents (Elt Ideal)) (x4 : (⟨S128, .f32⟩ : BufTy).Contents (Elt Ideal)) :
    Read.val_main_v29 (F := Ideal) x0 x1 x2 x3 x4 = Cert.KernelIdeal.Common.L x1 x0 x2 x3 x4 :=
  (v29_eq x0 x1 x2 x3 x4).trans (layer_eq x1 x0 _ _ x2 x3 x4 (agg0_eq x0 x1) (dmax0_eq x1))

/-- The reference's second layer is the common layer of the first. -/
theorem v55_is_L (x0 : (⟨S100000x128, .f32⟩ : BufTy).Contents (Elt Ideal)) (x1 : (⟨S2x640000, .i32⟩ : BufTy).Contents (Elt Ideal)) (x2 x3 : (⟨S128x128, .f32⟩ : BufTy).Contents (Elt Ideal)) (x4 : (⟨S128, .f32⟩ : BufTy).Contents (Elt Ideal)) (x5 x6 : (⟨S128x128, .f32⟩ : BufTy).Contents (Elt Ideal)) (x7 : (⟨S128, .f32⟩ : BufTy).Contents (Elt Ideal)) :
    Read.val_main_v55 (F := Ideal) x0 x1 x2 x3 x4 x5 x6 x7 = Cert.KernelIdeal.Common.L x1 (Cert.KernelIdeal.Common.L x1 x0 x2 x3 x4) x5 x6 x7 := by
  refine (v55_eq x0 x1 x2 x3 x4 x5 x6 x7).trans ?_
  refine (layer_eq x1 _ _ _ x5 x6 x7 (agg1_eq x0 x1 x2 x3 x4) (dmax1_eq x1)).trans ?_
  rw [v29_is_L]

/-- The reference's third layer is the common layer of the second. -/
theorem v81_is_L (x0 : (⟨S100000x128, .f32⟩ : BufTy).Contents (Elt Ideal)) (x1 : (⟨S2x640000, .i32⟩ : BufTy).Contents (Elt Ideal)) (x2 x3 : (⟨S128x128, .f32⟩ : BufTy).Contents (Elt Ideal)) (x4 : (⟨S128, .f32⟩ : BufTy).Contents (Elt Ideal)) (x5 x6 : (⟨S128x128, .f32⟩ : BufTy).Contents (Elt Ideal)) (x7 : (⟨S128, .f32⟩ : BufTy).Contents (Elt Ideal)) (x8 x9 : (⟨S128x128, .f32⟩ : BufTy).Contents (Elt Ideal)) (x10 : (⟨S128, .f32⟩ : BufTy).Contents (Elt Ideal)) :
    Read.val_main_v81 (F := Ideal) x0 x1 x2 x3 x4 x5 x6 x7 x8 x9 x10
      = Cert.KernelIdeal.Common.L x1 (Cert.KernelIdeal.Common.L x1 (Cert.KernelIdeal.Common.L x1 x0 x2 x3 x4) x5 x6 x7) x8 x9 x10 := by
  refine (v81_eq x0 x1 x2 x3 x4 x5 x6 x7 x8 x9 x10).trans ?_
  refine (layer_eq x1 _ _ _ x8 x9 x10 (agg2_eq x0 x1 x2 x3 x4 x5 x6 x7) (dmax2_eq x1)).trans ?_
  rw [v55_is_L]

/-- The reference's result is the common function of the thirteen arguments. -/
theorem ref_is_G (x0 : (⟨S100000x128, .f32⟩ : BufTy).Contents (Elt Ideal)) (x1 : (⟨S2x640000, .i32⟩ : BufTy).Contents (Elt Ideal)) (x2 x3 : (⟨S128x128, .f32⟩ : BufTy).Contents (Elt Ideal)) (x4 : (⟨S128, .f32⟩ : BufTy).Contents (Elt Ideal)) (x5 x6 : (⟨S128x128, .f32⟩ : BufTy).Contents (Elt Ideal)) (x7 : (⟨S128, .f32⟩ : BufTy).Contents (Elt Ideal)) (x8 x9 : (⟨S128x128, .f32⟩ : BufTy).Contents (Elt Ideal)) (x10 : (⟨S128, .f32⟩ : BufTy).Contents (Elt Ideal)) (x11 : (⟨S384x1, .f32⟩ : BufTy).Contents (Elt Ideal)) (x12 : (⟨S1, .f32⟩ : BufTy).Contents (Elt Ideal)) :
    Cert.ReferenceIdeal.Read.val_main_v87 (F := Ideal) x0 x1 x2 x3 x4 x5 x6 x7 x8 x9 x10 x11 x12
      = Cert.KernelIdeal.Common.G x0 x1 x2 x3 x4 x5 x6 x7 x8 x9 x10 x11 x12 := by
  rw [v87_eq, v81_is_L, v55_is_L, v29_is_L]
  rfl

end Cert.ReferenceIdeal.RefValue

end
-- ==== Proof.lean ====
/-
  A three-layer mean-aggregation graph network with a linear read-out: the kernel program (four pipelined regions —
  three layers and the read-out — among host gather / scatter-add stretches) against the plain reference.

  The frames of the two kernel programs are the generated ones; the reference has no kernel, and its frame is its
  run with the result dropped.  Nothing was rewritten on the way to the idealized kernel, so there is nothing to
  preserve.

  The value claim: at the ideal values both programs compute ONE function `G` of the thirteen arguments.  A layer
  is `relu (mean(h) · Wl + h · Wr + b)`.  Both programs form the neighbourhood sum of `h` and the node degrees by the
  same gather and scatter-add of the same edge list, so these are carried as opaque arrays; the kernel multiplies
  the sum by the reciprocal `1 / max(deg, 1)` where the reference divides by `max(deg, 1)`, which is the same
  extended real because the clamped degree is at least one.  The kernel computes each layer on blocks of 5000 rows
  (a row block of a matrix product is the matching rows of the whole product).  The reference lays the three
  layers' outputs side by side and multiplies by the column of 384 weights; the kernel multiplies each output by its
  run of 128 weights, padded into column 0 of a 128 × 128 matrix, adds the three and keeps column 0: a sum over 384
  positions is the sum of its three runs of 128.  No step needs the inputs to be finite.
-/
import proofs.«147244_j38216618999857_1_alg».proof.Defs
import proofs.«147244_j38216618999857_1_alg».proof.Proof.Gen.Kernel
import proofs.«147244_j38216618999857_1_alg».proof.Proof.Gen.Kernel.Frame
import proofs.«147244_j38216618999857_1_alg».proof.Proof.Gen.KernelIdeal
import proofs.«147244_j38216618999857_1_alg».proof.Proof.Gen.KernelIdeal.Frame
import proofs.«147244_j38216618999857_1_alg».proof.Proof.Gen.ReferenceIdeal
import proofs.«147244_j38216618999857_1_alg».proof.Proof.Gen.Pre_finite_inputs
import proofs.«147244_j38216618999857_1_alg».proof.Proof.Gen.ReferenceIdeal.Run
import proofs.«147244_j38216618999857_1_alg».proof.Proof.Gen.ReferenceIdeal.Read
import proofs.«147244_j38216618999857_1_alg».proof.Proof.KernelRun
import proofs.«147244_j38216618999857_1_alg».proof.Proof.KernelIsCommon
import proofs.«147244_j38216618999857_1_alg».proof.Proof.RefIsCommon
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

/-- The reference's frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both programs end at the common function of the (agreeing) arguments. -/
theorem algebraic : Cert.algebraic_KernelIdeal_ReferenceIdeal := by
  intro m ρ m' ρ' _ hagree
  refine ⟨fun c => Cert.KernelIdeal.Common.G
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8))
      (m ((c.tc : Thread Cert.KernelIdeal.nD Cert.KernelIdeal.τ).loc Cert.KernelIdeal.main_arg9))
      (m ((c.tc : Thread Cert.KernelIdeal.nD Cert.KernelIdeal.τ).loc Cert.KernelIdeal.main_arg10))
      (m ((c.tc : Thread Cert.KernelIdeal.nD Cert.KernelIdeal.τ).loc Cert.KernelIdeal.main_arg11))
      (m ((c.tc : Thread Cert.KernelIdeal.nD Cert.KernelIdeal.τ).loc Cert.KernelIdeal.main_arg12)), ?_, ?_⟩
  · exact (θ_run Cert.KernelIdeal.defs _ _).mono
      (fun _ h c => ⟨(h c).1.trans (Cert.KernelIdeal.Whole.kernel_value m ρ c), (h c).2⟩)
      (Cert.KernelIdeal.RunValue.run (F := Ideal) m ρ)
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v87_eq, Cert.ReferenceIdeal.RefValue.ref_is_G]
    obtain ⟨h0, h1, h2, h3, h4, h5, h6, h7, h8, h9, h10, h11, h12⟩ := hagree c
    rw [h0, h1, h2, h3, h4, h5, h6, h7, h8, h9, h10, h11, h12]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
